-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S1120x4096 .f32 .bf16
  ∧ IdealRules.truncf_extf.Statement Cert.KernelIdeal.S4096x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v73)) (v1 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_v71) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2000x1024 : Shape := ⟨3, ![4, 2000, 1024]⟩
abbrev S4x2000 : Shape := ⟨2, ![4, 2000]⟩
abbrev S4x300 : Shape := ⟨2, ![4, 300]⟩
abbrev S4096x50000 : Shape := ⟨2, ![4096, 50000]⟩
abbrev S50000 : Shape := ⟨1, ![50000]⟩
abbrev S_ : Shape := ⟨0, ![]⟩

class Facts : Prop where
  bcast_S_S4x2000x1024 : S_.BroadcastsInDim S4x2000x1024 (![] : Fin 0 → Fin S4x2000x1024.rank)
  reducesTo_S4x2000x1024_S_d0_1_2 : S4x2000x1024.ReducesTo [0, 1, 2] S_
  h_S_ : 0 < S_.numel
  bcast_S_S4x2000 : S_.BroadcastsInDim S4x2000 (![] : Fin 0 → Fin S4x2000.rank)
  reducesTo_S4x2000_S_d0_1 : S4x2000.ReducesTo [0, 1] S_
  bcast_S_S4x300 : S_.BroadcastsInDim S4x300 (![] : Fin 0 → Fin S4x300.rank)
  reducesTo_S4x300_S_d0_1 : S4x300.ReducesTo [0, 1] S_
  bcast_S_S4096x50000 : S_.BroadcastsInDim S4096x50000 (![] : Fin 0 → Fin S4096x50000.rank)
  reducesTo_S4096x50000_S_d0_1 : S4096x50000.ReducesTo [0, 1] S_
  bcast_S_S50000 : S_.BroadcastsInDim S50000 (![] : Fin 0 → Fin S50000.rank)
  reducesTo_S50000_S_d0 : S50000.ReducesTo [0] S_

variable [Facts]

def fn_part1 {F : FTy → Type} [FloatOps F] (main_arg4 : FVec F S50000 .f32) (main_v13 : IVec S_ 1) (main_v16 : IVec S4096x50000 1) : IVec S_ 1 :=
  let main_c_5 : IVec S_ 1 := constantI S_ 1 1#1
  let main_v17 : IVec S_ 1 := (fun x v => Host.reduce IntOp.andi x v reducesTo_S4096x50000_S_d0_1 h_S_) main_v16 main_c_5
  let main_v18 : IVec S_ 1 := andi main_v13 main_v17
  let main_v19 : FVec F S50000 .f32 := Host.absf main_arg4
  let main_cst_6 : FVec F S_ .f32 := constant S_ .f32 0x7F800000#32
  let main_v20 : FVec F S50000 .f32 := broadcastInDim S50000 ![] bcast_S_S50000 main_cst_6
  let main_v21 : IVec S50000 1 := cmpf .olt main_v19 main_v20
  let main_c_7 : IVec S_ 1 := constantI S_ 1 1#1
  let main_v22 : IVec S_ 1 := (fun x v => Host.reduce IntOp.andi x v reducesTo_S50000_S_d0 h_S_) main_v21 main_c_7
  let main_v23 : IVec S_ 1 := andi main_v18 main_v22
  main_v23

def fn {F : FTy → Type} [FloatOps F] (main_arg0 : FVec F S4x2000x1024 .f32) (main_arg1 : FVec F S4x2000 .f32) (main_arg2 : FVec F S4x300 .f32) (main_arg3 : FVec F S4096x50000 .f32) (main_arg4 : FVec F S50000 .f32) : IVec S_ 1 :=
  let main_v0 : FVec F S4x2000x1024 .f32 := Host.absf main_arg0
  let main_cst : FVec F S_ .f32 := constant S_ .f32 0x7F800000#32
  let main_v1 : FVec F S4x2000x1024 .f32 := broadcastInDim S4x2000x1024 ![] bcast_S_S4x2000x1024 main_cst
  let main_v2 : IVec S4x2000x1024 1 := cmpf .olt main_v0 main_v1
  let main_c : IVec S_ 1 := constantI S_ 1 1#1
  let main_v3 : IVec S_ 1 := (fun x v => Host.reduce IntOp.andi x v reducesTo_S4x2000x1024_S_d0_1_2 h_S_) main_v2 main_c
  let main_v4 : FVec F S4x2000 .f32 := Host.absf main_arg1
  let main_cst_0 : FVec F S_ .f32 := constant S_ .f32 0x7F800000#32
  let main_v5 : FVec F S4x2000 .f32 := broadcastInDim S4x2000 ![] bcast_S_S4x2000 main_cst_0
  let main_v6 : IVec S4x2000 1 := cmpf .olt main_v4 main_v5
  let main_c_1 : IVec S_ 1 := constantI S_ 1 1#1
  let main_v7 : IVec S_ 1 := (fun x v => Host.reduce IntOp.andi x v reducesTo_S4x2000_S_d0_1 h_S_) main_v6 main_c_1
  let main_v8 : IVec S_ 1 := andi main_v3 main_v7
  let main_v9 : FVec F S4x300 .f32 := Host.absf main_arg2
  let main_cst_2 : FVec F S_ .f32 := constant S_ .f32 0x7F800000#32
  let main_v10 : FVec F S4x300 .f32 := broadcastInDim S4x300 ![] bcast_S_S4x300 main_cst_2
  let main_v11 : IVec S4x300 1 := cmpf .olt main_v9 main_v10
  let main_c_3 : IVec S_ 1 := constantI S_ 1 1#1
  let main_v12 : IVec S_ 1 := (fun x v => Host.reduce IntOp.andi x v reducesTo_S4x300_S_d0_1 h_S_) main_v11 main_c_3
  let main_v13 : IVec S_ 1 := andi main_v8 main_v12
  let main_v14 : FVec F S4096x50000 .f32 := Host.absf main_arg3
  let main_cst_4 : FVec F S_ .f32 := constant S_ .f32 0x7F800000#32
  let main_v15 : FVec F S4096x50000 .f32 := broadcastInDim S4096x50000 ![] bcast_S_S4096x50000 main_cst_4
  let main_v16 : IVec S4096x50000 1 := cmpf .olt main_v14 main_v15
  fn_part1 (F := F) main_arg4 main_v13 main_v16
-- ==== Kernel.lean ====
abbrev S4x2000x1024 : Shape := ⟨3, ![4, 2000, 1024]⟩
abbrev S4x2000 : Shape := ⟨2, ![4, 2000]⟩
abbrev S4x300 : Shape := ⟨2, ![4, 300]⟩
abbrev S4096x50000 : Shape := ⟨2, ![4096, 50000]⟩
abbrev S50000 : Shape := ⟨1, ![50000]⟩
abbrev S4x1 : Shape := ⟨2, ![4, 1]⟩
abbrev S4 : Shape := ⟨1, ![4]⟩
abbrev S4x300x1 : Shape := ⟨3, ![4, 300, 1]⟩
abbrev S4x1x2000 : Shape := ⟨3, ![4, 1, 2000]⟩
abbrev S4x300x2000 : Shape := ⟨3, ![4, 300, 2000]⟩
abbrev S4x1x1 : Shape := ⟨3, ![4, 1, 1]⟩
abbrev S_ : Shape := ⟨0, ![]⟩
abbrev S300x2000 : Shape := ⟨2, ![300, 2000]⟩
abbrev S4x300x1024 : Shape := ⟨3, ![4, 300, 1024]⟩
abbrev S4x280x1024 : Shape := ⟨3, ![4, 280, 1024]⟩
abbrev S4x1024 : Shape := ⟨2, ![4, 1024]⟩
abbrev S4x1x1024 : Shape := ⟨3, ![4, 1, 1024]⟩
abbrev S1x1024 : Shape := ⟨2, ![1, 1024]⟩
abbrev S1120x1024 : Shape := ⟨2, ![1120, 1024]⟩
abbrev S1121x1024 : Shape := ⟨2, ![1121, 1024]⟩
abbrev S1122x1024 : Shape := ⟨2, ![1122, 1024]⟩
abbrev S1123x1024 : Shape := ⟨2, ![1123, 1024]⟩
abbrev S1120x4096 : Shape := ⟨2, ![1120, 4096]⟩
abbrev S1x50000 : Shape := ⟨2, ![1, 50000]⟩
abbrev S1120x50000 : Shape := ⟨2, ![1120, 50000]⟩
abbrev S4096x256 : Shape := ⟨2, ![4096, 256]⟩
abbrev S1x256 : Shape := ⟨2, ![1, 256]⟩
abbrev S1120x256 : Shape := ⟨2, ![1120, 256]⟩

abbrev nBuf : Space → Nat
  | .hbm => 136
  | .vmem => 7
  | .smem => 0
  | _ => 0

abbrev hbmTy0_0 (i : Nat) : BufTy := match i % 128 with
  | 0 => ⟨S4x2000x1024, .f32⟩
  | 1 => ⟨S4x2000, .f32⟩
  | 2 => ⟨S4x300, .f32⟩
  | 3 => ⟨S4096x50000, .f32⟩
  | 4 => ⟨S50000, .f32⟩
  | 5 => ⟨S4x1, .f32⟩
  | 6 => ⟨S4, .f32⟩
  | 7 => ⟨S4x1, .f32⟩
  | 8 => ⟨S4, .f32⟩
  | 9 => ⟨S4, .f32⟩
  | 10 => ⟨S4x1, .f32⟩
  | 11 => ⟨S4, .f32⟩
  | 12 => ⟨S4x1, .f32⟩
  | 13 => ⟨S4, .f32⟩
  | 14 => ⟨S4, .f32⟩
  | 15 => ⟨S4, .f32⟩
  | 16 => ⟨S4x300x1, .f32⟩
  | 17 => ⟨S4x1x2000, .f32⟩
  | 18 => ⟨S4x300x2000, .f32⟩
  | 19 => ⟨S4x300x2000, .f32⟩
  | 20 => ⟨S4x300x2000, .f32⟩
  | 21 => ⟨S4x1x1, .f32⟩
  | 22 => ⟨S4x300x2000, .f32⟩
  | 23 => ⟨S4x300x2000, .f32⟩
  | 24 => ⟨S4x300x2000, .f32⟩
  | 25 => ⟨S_, .f32⟩
  | 26 => ⟨S4x300x2000, .f32⟩
  | 27 => ⟨S4x300x2000, .i1⟩
  | 28 => ⟨S_, .f32⟩
  | 29 => ⟨S4x300x2000, .f32⟩
  | 30 => ⟨S4x300x2000, .i1⟩
  | 31 => ⟨S_, .f32⟩
  | 32 => ⟨S4x300x2000, .f32⟩
  | 33 => ⟨S4x300x2000, .f32⟩
  | 34 => ⟨S4x300x2000, .f32⟩
  | 35 => ⟨S_, .f32⟩
  | 36 => ⟨S4x300x2000, .f32⟩
  | 37 => ⟨S4x300x2000, .f32⟩
  | 38 => ⟨S4x300x2000, .f32⟩
  | 39 => ⟨S_, .f32⟩
  | 40 => ⟨S_, .f32⟩
  | 41 => ⟨S300x2000, .f32⟩
  | 42 => ⟨S4x300x2000, .f32⟩
  | 43 => ⟨S4x300x2000, .f32⟩
  | 44 => ⟨S_, .f32⟩
  | 45 => ⟨S4x300x2000, .f32⟩
  | 46 => ⟨S4x300x2000, .f32⟩
  | 47 => ⟨S_, .f32⟩
  | 48 => ⟨S4x300x2000, .f32⟩
  | 49 => ⟨S4x300x2000, .i1⟩
  | 50 => ⟨S_, .f32⟩
  | 51 => ⟨S4x300x2000, .f32⟩
  | 52 => ⟨S4x300x2000, .f32⟩
  | 53 => ⟨S4x300x2000, .f32⟩
  | 54 => ⟨S_, .f32⟩
  | 55 => ⟨S4x300x2000, .f32⟩
  | 56 => ⟨S4x300x2000, .f32⟩
  | 57 => ⟨S4x300x2000, .f32⟩
  | 58 => ⟨S_, .f32⟩
  | 59 => ⟨S_, .f32⟩
  | 60 => ⟨S300x2000, .f32⟩
  | 61 => ⟨S4x300x2000, .f32⟩
  | 62 => ⟨S4x300x2000, .f32⟩
  | 63 => ⟨S4x300x2000, .f32⟩
  | 64 => ⟨S_, .f32⟩
  | 65 => ⟨S_, .f32⟩
  | 66 => ⟨S300x2000, .f32⟩
  | 67 => ⟨S4x300x2000, .f32⟩
  | 68 => ⟨S4x300x2000, .f32⟩
  | 69 => ⟨S_, .f32⟩
  | 70 => ⟨S4x300, .f32⟩
  | 71 => ⟨S4x300x1, .f32⟩
  | 72 => ⟨S_, .f32⟩
  | 73 => ⟨S4x300x1, .f32⟩
  | 74 => ⟨S4x300x1, .i1⟩
  | 75 => ⟨S4x300x2000, .f32⟩
  | 76 => ⟨S4x300x2000, .f32⟩
  | 77 => ⟨S4x300x2000, .i1⟩
  | 78 => ⟨S4x300x2000, .f32⟩
  | 79 => ⟨S4x300x1024, .f32⟩
  | 80 => ⟨S4x280x1024, .f32⟩
  | 81 => ⟨S_, .f32⟩
  | 82 => ⟨S4x1024, .f32⟩
  | 83 => ⟨S4x1x1024, .f32⟩
  | 84 => ⟨S_, .f32⟩
  | 85 => ⟨S4x1x1024, .f32⟩
  | 86 => ⟨S4x1x1024, .f32⟩
  | 87 => ⟨S_, .i32⟩
  | 88 => ⟨S_, .f32⟩
  | 89 => ⟨S4x1024, .f32⟩
  | 90 => ⟨S4x1x1024, .f32⟩
  | 91 => ⟨S_, .f32⟩
  | 92 => ⟨S4x1x1024, .f32⟩
  | 93 => ⟨S4x1x1024, .f32⟩
  | 94 => ⟨S4x280x1024, .f32⟩
  | 95 => ⟨S4x280x1024, .f32⟩
  | 96 => ⟨S4x280x1024, .f32⟩
  | 97 => ⟨S_, .f32⟩
  | 98 => ⟨S_, .f32⟩
  | 99 => ⟨S_, .f32⟩
  | 100 => ⟨S_, .f32⟩
  | 101 => ⟨S4x1024, .f32⟩
  | 102 => ⟨S4x1x1024, .f32⟩
  | 103 => ⟨S4x1x1024, .f32⟩
  | 104 => ⟨S4x1x1024, .f32⟩
  | 105 => ⟨S_, .f32⟩
  | 106 => ⟨S_, .i1⟩
  | 107 => ⟨S_, .f32⟩
  | 108 => ⟨S_, .f32⟩
  | 109 => ⟨S1x1024, .f32⟩
  | 110 => ⟨S4x1x1024, .f32⟩
  | 111 => ⟨S4x1x1024, .f32⟩
  | 112 => ⟨S4x1x1024, .f32⟩
  | 113 => ⟨S_, .f32⟩
  | 114 => ⟨S4x1x1024, .f32⟩
  | 115 => ⟨S4x1x1024, .f32⟩
  | 116 => ⟨S4x280x1024, .f32⟩
  | 117 => ⟨S4x280x1024, .f32⟩
  | 118 => ⟨S4x280x1024, .f32⟩
  | 119 => ⟨S4x280x1024, .f32⟩
  | 120 => ⟨S1120x1024, .f32⟩
  | 121 => ⟨S_, .i32⟩
  | 122 => ⟨S_, .f32⟩
  | 123 => ⟨S1121x1024, .f32⟩
  | 124 => ⟨S1120x1024, .f32⟩
  | 125 => ⟨S_, .i32⟩
  | 126 => ⟨S_, .f32⟩
  | 127 => ⟨S1122x1024, .f32⟩
  | _ => ⟨S4x2000x1024, .f32⟩

abbrev hbmTy0_1 (i : Nat) : BufTy := match i % 128 with
  | 0 => ⟨S1120x1024, .f32⟩
  | 1 => ⟨S_, .i32⟩
  | 2 => ⟨S_, .f32⟩
  | 3 => ⟨S1123x1024, .f32⟩
  | 4 => ⟨S1120x1024, .f32⟩
  | 5 => ⟨S1120x4096, .f32⟩
  | 6 => ⟨S1x50000, .f32⟩
  | 7 => ⟨S1120x50000, .f32⟩
  | _ => ⟨S4x2000x1024, .f32⟩

abbrev hbmTy (i : Nat) : BufTy := match i / 128 with
  | 0 => hbmTy0_0 i
  | 1 => hbmTy0_1 i
  | _ => ⟨S4x2000x1024, .f32⟩

abbrev bufTy : (tb : Table) → Fin (tcTables nBuf tb) → BufTy
  | .hbm, ⟨i, _⟩ => hbmTy i
  | .local _ .vmem, ⟨0, _⟩ => ⟨S1120x4096, .f32⟩
  | .local _ .vmem, ⟨1, _⟩ => ⟨S4096x256, .f32⟩
  | .local _ .vmem, ⟨2, _⟩ => ⟨S4096x256, .f32⟩
  | .local _ .vmem, ⟨3, _⟩ => ⟨S1x256, .f32⟩
  | .local _ .vmem, ⟨4, _⟩ => ⟨S1x256, .f32⟩
  | .local _ .vmem, ⟨5, _⟩ => ⟨S1120x256, .f32⟩
  | .local _ .vmem, ⟨6, _⟩ => ⟨S1120x256, .f32⟩
  | _, _ => ⟨S4x2000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_v43 : Ref sig .tc := ⟨.hbm, 68, rfl⟩
abbrev main_cst_10 : Ref sig .tc := ⟨.hbm, 69, rfl⟩
abbrev main_v44 : Ref sig .tc := ⟨.hbm, 70, rfl⟩
abbrev main_v45 : Ref sig .tc := ⟨.hbm, 71, rfl⟩
abbrev main_cst_11 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_call3_v0 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_12 : Ref sig .tc := ⟨.hbm, 81, rfl⟩
abbrev main_v53 : Ref sig .tc := ⟨.hbm, 82, rfl⟩
abbrev main_v54 : Ref sig .tc := ⟨.hbm, 83, rfl⟩
abbrev main_cst_13 : Ref sig .tc := ⟨.hbm, 84, rfl⟩
abbrev main_v55 : Ref sig .tc := ⟨.hbm, 85, rfl⟩
abbrev main_v56 : Ref sig .tc := ⟨.hbm, 86, rfl⟩
abbrev main_c : Ref sig .tc := ⟨.hbm, 87, rfl⟩
abbrev main_call4_call0_cst : Ref sig .tc := ⟨.hbm, 88, rfl⟩
abbrev main_call4_call0_v0 : Ref sig .tc := ⟨.hbm, 89, rfl⟩
abbrev main_call4_call0_v1 : Ref sig .tc := ⟨.hbm, 90, rfl⟩
abbrev main_call4_call0_cst_0 : Ref sig .tc := ⟨.hbm, 91, rfl⟩
abbrev main_call4_call0_v2 : Ref sig .tc := ⟨.hbm, 92, rfl⟩
abbrev main_call4_call0_v3 : Ref sig .tc := ⟨.hbm, 93, rfl⟩
abbrev main_call4_call0_v4 : Ref sig .tc := ⟨.hbm, 94, rfl⟩
abbrev main_call4_call0_v5 : Ref sig .tc := ⟨.hbm, 95, rfl⟩
abbrev main_call4_call0_v6 : Ref sig .tc := ⟨.hbm, 96, rfl⟩
abbrev main_call4_call0_v7 : Ref sig .tc := ⟨.hbm, 97, rfl⟩
abbrev main_call4_call0_cst_1 : Ref sig .tc := ⟨.hbm, 98, rfl⟩
abbrev main_call4_call0_v8 : Ref sig .tc := ⟨.hbm, 99, rfl⟩
abbrev main_call4_call0_cst_2 : Ref sig .tc := ⟨.hbm, 100, rfl⟩
abbrev main_call4_call0_v9 : Ref sig .tc := ⟨.hbm, 101, rfl⟩
abbrev main_call4_call0_v10 : Ref sig .tc := ⟨.hbm, 102, rfl⟩
abbrev main_call4_call0_v11 : Ref sig .tc := ⟨.hbm, 103, rfl⟩
abbrev main_call4_call0_v12 : Ref sig .tc := ⟨.hbm, 104, rfl⟩
abbrev main_call4_call0_cst_3 : Ref sig .tc := ⟨.hbm, 105, rfl⟩
abbrev main_call4_call0_v13 : Ref sig .tc := ⟨.hbm, 106, rfl⟩
abbrev main_call4_call0_cst_4 : Ref sig .tc := ⟨.hbm, 107, rfl⟩
abbrev main_call4_call0_call0_v0 : Ref sig .tc := ⟨.hbm, 108, rfl⟩
abbrev main_call4_call0_call0_v1 : Ref sig .tc := ⟨.hbm, 109, rfl⟩
abbrev main_call4_call0_call0_v2 : Ref sig .tc := ⟨.hbm, 110, rfl⟩
abbrev main_call4_v0 : Ref sig .tc := ⟨.hbm, 111, rfl⟩
abbrev main_v57 : Ref sig .tc := ⟨.hbm, 112, rfl⟩
abbrev main_cst_14 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_c_15 : Ref sig .tc := ⟨.hbm, 121, rfl⟩
abbrev main_call5_v0 : Ref sig .tc := ⟨.hbm, 122, rfl⟩
abbrev main_v65 : Ref sig .tc := ⟨.hbm, 123, rfl⟩
abbrev main_v66 : Ref sig .tc := ⟨.hbm, 124, rfl⟩
abbrev main_c_16 : Ref sig .tc := ⟨.hbm, 125, rfl⟩
abbrev main_call6_v0 : Ref sig .tc := ⟨.hbm, 126, rfl⟩
abbrev main_v67 : Ref sig .tc := ⟨.hbm, 127, rfl⟩
abbrev main_v68 : Ref sig .tc := ⟨.hbm, 128, rfl⟩
abbrev main_c_17 : Ref sig .tc := ⟨.hbm, 129, rfl⟩
abbrev main_call7_v0 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![196], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1120x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1120x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S4x2000_S4x1_0_1999 : S4x2000.Slices ![0, 1999] S4x1
  shapeCasts_S4x1_S4 : S4x1.ShapeCasts S4
  slices_S4x2000_S4x1_0_0 : S4x2000.Slices ![0, 0] S4x1
  slices_S4x300_S4x1_0_299 : S4x300.Slices ![0, 299] S4x1
  slices_S4x300_S4x1_0_0 : S4x300.Slices ![0, 0] S4x1
  bcast_S4x300_S4x300x1_0_1 : S4x300.BroadcastsInDim S4x300x1 (![0, 1] : Fin 2 → Fin S4x300x1.rank)
  bcast_S4x2000_S4x1x2000_0_2 : S4x2000.BroadcastsInDim S4x1x2000 (![0, 2] : Fin 2 → Fin S4x1x2000.rank)
  bcast_S4x300x1_S4x300x2000_0_1_2 : S4x300x1.BroadcastsInDim S4x300x2000 (![0, 1, 2] : Fin 3 → Fin S4x300x2000.rank)
  bcast_S4x1x2000_S4x300x2000_0_1_2 : S4x1x2000.BroadcastsInDim S4x300x2000 (![0, 1, 2] : Fin 3 → Fin S4x300x2000.rank)
  bcast_S4_S4x1x1_0 : S4.BroadcastsInDim S4x1x1 (![0] : Fin 1 → Fin S4x1x1.rank)
  bcast_S4x1x1_S4x300x2000_0_1_2 : S4x1x1.BroadcastsInDim S4x300x2000 (![0, 1, 2] : Fin 3 → Fin S4x300x2000.rank)
  bcast_S_S4x300x2000 : S_.BroadcastsInDim S4x300x2000 (![] : Fin 0 → Fin S4x300x2000.rank)
  bcast_S_S300x2000 : S_.BroadcastsInDim S300x2000 (![] : Fin 0 → Fin S300x2000.rank)
  bcast_S300x2000_S4x300x2000_1_2 : S300x2000.BroadcastsInDim S4x300x2000 (![1, 2] : Fin 2 → Fin S4x300x2000.rank)
  reducesTo_S4x300x2000_S4x300_d2 : S4x300x2000.ReducesTo [2] S4x300
  h_S_ : 0 < S_.numel
  bcast_S_S4x300x1 : S_.BroadcastsInDim S4x300x1 (![] : Fin 0 → Fin S4x300x1.rank)
  slices_S4x300x1024_S4x280x1024_0_10_0 : S4x300x1024.Slices ![0, 10, 0] S4x280x1024
  reducesTo_S4x280x1024_S4x1024_d1 : S4x280x1024.ReducesTo [1] S4x1024
  bcast_S4x1024_S4x1x1024_0_2 : S4x1024.BroadcastsInDim S4x1x1024 (![0, 2] : Fin 2 → Fin S4x1x1024.rank)
  bcast_S_S4x1x1024 : S_.BroadcastsInDim S4x1x1024 (![] : Fin 0 → Fin S4x1x1024.rank)
  bcast_S4x1x1024_S4x280x1024_0_1_2 : S4x1x1024.BroadcastsInDim S4x280x1024 (![0, 1, 2] : Fin 3 → Fin S4x280x1024.rank)
  bcast_S_S1x1024 : S_.BroadcastsInDim S1x1024 (![] : Fin 0 → Fin S1x1024.rank)
  bcast_S1x1024_S4x1x1024_1_2 : S1x1024.BroadcastsInDim S4x1x1024 (![1, 2] : Fin 2 → Fin S4x1x1024.rank)
  shapeCasts_S4x280x1024_S1120x1024 : S4x280x1024.ShapeCasts S1120x1024
  pads_S1120x1024_S1121x1024_100_000 : S1120x1024.Pads (![1, 0] : Fin 2 → Nat) ![0, 0] ![0, 0] S1121x1024
  slices_S1121x1024_S1120x1024_0_0 : S1121x1024.Slices ![0, 0] S1120x1024
  pads_S1120x1024_S1122x1024_200_000 : S1120x1024.Pads (![2, 0] : Fin 2 → Nat) ![0, 0] ![0, 0] S1122x1024
  slices_S1122x1024_S1120x1024_0_0 : S1122x1024.Slices ![0, 0] S1120x1024
  pads_S1120x1024_S1123x1024_300_000 : S1120x1024.Pads (![3, 0] : Fin 2 → Nat) ![0, 0] ![0, 0] S1123x1024
  slices_S1123x1024_S1120x1024_0_0 : S1123x1024.Slices ![0, 0] S1120x1024
  concatenates_S1120x1024_S1120x1024_S1120x1024_S1120x1024_S1120x4096_d1 : Shape.Concatenates [S1120x1024, S1120x1024, S1120x1024, S1120x1024] S1120x4096 1
  shapeCasts_S50000_S1x50000 : S50000.ShapeCasts S1x50000
  inb_S1120x4096_S1120x4096_0_0 : ∀ a, (![0, 0] : Fin 2 → Nat) a + S1120x4096.size a ≤ S1120x4096.size a
  h_S1120x4096 : 0 < S1120x4096.numel
  shapeCasts_S1120x4096_S1120x4096 : S1120x4096.ShapeCasts S1120x4096
  inb_S4096x256_S4096x256_0_0 : ∀ a, (![0, 0] : Fin 2 → Nat) a + S4096x256.size a ≤ S4096x256.size a
  h_S4096x256 : 0 < S4096x256.numel
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1120x256 : S1x256.Broadcasts S1120x256
  inb_S1120x256_S1120x256_0_0 : ∀ a, (![0, 0] : Fin 2 → Nat) a + S1120x256.size a ≤ S1120x256.size a
  h_S1120x256 : 0 < S1120x256.numel
  dot_S4x300x2000_S4x2000x1024_S4x300x1024_2_1_1_2_0_0_wf : DotDims.WF S4x300x2000 S4x2000x1024 S4x300x1024 [2] [1] [1] [2] [0] [0]
  dot_S1120x4096_S4096x256_S1120x256_1_0_0_1_n_n_wf : DotDims.WF S1120x4096 S4096x256 S1120x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1120x4096.size a ≤ S1120x4096.size a
  hwx0_0 : ∀ i : grid0.Coords, EltTy.bits .f32 = 32 ∨ (Rect.block (s := S1120x4096) S1120x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4096x256.size a < S4096x50000.size a
  hwx0_1 : ∀ i : grid0.Coords, EltTy.bits .f32 = 32 ∨ (Rect.unit (s := S4096x50000) (fun a => cc0_transform_1 i a * S4096x256.size a) (fun a => (Pipeline.Clip.of (cc0_transform_1 i a) (S4096x256.size a) (S4096x50000.size a)).extent (S4096x256.size a)) fun a => Pipeline.Clip.inb (Pipeline.Clip.ok_of (hstart0_1 i a))).WholeWords (EltTy.packing .f32)
  hwxs0_1 : ∀ i : grid0.Coords, EltTy.bits .f32 = 32 ∨ (Rect.unit (s := S4096x256) (fun _ => 0) (fun a => (Pipeline.Clip.of (cc0_transform_1 i a) (S4096x256.size a) (S4096x50000.size a)).extent (S4096x256.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x256.size a < S1x50000.size a
  hwx0_2 : ∀ i : grid0.Coords, EltTy.bits .f32 = 32 ∨ (Rect.unit (s := S1x50000) (fun a => cc0_transform_2 i a * S1x256.size a) (fun a => (Pipeline.Clip.of (cc0_transform_2 i a) (S1x256.size a) (S1x50000.size a)).extent (S1x256.size a)) fun a => Pipeline.Clip.inb (Pipeline.Clip.ok_of (hstart0_2 i a))).WholeWords (EltTy.packing .f32)
  hwxs0_2 : ∀ i : grid0.Coords, EltTy.bits .f32 = 32 ∨ (Rect.unit (s := S1x256) (fun _ => 0) (fun a => (Pipeline.Clip.of (cc0_transform_2 i a) (S1x256.size a) (S1x50000.size a)).extent (S1x256.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1120x256.size a < S1120x50000.size a
  hwx0_3 : ∀ i : grid0.Coords, EltTy.bits .f32 = 32 ∨ (Rect.unit (s := S1120x50000) (fun a => cc0_transform_3 i a * S1120x256.size a) (fun a => (Pipeline.Clip.of (cc0_transform_3 i a) (S1120x256.size a) (S1120x50000.size a)).extent (S1120x256.size a)) fun a => Pipeline.Clip.inb (Pipeline.Clip.ok_of (hstart0_3 i a))).WholeWords (EltTy.packing .f32)
  hwxs0_3 : ∀ i : grid0.Coords, EltTy.bits .f32 = 32 ∨ (Rect.unit (s := S1120x256) (fun _ => 0) (fun a => (Pipeline.Clip.of (cc0_transform_3 i a) (S1120x256.size a) (S1120x50000.size a)).extent (S1120x256.size a)) fun a => (Nat.zero_add _).trans_le (Pipeline.Clip.extent_le (Pipeline.Clip.ok_of (hstart0_3 i a)))).WholeWords (EltTy.packing .f32)

variable [Facts₀]

def dot_S4x300x2000_S4x2000x1024_S4x300x1024_2_1_1_2_0_0 : DotDims S4x300x2000 S4x2000x1024 S4x300x1024 where
  lhsContracting := [2]
  rhsContracting := [1]
  lhsNonContracting := [1]
  rhsNonContracting := [2]
  lhsBatch := [0]
  rhsBatch := [0]
  wf := dot_S4x300x2000_S4x2000x1024_S4x300x1024_2_1_1_2_0_0_wf
def dot_S1120x4096_S4096x256_S1120x256_1_0_0_1_n_n : DotDims S1120x4096 S4096x256 S1120x256 where
  lhsContracting := [1]
  rhsContracting := [0]
  lhsNonContracting := [0]
  rhsNonContracting := [1]
  lhsBatch := []
  rhsBatch := []
  wf := dot_S1120x4096_S4096x256_S1120x256_1_0_0_1_n_n_wf

abbrev win0_0 : Pipeline.Window sig grid0 :=
  Pipeline.Window.ofSpec (Memref.whole main_v71) S1120x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg3) S4096x256.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v72) S1x256.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v73) S1120x256.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2000x1024 : Shape := ⟨3, ![4, 2000, 1024]⟩
abbrev S4x2000 : Shape := ⟨2, ![4, 2000]⟩
abbrev S4x300 : Shape := ⟨2, ![4, 300]⟩
abbrev S4096x50000 : Shape := ⟨2, ![4096, 50000]⟩
abbrev S50000 : Shape := ⟨1, ![50000]⟩
abbrev S4x1 : Shape := ⟨2, ![4, 1]⟩
abbrev S4 : Shape := ⟨1, ![4]⟩
abbrev S4x300x1 : Shape := ⟨3, ![4, 300, 1]⟩
abbrev S4x1x2000 : Shape := ⟨3, ![4, 1, 2000]⟩
abbrev S4x300x2000 : Shape := ⟨3, ![4, 300, 2000]⟩
abbrev S4x1x1 : Shape := ⟨3, ![4, 1, 1]⟩
abbrev S_ : Shape := ⟨0, ![]⟩
abbrev S300x2000 : Shape := ⟨2, ![300, 2000]⟩
abbrev S4x300x1024 : Shape := ⟨3, ![4, 300, 1024]⟩
abbrev S4x280x1024 : Shape := ⟨3, ![4, 280, 1024]⟩
abbrev S4x1024 : Shape := ⟨2, ![4, 1024]⟩
abbrev S4x1x1024 : Shape := ⟨3, ![4, 1, 1024]⟩
abbrev S1x1024 : Shape := ⟨2, ![1, 1024]⟩
abbrev S1120x1024 : Shape := ⟨2, ![1120, 1024]⟩
abbrev S1121x1024 : Shape := ⟨2, ![1121, 1024]⟩
abbrev S1122x1024 : Shape := ⟨2, ![1122, 1024]⟩
abbrev S1123x1024 : Shape := ⟨2, ![1123, 1024]⟩
abbrev S1120x4096 : Shape := ⟨2, ![1120, 4096]⟩
abbrev S1120x50000 : Shape := ⟨2, ![1120, 50000]⟩
abbrev S1x50000 : Shape := ⟨2, ![1, 50000]⟩

abbrev nBuf : Space → Nat
  | .hbm => 138
  | .vmem => 0
  | .smem => 0
  | _ => 0

abbrev hbmTy0_0 (i : Nat) : BufTy := match i % 128 with
  | 0 => ⟨S4x2000x1024, .f32⟩
  | 1 => ⟨S4x2000, .f32⟩
  | 2 => ⟨S4x300, .f32⟩
  | 3 => ⟨S4096x50000, .f32⟩
  | 4 => ⟨S50000, .f32⟩
  | 5 => ⟨S4x1, .f32⟩
  | 6 => ⟨S4, .f32⟩
  | 7 => ⟨S4x1, .f32⟩
  | 8 => ⟨S4, .f32⟩
  | 9 => ⟨S4, .f32⟩
  | 10 => ⟨S4x1, .f32⟩
  | 11 => ⟨S4, .f32⟩
  | 12 => ⟨S4x1, .f32⟩
  | 13 => ⟨S4, .f32⟩
  | 14 => ⟨S4, .f32⟩
  | 15 => ⟨S4, .f32⟩
  | 16 => ⟨S4x300x1, .f32⟩
  | 17 => ⟨S4x1x2000, .f32⟩
  | 18 => ⟨S4x300x2000, .f32⟩
  | 19 => ⟨S4x300x2000, .f32⟩
  | 20 => ⟨S4x300x2000, .f32⟩
  | 21 => ⟨S4x1x1, .f32⟩
  | 22 => ⟨S4x300x2000, .f32⟩
  | 23 => ⟨S4x300x2000, .f32⟩
  | 24 => ⟨S4x300x2000, .f32⟩
  | 25 => ⟨S_, .f32⟩
  | 26 => ⟨S4x300x2000, .f32⟩
  | 27 => ⟨S4x300x2000, .i1⟩
  | 28 => ⟨S_, .f32⟩
  | 29 => ⟨S4x300x2000, .f32⟩
  | 30 => ⟨S4x300x2000, .i1⟩
  | 31 => ⟨S_, .f32⟩
  | 32 => ⟨S4x300x2000, .f32⟩
  | 33 => ⟨S4x300x2000, .f32⟩
  | 34 => ⟨S4x300x2000, .f32⟩
  | 35 => ⟨S_, .f32⟩
  | 36 => ⟨S4x300x2000, .f32⟩
  | 37 => ⟨S4x300x2000, .f32⟩
  | 38 => ⟨S4x300x2000, .f32⟩
  | 39 => ⟨S_, .f32⟩
  | 40 => ⟨S_, .f32⟩
  | 41 => ⟨S300x2000, .f32⟩
  | 42 => ⟨S4x300x2000, .f32⟩
  | 43 => ⟨S4x300x2000, .f32⟩
  | 44 => ⟨S_, .f32⟩
  | 45 => ⟨S4x300x2000, .f32⟩
  | 46 => ⟨S4x300x2000, .f32⟩
  | 47 => ⟨S_, .f32⟩
  | 48 => ⟨S4x300x2000, .f32⟩
  | 49 => ⟨S4x300x2000, .i1⟩
  | 50 => ⟨S_, .f32⟩
  | 51 => ⟨S4x300x2000, .f32⟩
  | 52 => ⟨S4x300x2000, .f32⟩
  | 53 => ⟨S4x300x2000, .f32⟩
  | 54 => ⟨S_, .f32⟩
  | 55 => ⟨S4x300x2000, .f32⟩
  | 56 => ⟨S4x300x2000, .f32⟩
  | 57 => ⟨S4x300x2000, .f32⟩
  | 58 => ⟨S_, .f32⟩
  | 59 => ⟨S_, .f32⟩
  | 60 => ⟨S300x2000, .f32⟩
  | 61 => ⟨S4x300x2000, .f32⟩
  | 62 => ⟨S4x300x2000, .f32⟩
  | 63 => ⟨S4x300x2000, .f32⟩
  | 64 => ⟨S_, .f32⟩
  | 65 => ⟨S_, .f32⟩
  | 66 => ⟨S300x2000, .f32⟩
  | 67 => ⟨S4x300x2000, .f32⟩
  | 68 => ⟨S4x300x2000, .f32⟩
  | 69 => ⟨S_, .f32⟩
  | 70 => ⟨S4x300, .f32⟩
  | 71 => ⟨S4x300x1, .f32⟩
  | 72 => ⟨S_, .f32⟩
  | 73 => ⟨S4x300x1, .f32⟩
  | 74 => ⟨S4x300x1, .i1⟩
  | 75 => ⟨S4x300x2000, .f32⟩
  | 76 => ⟨S4x300x2000, .f32⟩
  | 77 => ⟨S4x300x2000, .i1⟩
  | 78 => ⟨S4x300x2000, .f32⟩
  | 79 => ⟨S4x300x1024, .f32⟩
  | 80 => ⟨S4x280x1024, .f32⟩
  | 81 => ⟨S_, .f32⟩
  | 82 => ⟨S4x1024, .f32⟩
  | 83 => ⟨S4x1x1024, .f32⟩
  | 84 => ⟨S_, .f32⟩
  | 85 => ⟨S4x1x1024, .f32⟩
  | 86 => ⟨S4x1x1024, .f32⟩
  | 87 => ⟨S_, .i32⟩
  | 88 => ⟨S_, .f32⟩
  | 89 => ⟨S4x1024, .f32⟩
  | 90 => ⟨S4x1x1024, .f32⟩
  | 91 => ⟨S_, .f32⟩
  | 92 => ⟨S4x1x1024, .f32⟩
  | 93 => ⟨S4x1x1024, .f32⟩
  | 94 => ⟨S4x280x1024, .f32⟩
  | 95 => ⟨S4x280x1024, .f32⟩
  | 96 => ⟨S4x280x1024, .f32⟩
  | 97 => ⟨S_, .f32⟩
  | 98 => ⟨S_, .f32⟩
  | 99 => ⟨S_, .f32⟩
  | 100 => ⟨S_, .f32⟩
  | 101 => ⟨S4x1024, .f32⟩
  | 102 => ⟨S4x1x1024, .f32⟩
  | 103 => ⟨S4x1x1024, .f32⟩
  | 104 => ⟨S4x1x1024, .f32⟩
  | 105 => ⟨S_, .f32⟩
  | 106 => ⟨S_, .i1⟩
  | 107 => ⟨S_, .f32⟩
  | 108 => ⟨S_, .f32⟩
  | 109 => ⟨S1x1024, .f32⟩
  | 110 => ⟨S4x1x1024, .f32⟩
  | 111 => ⟨S4x1x1024, .f32⟩
  | 112 => ⟨S4x1x1024, .f32⟩
  | 113 => ⟨S_, .f32⟩
  | 114 => ⟨S4x1x1024, .f32⟩
  | 115 => ⟨S4x1x1024, .f32⟩
  | 116 => ⟨S4x280x1024, .f32⟩
  | 117 => ⟨S4x280x1024, .f32⟩
  | 118 => ⟨S4x280x1024, .f32⟩
  | 119 => ⟨S4x280x1024, .f32⟩
  | 120 => ⟨S1120x1024, .f32⟩
  | 121 => ⟨S_, .i32⟩
  | 122 => ⟨S_, .f32⟩
  | 123 => ⟨S1121x1024, .f32⟩
  | 124 => ⟨S1120x1024, .f32⟩
  | 125 => ⟨S_, .i32⟩
  | 126 => ⟨S_, .f32⟩
  | 127 => ⟨S1122x1024, .f32⟩
  | _ => ⟨S4x2000x1024, .f32⟩

abbrev hbmTy0_1 (i : Nat) : BufTy := match i % 128 with
  | 0 => ⟨S1120x1024, .f32⟩
  | 1 => ⟨S_, .i32⟩
  | 2 => ⟨S_, .f32⟩
  | 3 => ⟨S1123x1024, .f32⟩
  | 4 => ⟨S1120x1024, .f32⟩
  | 5 => ⟨S1120x4096, .f32⟩
  | 6 => ⟨S1120x50000, .f32⟩
  | 7 => ⟨S1x50000, .f32⟩
  | 8 => ⟨S1120x50000, .f32⟩
  | 9 => ⟨S1120x50000, .f32⟩
  | _ => ⟨S4x2000x1024, .f32⟩

abbrev hbmTy (i : Nat) : BufTy := match i / 128 with
  | 0 => hbmTy0_0 i
  | 1 => hbmTy0_1 i
  | _ => ⟨S4x2000x1024, .f32⟩

abbrev bufTy : (tb : Table) → Fin (tcTables nBuf tb) → BufTy
  | .hbm, ⟨i, _⟩ => hbmTy i
  | _, _ => ⟨S4x2000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_v43 : Ref sig .tc := ⟨.hbm, 68, rfl⟩
abbrev main_cst_10 : Ref sig .tc := ⟨.hbm, 69, rfl⟩
abbrev main_v44 : Ref sig .tc := ⟨.hbm, 70, rfl⟩
abbrev main_v45 : Ref sig .tc := ⟨.hbm, 71, rfl⟩
abbrev main_cst_11 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_call3_v0 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_12 : Ref sig .tc := ⟨.hbm, 81, rfl⟩
abbrev main_v53 : Ref sig .tc := ⟨.hbm, 82, rfl⟩
abbrev main_v54 : Ref sig .tc := ⟨.hbm, 83, rfl⟩
abbrev main_cst_13 : Ref sig .tc := ⟨.hbm, 84, rfl⟩
abbrev main_v55 : Ref sig .tc := ⟨.hbm, 85, rfl⟩
abbrev main_v56 : Ref sig .tc := ⟨.hbm, 86, rfl⟩
abbrev main_c : Ref sig .tc := ⟨.hbm, 87, rfl⟩
abbrev main_call4_call0_cst : Ref sig .tc := ⟨.hbm, 88, rfl⟩
abbrev main_call4_call0_v0 : Ref sig .tc := ⟨.hbm, 89, rfl⟩
abbrev main_call4_call0_v1 : Ref sig .tc := ⟨.hbm, 90, rfl⟩
abbrev main_call4_call0_cst_0 : Ref sig .tc := ⟨.hbm, 91, rfl⟩
abbrev main_call4_call0_v2 : Ref sig .tc := ⟨.hbm, 92, rfl⟩
abbrev main_call4_call0_v3 : Ref sig .tc := ⟨.hbm, 93, rfl⟩
abbrev main_call4_call0_v4 : Ref sig .tc := ⟨.hbm, 94, rfl⟩
abbrev main_call4_call0_v5 : Ref sig .tc := ⟨.hbm, 95, rfl⟩
abbrev main_call4_call0_v6 : Ref sig .tc := ⟨.hbm, 96, rfl⟩
abbrev main_call4_call0_v7 : Ref sig .tc := ⟨.hbm, 97, rfl⟩
abbrev main_call4_call0_cst_1 : Ref sig .tc := ⟨.hbm, 98, rfl⟩
abbrev main_call4_call0_v8 : Ref sig .tc := ⟨.hbm, 99, rfl⟩
abbrev main_call4_call0_cst_2 : Ref sig .tc := ⟨.hbm, 100, rfl⟩
abbrev main_call4_call0_v9 : Ref sig .tc := ⟨.hbm, 101, rfl⟩
abbrev main_call4_call0_v10 : Ref sig .tc := ⟨.hbm, 102, rfl⟩
abbrev main_call4_call0_v11 : Ref sig .tc := ⟨.hbm, 103, rfl⟩
abbrev main_call4_call0_v12 : Ref sig .tc := ⟨.hbm, 104, rfl⟩
abbrev main_call4_call0_cst_3 : Ref sig .tc := ⟨.hbm, 105, rfl⟩
abbrev main_call4_call0_v13 : Ref sig .tc := ⟨.hbm, 106, rfl⟩
abbrev main_call4_call0_cst_4 : Ref sig .tc := ⟨.hbm, 107, rfl⟩
abbrev main_call4_call0_call0_v0 : Ref sig .tc := ⟨.hbm, 108, rfl⟩
abbrev main_call4_call0_call0_v1 : Ref sig .tc := ⟨.hbm, 109, rfl⟩
abbrev main_call4_call0_call0_v2 : Ref sig .tc := ⟨.hbm, 110, rfl⟩
abbrev main_call4_v0 : Ref sig .tc := ⟨.hbm, 111, rfl⟩
abbrev main_v57 : Ref sig .tc := ⟨.hbm, 112, rfl⟩
abbrev main_cst_14 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_c_15 : Ref sig .tc := ⟨.hbm, 121, rfl⟩
abbrev main_call5_v0 : Ref sig .tc := ⟨.hbm, 122, rfl⟩
abbrev main_v65 : Ref sig .tc := ⟨.hbm, 123, rfl⟩
abbrev main_v66 : Ref sig .tc := ⟨.hbm, 124, rfl⟩
abbrev main_c_16 : Ref sig .tc := ⟨.hbm, 125, rfl⟩
abbrev main_call6_v0 : Ref sig .tc := ⟨.hbm, 126, rfl⟩
abbrev main_v67 : Ref sig .tc := ⟨.hbm, 127, rfl⟩
abbrev main_v68 : Ref sig .tc := ⟨.hbm, 128, rfl⟩
abbrev main_c_17 : Ref sig .tc := ⟨.hbm, 129, rfl⟩
abbrev main_call7_v0 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩

abbrev nD : Nat := 1
abbrev τ : Topo := Topo.v7x

variable {F : FTy → Type} [FloatOps F]

class Facts₀ : Prop where
  slices_S4x2000_S4x1_0_1999 : S4x2000.Slices ![0, 1999] S4x1
  shapeCasts_S4x1_S4 : S4x1.ShapeCasts S4
  slices_S4x2000_S4x1_0_0 : S4x2000.Slices ![0, 0] S4x1
  slices_S4x300_S4x1_0_299 : S4x300.Slices ![0, 299] S4x1
  slices_S4x300_S4x1_0_0 : S4x300.Slices ![0, 0] S4x1
  bcast_S4x300_S4x300x1_0_1 : S4x300.BroadcastsInDim S4x300x1 (![0, 1] : Fin 2 → Fin S4x300x1.rank)
  bcast_S4x2000_S4x1x2000_0_2 : S4x2000.BroadcastsInDim S4x1x2000 (![0, 2] : Fin 2 → Fin S4x1x2000.rank)
  bcast_S4x300x1_S4x300x2000_0_1_2 : S4x300x1.BroadcastsInDim S4x300x2000 (![0, 1, 2] : Fin 3 → Fin S4x300x2000.rank)
  bcast_S4x1x2000_S4x300x2000_0_1_2 : S4x1x2000.BroadcastsInDim S4x300x2000 (![0, 1, 2] : Fin 3 → Fin S4x300x2000.rank)
  bcast_S4_S4x1x1_0 : S4.BroadcastsInDim S4x1x1 (![0] : Fin 1 → Fin S4x1x1.rank)
  bcast_S4x1x1_S4x300x2000_0_1_2 : S4x1x1.BroadcastsInDim S4x300x2000 (![0, 1, 2] : Fin 3 → Fin S4x300x2000.rank)
  bcast_S_S4x300x2000 : S_.BroadcastsInDim S4x300x2000 (![] : Fin 0 → Fin S4x300x2000.rank)
  bcast_S_S300x2000 : S_.BroadcastsInDim S300x2000 (![] : Fin 0 → Fin S300x2000.rank)
  bcast_S300x2000_S4x300x2000_1_2 : S300x2000.BroadcastsInDim S4x300x2000 (![1, 2] : Fin 2 → Fin S4x300x2000.rank)
  reducesTo_S4x300x2000_S4x300_d2 : S4x300x2000.ReducesTo [2] S4x300
  h_S_ : 0 < S_.numel
  bcast_S_S4x300x1 : S_.BroadcastsInDim S4x300x1 (![] : Fin 0 → Fin S4x300x1.rank)
  slices_S4x300x1024_S4x280x1024_0_10_0 : S4x300x1024.Slices ![0, 10, 0] S4x280x1024
  reducesTo_S4x280x1024_S4x1024_d1 : S4x280x1024.ReducesTo [1] S4x1024
  bcast_S4x1024_S4x1x1024_0_2 : S4x1024.BroadcastsInDim S4x1x1024 (![0, 2] : Fin 2 → Fin S4x1x1024.rank)
  bcast_S_S4x1x1024 : S_.BroadcastsInDim S4x1x1024 (![] : Fin 0 → Fin S4x1x1024.rank)
  bcast_S4x1x1024_S4x280x1024_0_1_2 : S4x1x1024.BroadcastsInDim S4x280x1024 (![0, 1, 2] : Fin 3 → Fin S4x280x1024.rank)
  bcast_S_S1x1024 : S_.BroadcastsInDim S1x1024 (![] : Fin 0 → Fin S1x1024.rank)
  bcast_S1x1024_S4x1x1024_1_2 : S1x1024.BroadcastsInDim S4x1x1024 (![1, 2] : Fin 2 → Fin S4x1x1024.rank)
  shapeCasts_S4x280x1024_S1120x1024 : S4x280x1024.ShapeCasts S1120x1024
  pads_S1120x1024_S1121x1024_100_000 : S1120x1024.Pads (![1, 0] : Fin 2 → Nat) ![0, 0] ![0, 0] S1121x1024
  slices_S1121x1024_S1120x1024_0_0 : S1121x1024.Slices ![0, 0] S1120x1024
  pads_S1120x1024_S1122x1024_200_000 : S1120x1024.Pads (![2, 0] : Fin 2 → Nat) ![0, 0] ![0, 0] S1122x1024
  slices_S1122x1024_S1120x1024_0_0 : S1122x1024.Slices ![0, 0] S1120x1024
  pads_S1120x1024_S1123x1024_300_000 : S1120x1024.Pads (![3, 0] : Fin 2 → Nat) ![0, 0] ![0, 0] S1123x1024
  slices_S1123x1024_S1120x1024_0_0 : S1123x1024.Slices ![0, 0] S1120x1024
  concatenates_S1120x1024_S1120x1024_S1120x1024_S1120x1024_S1120x4096_d1 : Shape.Concatenates [S1120x1024, S1120x1024, S1120x1024, S1120x1024] S1120x4096 1
  bcast_S50000_S1x50000_1 : S50000.BroadcastsInDim S1x50000 (![1] : Fin 1 → Fin S1x50000.rank)
  bcast_S1x50000_S1120x50000_0_1 : S1x50000.BroadcastsInDim S1120x50000 (![0, 1] : Fin 2 → Fin S1120x50000.rank)
  dot_S4x300x2000_S4x2000x1024_S4x300x1024_2_1_1_2_0_0_wf : DotDims.WF S4x300x2000 S4x2000x1024 S4x300x1024 [2] [1] [1] [2] [0] [0]
  dot_S1120x4096_S4096x50000_S1120x50000_1_0_0_1_n_n_wf : DotDims.WF S1120x4096 S4096x50000 S1120x50000 [1] [0] [0] [1] [] []

variable [Facts₀]

def dot_S4x300x2000_S4x2000x1024_S4x300x1024_2_1_1_2_0_0 : DotDims S4x300x2000 S4x2000x1024 S4x300x1024 where
  lhsContracting := [2]
  rhsContracting := [1]
  lhsNonContracting := [1]
  rhsNonContracting := [2]
  lhsBatch := [0]
  rhsBatch := [0]
  wf := dot_S4x300x2000_S4x2000x1024_S4x300x1024_2_1_1_2_0_0_wf
def dot_S1120x4096_S4096x50000_S1120x50000_1_0_0_1_n_n : DotDims S1120x4096 S4096x50000 S1120x50000 where
  lhsContracting := [1]
  rhsContracting := [0]
  lhsNonContracting := [0]
  rhsNonContracting := [1]
  lhsBatch := []
  rhsBatch := []
  wf := dot_S1120x4096_S4096x50000_S1120x50000_1_0_0_1_n_n_wf

class Facts : Prop extends Facts₀ where

variable [Facts]
-- ==== Proof.HostK.lean ====
/-
  The host side of `Kernel`'s one region: what every buffer holds when the region is entered (the launch memory after
  the host operations that precede it, in order), that @main is those operations followed by the region, that none of
  them writes an argument array.
-/
import proofs.«132525_j84310208020704_2_alg».proof.Proof.Gen.Kernel.Launch
import proofs.«132525_j84310208020704_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.HostSide

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The stretches of host operations before the region, in order. -/
abbrev stretches : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]

/-- Core `c`'s TensorCore buffers when the region is entered: the launch memory after every stretch. -/
abbrev V (c : Dev nD) (b : Ref sig .tc) : Buf (Elt F) ((c : Thread nD τ).loc b) :=
  StableHlo.after (List.flatten (stretches (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor

/-- @main is the stretches, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (stretches (F := F))
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩) main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

end Cert.Kernel.HostSide

end
-- ==== Proof.FrameK.lean ====
/-
  The frame of the word-level program: every weakly fair execution of @main terminates, nothing faults, and the five
  argument arrays end as launched.

  @main is a stretch of host operations followed by one region on a grid of 196 points over four windows: the
  features (one block, the whole array, fetched at the first point), the weights and the bias row in blocks of 256
  columns, and the result in blocks of 256 columns. 50000 = 195 * 256 + 80, so the last block of the weights, the
  bias and the result overhangs its array and its transfers are cut at the array's end.

  The frame says nothing of the result's contents, so the result's window is FORGOTTEN: its staging buffer is
  handed to the body at some contents and taken back at some contents. The three input windows are described
  exactly: the body finds in each its block at the point (filled out, past the array's end, with whatever the
  buffer held), reads it and leaves it in place. The body's triple is stated once over any four whole memrefs; the
  body obligation instantiates it at the point's staging buffers; the class-A frame run then gives every windowed
  input array at its entry contents and every other unscoped buffer at what the region found, which for the
  arguments is what was launched, no host operation writing one.
-/
import proofs.«132525_j84310208020704_2_alg».proof.Proof.HostK
import proofs.«132525_j84310208020704_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen Cert.Kernel.HostSide
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window w's block at point t, its part inside the array, read off the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The result's window (3) is forgotten: the frame reads nothing of what the body leaves in it. -/
def forgets0 : Fin 4 → Bool := fun w => w.val == 3

/-! ## The proof data -/

/-- The proof data of the pipeline on core c: the arrays as the region finds them; after the body at point t the
    features' buffer at its block, the weights' and the bias row's at their blocks filled out past the array's end
    with a default word nothing reads, the result's unnamed; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (cfg0.win 1).fill (cfg0.grid.coords t) (fun _ => default) (iblk m c 1 t)
    | ⟨2, _⟩ => (cfg0.win 2).fill (cfg0.grid.coords t) (fun _ => default) (iblk m c 2 t)
    | ⟨3, h⟩ => Pipeline.Dat.unnamed (cfg := cfg0) ⟨3, h⟩ t
  Φ _ := Pipeline.ΦA spec0 c
  q _ := fullShare
  owed _ := 0

/-- The proof data's arrays are the region-entry contents (the definition projected; the fold over the host
    operations is never opened). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) :
    (dats m 0 c).after 1 t = (cfg0.win 1).fill (cfg0.grid.coords t) (fun _ => default) (iblk m c 1 t) := by dsimp only [dats]
theorem after0_2 (c : Dev nD) (t : Fin cfg0.N) :
    (dats m 0 c).after 2 t = (cfg0.win 2).fill (cfg0.grid.coords t) (fun _ => default) (iblk m c 2 t) := by dsimp only [dats]

/-! ## What the body finds in the input windows' buffers -/

/-- The features' window is uncut and fetched at the first point only; its index never moves, and the body leaves
    the block in place: at every point its buffer holds the block. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq m c 0]; try rfl) t d).trans
    (by unfold Dat.fetched Dat.blockOf iblk; rw [A_eq m c 0]; try rfl)

/-- The weights' window is fetched at every point: its buffer holds the block on the part inside the array and d
    past the array's end. -/
theorem before0_1 (c : Dev nD) (t : Fin cfg0.N) (d) :
    (dats m 0 c).before 1 t d = (cfg0.win 1).fill (cfg0.grid.coords t) d (iblk m c 1 t) :=
  ((dats m 0 c).before_fetched 1 t (fetch0_1 t) d).trans
    (by unfold Dat.fetched Dat.blockOf iblk; rw [A_eq m c 1]; try rfl)

/-- The bias row's likewise. -/
theorem before0_2 (c : Dev nD) (t : Fin cfg0.N) (d) :
    (dats m 0 c).before 2 t d = (cfg0.win 2).fill (cfg0.grid.coords t) d (iblk m c 2 t) :=
  ((dats m 0 c).before_fetched 2 t (fetch0_2 t) d).trans
    (by unfold Dat.fetched Dat.blockOf iblk; rw [A_eq m c 2]; try rfl)

/-! ## The body's triple -/

set_option maxHeartbeats 1000000 in
/-- The body on any four whole memrefs, the three inputs' at read contents x1, x2, x3 and the result's at anything:
    three whole loads, the sum of three products and the broadcast row, a load of the result's buffer nothing reads,
    a whole store into it. The inputs' come back as they were, the result's at some contents. -/
theorem sound_kernel (c : Dev nD) (E : Set ℕ) (i : grid0.Coords)
    (arg1 : Memref sig .tc .vmem S1120x4096 .f32) (harg1 : arg1.IsWhole)
    (arg2 : Memref sig .tc .vmem S4096x256 .f32) (harg2 : arg2.IsWhole)
    (arg3 : Memref sig .tc .vmem S1x256 .f32) (harg3 : arg3.IsWhole)
    (arg4 : Memref sig .tc .vmem S1120x256 .f32) (harg4 : arg4.IsWhole)
    (x1 : Vec F S1120x4096 .f32) (x2 : Vec F S4096x256 .f32) (x3 : Vec F S1x256 .f32) (K : PUnit → sProp 𝕄) :
    iprop(owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg1 fullShare x1 ∗ owns (c : Thread nD τ) arg2 fullShare x2
              ∗ owns (c : Thread nD τ) arg3 fullShare x3 ∗ (∃ d, owns (c : Thread nD τ) arg4 fullShare d)) -∗ K ⟨⟩))
      ⊢ wp frame (wpE (defs₀ (F := F)) Variants.none c none) E (cc0__dense_kernel i arg1 harg1 arg2 harg2 arg3 harg3 arg4 harg4) K := by
  simp only [cc0__dense_kernel_eq_skeleton]; unfold cc0__dense_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; iexists _; isplitr
  swap; · iexact H4
  ipureintro; rfl

/-! ## The body obligation, at a generic point -/

/-- What the body is called with at point t: the invariant, what the core owes, the three inputs' current buffers at
    what they then hold, the result's at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))

/-- What it returns: the features' buffer at its block; the weights' and the bias row's stated on the part inside
    the array only (their windows' last blocks are cut); the result's at anything. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ (∃ d, owns (c : Thread nD τ) (st0_2 t) fullShare
        ((cfg0.win 2).fill (cfg0.grid.coords t) d ((cfg0.win 2).cut (cfg0.grid.coords t) ((dats m 0 c).after 2 t))))
    ∗ (∃ X, owns (c : Thread nD τ) (st0_3 t) fullShare X))

/-- The body at any point: the inputs' buffers hold their blocks (filled out with what the fetch left past the
    array's end), so the triple applies; each comes back as it was, which on the part inside the array is the block;
    the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, Window.cut_fill, Window.cut_fill]
  iintro ⟨HΦ, Ho, ⟨%d0, H0⟩, ⟨%d1, H1⟩, ⟨%d2, H2⟩, ⟨%d3, H3⟩⟩
  iapply (sound_kernel c Set.univ _ _ _ _ _ _ _ _ _ (iblk m c 0 t)
    ((cfg0.win 1).fill (cfg0.grid.coords t) d1 (iblk m c 1 t)) ((cfg0.win 2).fill (cfg0.grid.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexists d1; iexact H1
  isplitl [H2]; · iexists d2; iexact H2
  iexact H3

/-- The library's body obligation, at every point, the result's window forgotten. -/
theorem body_obligation (c : Dev nD) :
    BodyObligationLoose (dats (F := F) m 0 c) (defs₀ (F := F)) Variants.none () Set.univ forgets0 := fun t => by
  rw [bigSep_W0, bigSep_W0]
  exact sound_body m c t

/-! ## The run and the frame -/

set_option backward.isDefEq.respectTransparency.types false in
/-- At the compiled mesh, for any values, from any memory with zero counters: every weakly fair execution of @main on
    the TensorCores terminates, and every final state has every input array of the pipeline at its entry contents,
    nothing stated of the result's, and every other unscoped buffer as the region found it. -/
theorem run_main : θ_run defs (onTc (τ := τ) (main (F := F))) (s₀ m ρ)
    (Pipeline.RDat.FramePost (cfgs 0) (fun c => (dats m 0 c).toRForget forgets0) (V m)) :=
  Pipeline.RDat.θ_run_frame cfgs (0 : Fin 1) launch0 defs₀ Variants.none (fun c => (dats m 0 c).toRForget forgets0) m ρ main
    (hbody := fun c => (body_obligation m c).toRForget)
    (hshare := fun c => ((dats m 0 c).toRForget forgets0).share_full fun _ => rfl)
    (howed := fun _ _ => rfl) (V := V m) (hmain := hmain m Variants.none) (hA := A_eq m) (hΦ := fun _ _ => rfl)

/-- info: 'Cert.Kernel.Hand.run_main' depends on axioms: [propext, Classical.choice, Quot.sound] -/
#guard_msgs in #print axioms run_main

/-- The frame: the weights are window 1's array, an input, never written back, so they end at their entry contents;
    the other four arguments are no window's array and unscoped, so they end as the region found them; and the
    region found every argument as launched. -/
theorem frame : θ_run (Cert.Kernel.defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     (Eq.mp (congrFun (((dats m 0 c).toRForget forgets0).ArrAt_in 1 rfl _) _) ((h c).1 1)).trans
       ((A_eq m c 1).trans (V_main_arg3 m c)),
     ((h c).2 main_arg4 (Pipeline.mem_restRefs_of main_arg4 (by decide) (by decide))).trans (V_main_arg4 m c)⟩)
    (run_main m ρ)

/-- info: 'Cert.Kernel.Hand.frame' depends on axioms: [propext, Classical.choice, Quot.sound] -/
#guard_msgs in #print axioms frame

end Cert.Kernel.Hand

end
-- ==== Proof.HostStages.lean ====
/-
  The features the dense layer is applied to, as one function of the three arrays they are computed from.
  Both programs compute them on the host by the same chain of operations — Lanczos interpolation weights from the two
  time arrays, the weighted sums of the embeddings, a trim, a z-score per story and feature, and four delayed copies side
  by side — and this module states that chain once, stage by stage, as pure functions over arrays (the instance's own
  operations, at any instance), so that the two programs' values can be compared as ONE term and its finiteness
  proved once.
-/
import proofs.«132525_j84310208020704_2_alg».proof.KernelIdeal
import proofs.«132525_j84310208020704_2_alg».proof.Proof.Gen.KernelIdeal

noncomputable section

namespace Cert.HostStages

open Idealize.ShloMosaic Cert.KernelIdeal Cert.KernelIdeal.Facts₀

variable {F : FTy → Type} [FloatOps F]

/-- The Lanczos kernel's argument: for story `s`, sample time `r` and data time `j`, the difference `tr[s,r] - dt[s,j]`
    times the story's scale `(dt[s,last] - dt[s,0]) / (tr[s,last] - tr[s,0])`. -/
def lanczosArg (arg1 : (⟨S4x2000, .f32⟩ : BufTy).Contents (Elt F)) (arg2 : (⟨S4x300, .f32⟩ : BufTy).Contents (Elt F)) :
    (⟨S4x300x2000, .f32⟩ : BufTy).Contents (Elt F) :=
  let v0 : (⟨S4x1, .f32⟩ : BufTy).Contents (Elt F) := extractStridedSlice S4x1 ![0, 1999] arg1 slices_S4x2000_S4x1_0_1999
  let v1 : (⟨S4, .f32⟩ : BufTy).Contents (Elt F) := shapeCast S4 v0 shapeCasts_S4x1_S4
  let v2 : (⟨S4x1, .f32⟩ : BufTy).Contents (Elt F) := extractStridedSlice S4x1 ![0, 0] arg1 slices_S4x2000_S4x1_0_0
  let v3 : (⟨S4, .f32⟩ : BufTy).Contents (Elt F) := shapeCast S4 v2 shapeCasts_S4x1_S4
  let v4 : (⟨S4, .f32⟩ : BufTy).Contents (Elt F) := subf v1 v3
  let v5 : (⟨S4x1, .f32⟩ : BufTy).Contents (Elt F) := extractStridedSlice S4x1 ![0, 299] arg2 slices_S4x300_S4x1_0_299
  let v6 : (⟨S4, .f32⟩ : BufTy).Contents (Elt F) := shapeCast S4 v5 shapeCasts_S4x1_S4
  let v7 : (⟨S4x1, .f32⟩ : BufTy).Contents (Elt F) := extractStridedSlice S4x1 ![0, 0] arg2 slices_S4x300_S4x1_0_0
  let v8 : (⟨S4, .f32⟩ : BufTy).Contents (Elt F) := shapeCast S4 v7 shapeCasts_S4x1_S4
  let v9 : (⟨S4, .f32⟩ : BufTy).Contents (Elt F) := subf v6 v8
  let v10 : (⟨S4, .f32⟩ : BufTy).Contents (Elt F) := Host.divf v4 v9
  let v11 : (⟨S4x300x1, .f32⟩ : BufTy).Contents (Elt F) := broadcastInDim S4x300x1 ![0, 1] bcast_S4x300_S4x300x1_0_1 arg2
  let v12 : (⟨S4x1x2000, .f32⟩ : BufTy).Contents (Elt F) := broadcastInDim S4x1x2000 ![0, 2] bcast_S4x2000_S4x1x2000_0_2 arg1
  let v13 : (⟨S4x300x2000, .f32⟩ : BufTy).Contents (Elt F) := broadcastInDim S4x300x2000 ![0, 1, 2] bcast_S4x300x1_S4x300x2000_0_1_2 v11
  let v14 : (⟨S4x300x2000, .f32⟩ : BufTy).Contents (Elt F) := broadcastInDim S4x300x2000 ![0, 1, 2] bcast_S4x1x2000_S4x300x2000_0_1_2 v12
  let v15 : (⟨S4x300x2000, .f32⟩ : BufTy).Contents (Elt F) := subf v13 v14
  let v16 : (⟨S4x1x1, .f32⟩ : BufTy).Contents (Elt F) := broadcastInDim S4x1x1 ![0] bcast_S4_S4x1x1_0 v10
  let v17 : (⟨S4x300x2000, .f32⟩ : BufTy).Contents (Elt F) := broadcastInDim S4x300x2000 ![0, 1, 2] bcast_S4x1x1_S4x300x2000_0_1_2 v16
  let v18 : (⟨S4x300x2000, .f32⟩ : BufTy).Contents (Elt F) := mulf v15 v17
  v18

/-- The windowed weights: `sinc x · sinc (x/3)` where `|x| < 3` and `0` elsewhere, with `sinc 0 = 1` and
    `sinc x = sin (πx) / (πx)` otherwise (π as its single-precision literal). -/
def lanczosWeights (v18 : (⟨S4x300x2000, .f32⟩ : BufTy).Contents (Elt F)) :
    (⟨S4x300x2000, .f32⟩ : BufTy).Contents (Elt F) :=
  let v19 : (⟨S4x300x2000, .f32⟩ : BufTy).Contents (Elt F) := Host.absf v18
  let cst : (⟨S_, .f32⟩ : BufTy).Contents (Elt F) := constant S_ .f32 0x40400000#32
  let v20 : (⟨S4x300x2000, .f32⟩ : BufTy).Contents (Elt F) := broadcastInDim S4x300x2000 ![] bcast_S_S4x300x2000 cst
  let v21 : (⟨S4x300x2000, .i1⟩ : BufTy).Contents (Elt F) := cmpf .olt v19 v20
  let cst_0 : (⟨S_, .f32⟩ : BufTy).Contents (Elt F) := constant S_ .f32 0x00000000#32
  let v22 : (⟨S4x300x2000, .f32⟩ : BufTy).Contents (Elt F) := broadcastInDim S4x300x2000 ![] bcast_S_S4x300x2000 cst_0
  let v23 : (⟨S4x300x2000, .i1⟩ : BufTy).Contents (Elt F) := cmpf .oeq v18 v22
  let cst_1 : (⟨S_, .f32⟩ : BufTy).Contents (Elt F) := constant S_ .f32 0x40490FDB#32
  let v24 : (⟨S4x300x2000, .f32⟩ : BufTy).Contents (Elt F) := broadcastInDim S4x300x2000 ![] bcast_S_S4x300x2000 cst_1
  let v25 : (⟨S4x300x2000, .f32⟩ : BufTy).Contents (Elt F) := mulf v24 v18
  let v26 : (⟨S4x300x2000, .f32⟩ : BufTy).Contents (Elt F) := Host.sin v25
  let cst_2 : (⟨S_, .f32⟩ : BufTy).Contents (Elt F) := constant S_ .f32 0x40490FDB#32
  let v27 : (⟨S4x300x2000, .f32⟩ : BufTy).Contents (Elt F) := broadcastInDim S4x300x2000 ![] bcast_S_S4x300x2000 cst_2
  let v28 : (⟨S4x300x2000, .f32⟩ : BufTy).Contents (Elt F) := mulf v27 v18
  let v29 : (⟨S4x300x2000, .f32⟩ : BufTy).Contents (Elt F) := Host.divf v26 v28
  let cst_3 : (⟨S_, .f32⟩ : BufTy).Contents (Elt F) := constant S_ .f32 0x3F800000#32
  let call0_v0 : (⟨S_, .f32⟩ : BufTy).Contents (Elt F) := cst_3
  let call0_v1 : (⟨S300x2000, .f32⟩ : BufTy).Contents (Elt F) := broadcastInDim S300x2000 ![] bcast_S_S300x2000 call0_v0
  let call0_v2 : (⟨S4x300x2000, .f32⟩ : BufTy).Contents (Elt F) := broadcastInDim S4x300x2000 ![1, 2] bcast_S300x2000_S4x300x2000_1_2 call0_v1
  let v30 : (⟨S4x300x2000, .f32⟩ : BufTy).Contents (Elt F) := select v23 call0_v2 v29
  let cst_4 : (⟨S_, .f32⟩ : BufTy).Contents (Elt F) := constant S_ .f32 0x40400000#32
  let v31 : (⟨S4x300x2000, .f32⟩ : BufTy).Contents (Elt F) := broadcastInDim S4x300x2000 ![] bcast_S_S4x300x2000 cst_4
  let v32 : (⟨S4x300x2000, .f32⟩ : BufTy).Contents (Elt F) := Host.divf v18 v31
  let cst_5 : (⟨S_, .f32⟩ : BufTy).Contents (Elt F) := constant S_ .f32 0x00000000#32
  let v33 : (⟨S4x300x2000, .f32⟩ : BufTy).Contents (Elt F) := broadcastInDim S4x300x2000 ![] bcast_S_S4x300x2000 cst_5
  let v34 : (⟨S4x300x2000, .i1⟩ : BufTy).Contents (Elt F) := cmpf .oeq v32 v33
  let cst_6 : (⟨S_, .f32⟩ : BufTy).Contents (Elt F) := constant S_ .f32 0x40490FDB#32
  let v35 : (⟨S4x300x2000, .f32⟩ : BufTy).Contents (Elt F) := broadcastInDim S4x300x2000 ![] bcast_S_S4x300x2000 cst_6
  let v36 : (⟨S4x300x2000, .f32⟩ : BufTy).Contents (Elt F) := mulf v35 v32
  let v37 : (⟨S4x300x2000, .f32⟩ : BufTy).Contents (Elt F) := Host.sin v36
  let cst_7 : (⟨S_, .f32⟩ : BufTy).Contents (Elt F) := constant S_ .f32 0x40490FDB#32
  let v38 : (⟨S4x300x2000, .f32⟩ : BufTy).Contents (Elt F) := broadcastInDim S4x300x2000 ![] bcast_S_S4x300x2000 cst_7
  let v39 : (⟨S4x300x2000, .f32⟩ : BufTy).Contents (Elt F) := mulf v38 v32
  let v40 : (⟨S4x300x2000, .f32⟩ : BufTy).Contents (Elt F) := Host.divf v37 v39
  let cst_8 : (⟨S_, .f32⟩ : BufTy).Contents (Elt F) := constant S_ .f32 0x3F800000#32
  let call1_v0 : (⟨S_, .f32⟩ : BufTy).Contents (Elt F) := cst_8
  let call1_v1 : (⟨S300x2000, .f32⟩ : BufTy).Contents (Elt F) := broadcastInDim S300x2000 ![] bcast_S_S300x2000 call1_v0
  let call1_v2 : (⟨S4x300x2000, .f32⟩ : BufTy).Contents (Elt F) := broadcastInDim S4x300x2000 ![1, 2] bcast_S300x2000_S4x300x2000_1_2 call1_v1
  let v41 : (⟨S4x300x2000, .f32⟩ : BufTy).Contents (Elt F) := select v34 call1_v2 v40
  let v42 : (⟨S4x300x2000, .f32⟩ : BufTy).Contents (Elt F) := mulf v30 v41
  let cst_9 : (⟨S_, .f32⟩ : BufTy).Contents (Elt F) := constant S_ .f32 0x00000000#32
  let call2_v0 : (⟨S_, .f32⟩ : BufTy).Contents (Elt F) := cst_9
  let call2_v1 : (⟨S300x2000, .f32⟩ : BufTy).Contents (Elt F) := broadcastInDim S300x2000 ![] bcast_S_S300x2000 call2_v0
  let call2_v2 : (⟨S4x300x2000, .f32⟩ : BufTy).Contents (Elt F) := broadcastInDim S4x300x2000 ![1, 2] bcast_S300x2000_S4x300x2000_1_2 call2_v1
  let v43 : (⟨S4x300x2000, .f32⟩ : BufTy).Contents (Elt F) := select v21 v42 call2_v2
  v43

/-- Each row of weights divided by its sum where that sum is positive, left as it is elsewhere. -/
def interpRows (v43 : (⟨S4x300x2000, .f32⟩ : BufTy).Contents (Elt F)) :
    (⟨S4x300x2000, .f32⟩ : BufTy).Contents (Elt F) :=
  let cst_10 : (⟨S_, .f32⟩ : BufTy).Contents (Elt F) := constant S_ .f32 0x00000000#32
  let v44 : (⟨S4x300, .f32⟩ : BufTy).Contents (Elt F) := Host.reduceAdd v43 cst_10 reducesTo_S4x300x2000_S4x300_d2 h_S_
  let v45 : (⟨S4x300x1, .f32⟩ : BufTy).Contents (Elt F) := broadcastInDim S4x300x1 ![0, 1] bcast_S4x300_S4x300x1_0_1 v44
  let cst_11 : (⟨S_, .f32⟩ : BufTy).Contents (Elt F) := constant S_ .f32 0x00000000#32
  let v46 : (⟨S4x300x1, .f32⟩ : BufTy).Contents (Elt F) := broadcastInDim S4x300x1 ![] bcast_S_S4x300x1 cst_11
  let v47 : (⟨S4x300x1, .i1⟩ : BufTy).Contents (Elt F) := cmpf .ogt v45 v46
  let v48 : (⟨S4x300x2000, .f32⟩ : BufTy).Contents (Elt F) := broadcastInDim S4x300x2000 ![0, 1, 2] bcast_S4x300x1_S4x300x2000_0_1_2 v45
  let v49 : (⟨S4x300x2000, .f32⟩ : BufTy).Contents (Elt F) := Host.divf v43 v48
  let call3_v0 : (⟨S4x300x2000, .i1⟩ : BufTy).Contents (Elt F) := broadcastInDim S4x300x2000 ![0, 1, 2] bcast_S4x300x1_S4x300x2000_0_1_2 v47
  let v50 : (⟨S4x300x2000, .f32⟩ : BufTy).Contents (Elt F) := select call3_v0 v49 v43
  v50

/-- The downsampled embeddings — story by story the interpolation matrix times the embeddings — with ten sample times
    trimmed at each end. -/
def trimmedDown (v50 : (⟨S4x300x2000, .f32⟩ : BufTy).Contents (Elt F)) (arg0 : (⟨S4x2000x1024, .f32⟩ : BufTy).Contents (Elt F)) :
    (⟨S4x280x1024, .f32⟩ : BufTy).Contents (Elt F) :=
  let v51 : (⟨S4x300x1024, .f32⟩ : BufTy).Contents (Elt F) := Host.dotGeneral dot_S4x300x2000_S4x2000x1024_S4x300x1024_2_1_1_2_0_0 none v50 arg0
  let v52 : (⟨S4x280x1024, .f32⟩ : BufTy).Contents (Elt F) := extractStridedSlice S4x280x1024 ![0, 10, 0] v51 slices_S4x300x1024_S4x280x1024_0_10_0
  v52

/-- Each feature column of a story centred at its mean over the 280 kept sample times and divided by its unbiased
    standard deviation plus 1e-6. -/
def zscored (v52 : (⟨S4x280x1024, .f32⟩ : BufTy).Contents (Elt F)) :
    (⟨S4x280x1024, .f32⟩ : BufTy).Contents (Elt F) :=
  let cst_12 : (⟨S_, .f32⟩ : BufTy).Contents (Elt F) := constant S_ .f32 0x00000000#32
  let v53 : (⟨S4x1024, .f32⟩ : BufTy).Contents (Elt F) := Host.reduceAdd v52 cst_12 reducesTo_S4x280x1024_S4x1024_d1 h_S_
  let v54 : (⟨S4x1x1024, .f32⟩ : BufTy).Contents (Elt F) := broadcastInDim S4x1x1024 ![0, 2] bcast_S4x1024_S4x1x1024_0_2 v53
  let cst_13 : (⟨S_, .f32⟩ : BufTy).Contents (Elt F) := constant S_ .f32 0x438C0000#32
  let v55 : (⟨S4x1x1024, .f32⟩ : BufTy).Contents (Elt F) := broadcastInDim S4x1x1024 ![] bcast_S_S4x1x1024 cst_13
  let v56 : (⟨S4x1x1024, .f32⟩ : BufTy).Contents (Elt F) := Host.divf v54 v55
  let c : (⟨S_, .i32⟩ : BufTy).Contents (Elt F) := constantI S_ 32 1#32
  let call4_call0_cst : (⟨S_, .f32⟩ : BufTy).Contents (Elt F) := constant S_ .f32 0x00000000#32
  let call4_call0_v0 : (⟨S4x1024, .f32⟩ : BufTy).Contents (Elt F) := Host.reduceAdd v52 call4_call0_cst reducesTo_S4x280x1024_S4x1024_d1 h_S_
  let call4_call0_v1 : (⟨S4x1x1024, .f32⟩ : BufTy).Contents (Elt F) := broadcastInDim S4x1x1024 ![0, 2] bcast_S4x1024_S4x1x1024_0_2 call4_call0_v0
  let call4_call0_cst_0 : (⟨S_, .f32⟩ : BufTy).Contents (Elt F) := constant S_ .f32 0x438C0000#32
  let call4_call0_v2 : (⟨S4x1x1024, .f32⟩ : BufTy).Contents (Elt F) := broadcastInDim S4x1x1024 ![] bcast_S_S4x1x1024 call4_call0_cst_0
  let call4_call0_v3 : (⟨S4x1x1024, .f32⟩ : BufTy).Contents (Elt F) := Host.divf call4_call0_v1 call4_call0_v2
  let call4_call0_v4 : (⟨S4x280x1024, .f32⟩ : BufTy).Contents (Elt F) := broadcastInDim S4x280x1024 ![0, 1, 2] bcast_S4x1x1024_S4x280x1024_0_1_2 call4_call0_v3
  let call4_call0_v5 : (⟨S4x280x1024, .f32⟩ : BufTy).Contents (Elt F) := subf v52 call4_call0_v4
  let call4_call0_v6 : (⟨S4x280x1024, .f32⟩ : BufTy).Contents (Elt F) := mulf call4_call0_v5 call4_call0_v5
  let call4_call0_v7 : (⟨S_, .f32⟩ : BufTy).Contents (Elt F) := sitofp .f32 c
  let call4_call0_cst_1 : (⟨S_, .f32⟩ : BufTy).Contents (Elt F) := constant S_ .f32 0x438C0000#32
  let call4_call0_v8 : (⟨S_, .f32⟩ : BufTy).Contents (Elt F) := subf call4_call0_cst_1 call4_call0_v7
  let call4_call0_cst_2 : (⟨S_, .f32⟩ : BufTy).Contents (Elt F) := constant S_ .f32 0x00000000#32
  let call4_call0_v9 : (⟨S4x1024, .f32⟩ : BufTy).Contents (Elt F) := Host.reduceAdd call4_call0_v6 call4_call0_cst_2 reducesTo_S4x280x1024_S4x1024_d1 h_S_
  let call4_call0_v10 : (⟨S4x1x1024, .f32⟩ : BufTy).Contents (Elt F) := broadcastInDim S4x1x1024 ![0, 2] bcast_S4x1024_S4x1x1024_0_2 call4_call0_v9
  let call4_call0_v11 : (⟨S4x1x1024, .f32⟩ : BufTy).Contents (Elt F) := broadcastInDim S4x1x1024 ![] bcast_S_S4x1x1024 call4_call0_v8
  let call4_call0_v12 : (⟨S4x1x1024, .f32⟩ : BufTy).Contents (Elt F) := Host.divf call4_call0_v10 call4_call0_v11
  let call4_call0_cst_3 : (⟨S_, .f32⟩ : BufTy).Contents (Elt F) := constant S_ .f32 0x00000000#32
  let call4_call0_v13 : (⟨S_, .i1⟩ : BufTy).Contents (Elt F) := cmpf .ogt call4_call0_v8 call4_call0_cst_3
  let call4_call0_cst_4 : (⟨S_, .f32⟩ : BufTy).Contents (Elt F) := constant S_ .f32 0x7FC00000#32
  let call4_call0_call0_v0 : (⟨S_, .f32⟩ : BufTy).Contents (Elt F) := call4_call0_cst_4
  let call4_call0_call0_v1 : (⟨S1x1024, .f32⟩ : BufTy).Contents (Elt F) := broadcastInDim S1x1024 ![] bcast_S_S1x1024 call4_call0_call0_v0
  let call4_call0_call0_v2 : (⟨S4x1x1024, .f32⟩ : BufTy).Contents (Elt F) := broadcastInDim S4x1x1024 ![1, 2] bcast_S1x1024_S4x1x1024_1_2 call4_call0_call0_v1
  let call4_v0 : (⟨S4x1x1024, .f32⟩ : BufTy).Contents (Elt F) := select (broadcastInDim S4x1x1024 ![] bcast_S_S4x1x1024 call4_call0_v13) call4_call0_v12 call4_call0_call0_v2
  let v57 : (⟨S4x1x1024, .f32⟩ : BufTy).Contents (Elt F) := Host.sqrt call4_v0
  let cst_14 : (⟨S_, .f32⟩ : BufTy).Contents (Elt F) := constant S_ .f32 0x358637BD#32
  let v58 : (⟨S4x1x1024, .f32⟩ : BufTy).Contents (Elt F) := broadcastInDim S4x1x1024 ![] bcast_S_S4x1x1024 cst_14
  let v59 : (⟨S4x1x1024, .f32⟩ : BufTy).Contents (Elt F) := addf v57 v58
  let v60 : (⟨S4x280x1024, .f32⟩ : BufTy).Contents (Elt F) := broadcastInDim S4x280x1024 ![0, 1, 2] bcast_S4x1x1024_S4x280x1024_0_1_2 v56
  let v61 : (⟨S4x280x1024, .f32⟩ : BufTy).Contents (Elt F) := subf v52 v60
  let v62 : (⟨S4x280x1024, .f32⟩ : BufTy).Contents (Elt F) := broadcastInDim S4x280x1024 ![0, 1, 2] bcast_S4x1x1024_S4x280x1024_0_1_2 v59
  let v63 : (⟨S4x280x1024, .f32⟩ : BufTy).Contents (Elt F) := Host.divf v61 v62
  v63

/-- The stories stacked into 1120 rows, and beside them the same rows shifted down by one, two and three places with
    zeros entering at the top: 4096 columns. -/
def delayedRows (v63 : (⟨S4x280x1024, .f32⟩ : BufTy).Contents (Elt F)) :
    (⟨S1120x4096, .f32⟩ : BufTy).Contents (Elt F) :=
  let v64 : (⟨S1120x1024, .f32⟩ : BufTy).Contents (Elt F) := shapeCast S1120x1024 v63 shapeCasts_S4x280x1024_S1120x1024
  let c_15 : (⟨S_, .i32⟩ : BufTy).Contents (Elt F) := constantI S_ 32 0#32
  let call5_v0 : (⟨S_, .f32⟩ : BufTy).Contents (Elt F) := sitofp .f32 c_15
  let v65 : (⟨S1121x1024, .f32⟩ : BufTy).Contents (Elt F) := pad S1121x1024 ![1, 0] ![0, 0] ![0, 0] v64 call5_v0 pads_S1120x1024_S1121x1024_100_000 h_S_
  let v66 : (⟨S1120x1024, .f32⟩ : BufTy).Contents (Elt F) := extractStridedSlice S1120x1024 ![0, 0] v65 slices_S1121x1024_S1120x1024_0_0
  let c_16 : (⟨S_, .i32⟩ : BufTy).Contents (Elt F) := constantI S_ 32 0#32
  let call6_v0 : (⟨S_, .f32⟩ : BufTy).Contents (Elt F) := sitofp .f32 c_16
  let v67 : (⟨S1122x1024, .f32⟩ : BufTy).Contents (Elt F) := pad S1122x1024 ![2, 0] ![0, 0] ![0, 0] v64 call6_v0 pads_S1120x1024_S1122x1024_200_000 h_S_
  let v68 : (⟨S1120x1024, .f32⟩ : BufTy).Contents (Elt F) := extractStridedSlice S1120x1024 ![0, 0] v67 slices_S1122x1024_S1120x1024_0_0
  let c_17 : (⟨S_, .i32⟩ : BufTy).Contents (Elt F) := constantI S_ 32 0#32
  let call7_v0 : (⟨S_, .f32⟩ : BufTy).Contents (Elt F) := sitofp .f32 c_17
  let v69 : (⟨S1123x1024, .f32⟩ : BufTy).Contents (Elt F) := pad S1123x1024 ![3, 0] ![0, 0] ![0, 0] v64 call7_v0 pads_S1120x1024_S1123x1024_300_000 h_S_
  let v70 : (⟨S1120x1024, .f32⟩ : BufTy).Contents (Elt F) := extractStridedSlice S1120x1024 ![0, 0] v69 slices_S1123x1024_S1120x1024_0_0
  let v71 : (⟨S1120x4096, .f32⟩ : BufTy).Contents (Elt F) := concatenate S1120x4096 1 [⟨S1120x1024, v64⟩, ⟨S1120x1024, v66⟩, ⟨S1120x1024, v68⟩, ⟨S1120x1024, v70⟩]
      concatenates_S1120x1024_S1120x1024_S1120x1024_S1120x1024_S1120x4096_d1
  v71

/-- The delayed features of the embeddings `arg0`, the data times `arg1` and the sample times `arg2`. -/
def delayedOf (arg0 : (⟨S4x2000x1024, .f32⟩ : BufTy).Contents (Elt F)) (arg1 : (⟨S4x2000, .f32⟩ : BufTy).Contents (Elt F))
    (arg2 : (⟨S4x300, .f32⟩ : BufTy).Contents (Elt F)) : (⟨S1120x4096, .f32⟩ : BufTy).Contents (Elt F) :=
  delayedRows (zscored (trimmedDown (interpRows (lanczosWeights (lanczosArg arg1 arg2))) arg0))

end Cert.HostStages

end
-- ==== Proof.HostKI.lean ====
/-
  The host side of `KernelIdeal`'s one region: what every buffer holds when the region is entered (the launch memory after
  the host operations that precede it, in order), that @main is those operations followed by the region, that none of
  them writes an argument array, and that the two arrays the region reads besides the weights are the delayed
  features of the arguments and the bias as one row.
-/
import proofs.«132525_j84310208020704_2_alg».proof.Proof.Gen.KernelIdeal.Launch
import proofs.«132525_j84310208020704_2_alg».proof.Proof.Gen.KernelIdeal.Points
import proofs.«132525_j84310208020704_2_alg».proof.Proof.HostStages
import Idealize.ShloMosaic.Lib.Pipeline.FrameBody
import Idealize.ShloMosaic.Lib.Ring
import Idealize.ShloMosaic.Lib.Tactic

set_option maxRecDepth 16384

noncomputable section

namespace Cert.KernelIdeal.HostSide

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The stretches of host operations before the region, in order. -/
abbrev stretches : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]

/-- Core `c`'s TensorCore buffers when the region is entered: the launch memory after every stretch. -/
abbrev V (c : Dev nD) (b : Ref sig .tc) : Buf (Elt F) ((c : Thread nD τ).loc b) :=
  StableHlo.after (List.flatten (stretches (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor

/-- @main is the stretches, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (stretches (F := F))
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩) main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

/-- The third is the bias as one row. -/
theorem V_biasRow (c : Dev nD) : (V m c main_v72 : S1x50000.Idx → Elt F .f32)
    = shapeCast S1x50000 (m ((c : Thread nD τ).loc main_arg4)) shapeCasts_S50000_S1x50000 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

end Cert.KernelIdeal.HostSide

end
-- ==== Proof.BodyKI.lean ====
/-
  The body of `KernelIdeal`'s one kernel, run once on any four whole staging buffers: it loads the features, the weights'
  block and the bias row whole, stores ONE value into the result's buffer — the three products summed, plus the bias —
  and leaves the three inputs as they were. What the result's buffer then holds is named `outBlock`.
-/
import proofs.«132525_j84310208020704_2_alg».proof.Proof.HostKI
import proofs.«132525_j84310208020704_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole of each buffer, as the rectangle the body's loads and its store go through. -/
abbrev rA : Rect S1120x4096 := Rect.unit (s := S1120x4096) ![0, 0] S1120x4096.size inb_S1120x4096_S1120x4096_0_0
abbrev rW : Rect S4096x256 := Rect.unit (s := S4096x256) ![0, 0] S4096x256.size inb_S4096x256_S4096x256_0_0
abbrev rB : Rect S1x256 := Rect.unit (s := S1x256) ![0, 0] S1x256.size inb_S1x256_S1x256_0_0
abbrev rO : Rect S1120x256 := Rect.unit (s := S1120x256) ![0, 0] S1120x256.size inb_S1120x256_S1120x256_0_0

/-- What the result's staging buffer holds after the body, from what the three input buffers hold. -/
def outBlock (x0 : Vec F S1120x4096 .f32) (x1 : Vec F S4096x256 .f32) (x2 : Vec F S1x256 .f32) : Vec F S1120x256 .f32 :=
  View.canon [⟨rO, k0_pay1 (View.ld x0 rA) (View.ld x1 rW) (View.ld x2 rB)⟩]

/-- The one store covers the buffer. -/
theorem store_covers (p0 : Vec F S1120x256 .f32) (y : S1120x256.Idx) :
    ∃ pc ∈ ([⟨rO, p0⟩] : List (View.Piece (Elt F) S1120x256 .f32)), y ∈ pc.1.set :=
  View.cover_of_tiled [⟨rO, p0⟩] S1120x256.size (by rfl) y

set_option maxHeartbeats 1000000 in
/-- The body on whole memrefs: the inputs at `x0`, `x1`, `x2` and the result's at anything run to the inputs as they
    were and the result's at `outBlock x0 x1 x2`. -/
theorem sound_kernel (c : Dev nD) (E : Set ℕ) (i : grid0.Coords)
    (arg1 : Memref sig .tc .vmem S1120x4096 .f32) (harg1 : arg1.IsWhole) (arg2 : Memref sig .tc .vmem S4096x256 .f32) (harg2 : arg2.IsWhole)
    (arg3 : Memref sig .tc .vmem S1x256 .f32) (harg3 : arg3.IsWhole) (arg4 : Memref sig .tc .vmem S1120x256 .f32) (harg4 : arg4.IsWhole)
    (x0 : Vec F S1120x4096 .f32) (x1 : Vec F S4096x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (outBlock x0 x1 x2)) -∗ K ⟨⟩))
      ⊢ wp frame (wpE (defs₀ (F := F)) Variants.none c none) E (cc0__dense_kernel i arg1 harg1 arg2 harg2 arg3 harg3 arg4 harg4) K := by
  simp only [cc0__dense_kernel_eq_skeleton]; unfold cc0__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (store_covers _)

end Cert.KernelIdeal.Body

end
-- ==== Proof.LibPlainMatmul.lean ====
/-
  A plain matrix product read at one entry.

  The matrix unit's contraction with dimension numbers "rows × contraction times contraction × columns"
  (left contracting axis 1, right contracting axis 0, no batch axis), accumulated into the zero splat, is at the
  ideal values the textbook product: entry (i, j) is the sum over the contraction coordinate k of
  l (i, k) · r (k, j).  The statement is over any dimension record whose six lists are those of the plain
  product, so it applies to a printed record whatever name it carries.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

/-- Entry (i, j) of an M×K by K×N `tpu.matmul` into the zero accumulator, at the ideal values: the sum over the
    K contraction coordinates of the left operand's row entry times the right operand's column entry. -/
theorem matmul_zero_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    matmul D prec l r (constant ⟨2, ![M, N]⟩ .f32 0x00000000#32) (ix2 i j)
      = ∑ k : Fin K, l (ix2 i k) * r (ix2 k j) := by
  obtain ⟨lc, rc, ln, rn, lb, rb, wf⟩ := D
  dsimp only at hlc hrc hln hrn hlb hrb
  subst hlc hrc hln hrn hlb hrb
  refine (Ideal.matmul_constant_zero_apply _ prec l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.PlainMatmul

end
-- ==== Proof.DenseSpec.lean ====
/-
  The dense layer, entry by entry: row `p` of the features times column `col` of the weights, plus the bias at `col`
  (the bias as the one row it is staged as). Both programs' first result is this function of their arrays.
-/
import proofs.«132525_j84310208020704_2_alg».proof.KernelIdeal
import Idealize.ShloMosaic.Lib.ValueIdx
import Idealize.ShloMosaic.PureOps.Ideal

noncomputable section

namespace Cert.DenseSpec

open Cert.KernelIdeal
open Idealize.ShloMosaic Idealize.ShloMosaic.ValueIdx
open scoped BigOperators

/-- Entry (p, col) of features · weights + bias, over the extended reals. -/
def denseAt (A : FVec Ideal S1120x4096 .f32) (W : FVec Ideal S4096x50000 .f32) (B : FVec Ideal S1x50000 .f32)
    (p : Fin 1120) (col : Fin 50000) : EReal :=
  (∑ k : Fin 4096, A (ix2 p k) * W (ix2 k col)) + B (ix2 (0 : Fin 1) col)

end Cert.DenseSpec

end
-- ==== Proof.DenseValue.lean ====
/-
  What the body stores, entry by entry, at the ideal values: three matrix products summed and the bias added — the
  product of the features with the weights' block, plus that of the features with (weights − weights), plus that of
  (features − features) with the weights' block. Where the features and the weights are real numbers the two
  corrections vanish, and the stored entry (p, q) at point `t` is the dense layer's entry (p, 256 t + q).
-/
import proofs.«132525_j84310208020704_2_alg».proof.Proof.BodyKI
import proofs.«132525_j84310208020704_2_alg».proof.Proof.LibPlainMatmul
import proofs.«132525_j84310208020704_2_alg».proof.Proof.DenseSpec
import Idealize.ShloMosaic.Lib.ValueLayout
import Idealize.ShloMosaic.Lib.Pipeline.Value

set_option maxRecDepth 16384

noncomputable section

namespace Cert.KernelIdeal.DenseValue

open Cert.KernelIdeal Cert.KernelIdeal.Gen Cert.KernelIdeal.Body
open Idealize.ShloMosaic Idealize.ShloMosaic.TcCoe Idealize.ShloMosaic.ValueIdx
open Idealize.SL Idealize.SL.Sem
open Idealize.ShloMosaic.Pipeline (Window)
open scoped BigOperators

open Cert.DenseSpec (denseAt)

/-- A real number minus itself is zero (an infinity minus itself is not). -/
theorem sub_self_real {x : EReal} (h : ∃ r : ℝ, x = (r : EReal)) : x - x = 0 := by
  obtain ⟨r, rfl⟩ := h
  rw [← EReal.coe_sub, sub_self, EReal.coe_zero]

/-- The stored value at (p, q): the features' row p times the weights' block's column q, plus the bias row at q, when that
    row and that column hold real numbers. -/
theorem payload_at (A : FVec Ideal S1120x4096 .f32) (X1 : FVec Ideal S4096x256 .f32) (X2 : FVec Ideal S1x256 .f32)
    (p : Fin 1120) (q : Fin 256)
    (hA : ∀ k : Fin 4096, ∃ r : ℝ, A (ix2 p k) = (r : EReal)) (hX : ∀ k : Fin 4096, ∃ r : ℝ, X1 (ix2 k q) = (r : EReal)) :
    k0_pay1 (F := Ideal) A X1 X2 (ix2 p q) = (∑ k : Fin 4096, A (ix2 p k) * X1 (ix2 k q)) + X2 (ix2 (0 : Fin 1) q) := by
  unfold k0_pay1
  simp only [addf_apply]
  have e1 := PlainMatmul.matmul_zero_apply dot_S1120x4096_S4096x256_S1120x256_1_0_0_1_n_n rfl rfl rfl rfl rfl rfl none
    (truncf FTy.bf16 (shapeCast S1120x4096 A shapeCasts_S1120x4096_S1120x4096) bitsLt_bf16_f32) (truncf FTy.bf16 X1 bitsLt_bf16_f32) p q
  have e2 := PlainMatmul.matmul_zero_apply dot_S1120x4096_S4096x256_S1120x256_1_0_0_1_n_n rfl rfl rfl rfl rfl rfl none
    (truncf FTy.bf16 (shapeCast S1120x4096 A shapeCasts_S1120x4096_S1120x4096) bitsLt_bf16_f32) (truncf FTy.bf16 (subf X1 X1) bitsLt_bf16_f32) p q
  have e3 := PlainMatmul.matmul_zero_apply dot_S1120x4096_S4096x256_S1120x256_1_0_0_1_n_n rfl rfl rfl rfl rfl rfl none
    (truncf FTy.bf16 (subf (shapeCast S1120x4096 A shapeCasts_S1120x4096_S1120x4096) (shapeCast S1120x4096 A shapeCasts_S1120x4096_S1120x4096)) bitsLt_bf16_f32) (truncf FTy.bf16 X1 bitsLt_bf16_f32) p q
  rw [e1, e2, e3]
  simp only [truncf_apply, subf_apply, shapeCast_self]
  have z2 : ∀ k : Fin 4096, A (ix2 p k) * (X1 (ix2 k q) - X1 (ix2 k q)) = 0 := fun k => by
    rw [sub_self_real (hX k), mul_zero]
  have z3 : ∀ k : Fin 4096, (A (ix2 p k) - A (ix2 p k)) * X1 (ix2 k q) = 0 := fun k => by
    rw [sub_self_real (hA k), zero_mul]
  simp only [z2, z3, Finset.sum_const_zero, add_zero]
  rw [broadcastTo_1b_ab_apply]

/-- The result buffer after the body is the stored value itself: the one store covers the buffer from its origin. -/
theorem outBlock_eq (x0 : Vec Ideal S1120x4096 .f32) (x1 : Vec Ideal S4096x256 .f32) (x2 : Vec Ideal S1x256 .f32) :
    outBlock (F := Ideal) x0 x1 x2 = k0_pay1 (F := Ideal) x0 x1 x2 := by
  have hz : (![0, 0] : Fin 2 → Nat) = fun _ => 0 := funext fun a => by fin_cases a <;> rfl
  unfold outBlock
  rw [View.canon_unit_zero hz]
  simp only [View.ld_unit_zero (S := S1120x4096) hz, View.ld_unit_zero (S := S4096x256) hz, View.ld_unit_zero (S := S1x256) hz]

variable (m : (ℓ : Loc nD τ sig) → Buf (Elt Ideal) ℓ)

open Cert.KernelIdeal.HostSide in
/-- Window `w`'s block at point `t`, read off its array as the region finds it. -/
def iblk (c : Dev nD) (w : Fin cfg0.W) (t : Fin cfg0.N) : ((cfg0.win w).xblock (cfg0.grid.coords t)).Idx → Elt Ideal (cfg0.win w).elt :=
  ((cfg0.win w).blk t).view.read (Elt Ideal) (V m c (Pipeline.arrRef spec0 w))

open Cert.KernelIdeal.HostSide in
/-- The dense layer's result as one function of the arrays the region finds. -/
def G (c : Dev nD) : Buf (Elt Ideal) ((c : Thread nD τ).loc main_v73) :=
  fun i => denseAt (V m c main_v71) (V m c main_arg3) (V m c main_v72) (i 0) (i 1)

/-- Where the blocks sit, decided over the grid: the features' block is the whole array; at point `t` the weights', the
    bias row's and the result's blocks start at column `256 t`, are cut alike at the array's end, and stay inside it. -/
theorem where_blocks : ∀ t : Fin cfg0.N,
    win0_0.index t 0 = 0 ∧ win0_0.index t 1 = 0 ∧ win0_1.index t 0 = 0 ∧ win0_1.index t 1 = t.val
    ∧ win0_2.index t 0 = 0 ∧ win0_2.index t 1 = t.val ∧ win0_3.index t 0 = 0 ∧ win0_3.index t 1 = t.val
    ∧ win0_1.xsize (grid0.coords t) 0 = 4096 ∧ win0_2.xsize (grid0.coords t) 0 = 1 ∧ win0_3.xsize (grid0.coords t) 0 = 1120
    ∧ win0_1.xsize (grid0.coords t) 1 = win0_3.xsize (grid0.coords t) 1 ∧ win0_2.xsize (grid0.coords t) 1 = win0_3.xsize (grid0.coords t) 1
    ∧ win0_3.xsize (grid0.coords t) 1 ≤ 256 ∧ t.val * 256 + win0_3.xsize (grid0.coords t) 1 ≤ 50000 :=
  (by decide +kernel : ∀ t : Fin grid0.N, _)

open Cert.KernelIdeal.HostSide in
set_option maxHeartbeats 1000000 in
/-- What the body leaves in the result's buffer at point `t`, on the part inside the array, is block `t` of the dense
    layer's result: entry (p, q) of the stored value is the sum over k of the features' entry (p, k) times the weights'
    entry (k, 256 t + q), plus the bias at 256 t + q — whatever filled the weights' and the bias row's buffers out past
    the array's end, since column q of the product reads column q of the weights' block only; the two correction
    products vanish because the features and the weights are real numbers (x − x = 0). -/
theorem block_value (c : Dev nD)
    (hA : ∀ i, ∃ r : ℝ, (V m c main_v71 : S1120x4096.Idx → EReal) i = (r : EReal))
    (hW : ∀ i, ∃ r : ℝ, (V m c main_arg3 : S4096x50000.Idx → EReal) i = (r : EReal))
    (t : Fin cfg0.N) (d1 : S4096x256.Idx → EReal) (d2 : S1x256.Idx → EReal) :
    win0_3.cut (grid0.coords t) (outBlock (F := Ideal) (iblk m c 0 t) (win0_1.fill (grid0.coords t) d1 (iblk m c 1 t))
        (win0_2.fill (grid0.coords t) d2 (iblk m c 2 t)))
      = (win0_3.blk t).view.read (Elt Ideal) (G m c) := by
  obtain ⟨i00, i01, i10, i11, i20, i21, i30, i31, x10, x20, x30, x11, x21, x3le, x3in⟩ := where_blocks t
  funext y
  have hy0 : (y 0).val < 1120 := x30 ▸ (y 0).isLt
  have hy1 : (y 1).val < win0_3.xsize (grid0.coords t) 1 := (y 1).isLt
  have hq : (y 1).val < 256 := by omega
  have hcol : t.val * 256 + (y 1).val < 50000 := by omega
  -- the entry's coordinates: row `p`, column `q` of the block, column `col` of the array
  obtain ⟨p, hp⟩ : ∃ p : Fin 1120, p.val = (y 0).val := ⟨⟨(y 0).val, hy0⟩, rfl⟩
  obtain ⟨q, hq'⟩ : ∃ q : Fin 256, q.val = (y 1).val := ⟨⟨(y 1).val, hq⟩, rfl⟩
  obtain ⟨col, hcol'⟩ : ∃ col : Fin 50000, col.val = t.val * 256 + (y 1).val := ⟨⟨t.val * 256 + (y 1).val, hcol⟩, rfl⟩
  have hx : win0_3.xinj (grid0.coords t) y = ix2 p q := funext fun a => Fin.ext (by
    match a with
    | ⟨0, _⟩ => exact hp.symm
    | ⟨1, _⟩ => exact hq'.symm)
  -- the features' block is the whole array
  have r0 : ∀ k : Fin 4096, (iblk m c 0 t : S1120x4096.Idx → EReal) (ix2 p k) = (V m c main_v71 : S1120x4096.Idx → EReal) (ix2 p k) := fun k => by
    show (V m c main_v71 : S1120x4096.Idx → EReal) (((cfg0.win 0).blk t).view.emb (ix2 p k)) = _
    refine congrArg _ (funext fun a => Fin.ext ?_)
    match a with
    | ⟨0, _⟩ => show win0_0.index t 0 * 1120 + 1 * p.val = p.val; rw [i00]; omega
    | ⟨1, _⟩ => show win0_0.index t 1 * 4096 + 1 * k.val = k.val; rw [i01]; omega
  -- the weights' buffer at (k, q): inside the array, whatever filled it out
  have r1 : ∀ k : Fin 4096, (win0_1.fill (grid0.coords t) d1 (iblk m c 1 t) : S4096x256.Idx → EReal) (ix2 k q)
      = (V m c main_arg3 : S4096x50000.Idx → EReal) (ix2 k col) := fun k => by
    have hmv : win0_1.moved (grid0.coords t) (ix2 k q) = true := (win0_1.moved_iff _ _).mpr fun a => by
      match a with
      | ⟨0, _⟩ => show k.val < win0_1.xsize (grid0.coords t) 0; rw [x10]; exact k.isLt
      | ⟨1, _⟩ => show q.val < win0_1.xsize (grid0.coords t) 1; rw [x11, hq']; exact hy1
    unfold Window.fill
    rw [dif_pos hmv]
    show (V m c main_arg3 : S4096x50000.Idx → EReal) (((cfg0.win 1).blk t).view.emb _) = _
    refine congrArg _ (funext fun a => Fin.ext ?_)
    match a with
    | ⟨0, _⟩ => show win0_1.index t 0 * 4096 + 1 * k.val = k.val; rw [i10]; omega
    | ⟨1, _⟩ => show win0_1.index t 1 * 256 + 1 * q.val = col.val; rw [i11, hq', hcol']; omega
  -- the bias row's buffer at (0, q)
  have r2 : (win0_2.fill (grid0.coords t) d2 (iblk m c 2 t) : S1x256.Idx → EReal) (ix2 (0 : Fin 1) q)
      = (V m c main_v72 : S1x50000.Idx → EReal) (ix2 (0 : Fin 1) col) := by
    have hmv : win0_2.moved (grid0.coords t) (ix2 (0 : Fin 1) q) = true := (win0_2.moved_iff _ _).mpr fun a => by
      match a with
      | ⟨0, _⟩ => show (0 : Nat) < win0_2.xsize (grid0.coords t) 0; rw [x20]; exact Nat.one_pos
      | ⟨1, _⟩ => show q.val < win0_2.xsize (grid0.coords t) 1; rw [x21, hq']; exact hy1
    unfold Window.fill
    rw [dif_pos hmv]
    show (V m c main_v72 : S1x50000.Idx → EReal) (((cfg0.win 2).blk t).view.emb _) = _
    refine congrArg _ (funext fun a => Fin.ext ?_)
    match a with
    | ⟨0, _⟩ => show win0_2.index t 0 * 1 + 1 * 0 = 0; rw [i20]
    | ⟨1, _⟩ => show win0_2.index t 1 * 256 + 1 * q.val = col.val; rw [i21, hq', hcol']; omega
  show outBlock (F := Ideal) _ _ _ (win0_3.xinj (grid0.coords t) y) = G m c ((win0_3.blk t).view.emb y)
  rw [outBlock_eq, hx, payload_at _ _ _ p q (fun k => by rw [r0 k]; exact hA _) (fun k => by rw [r1 k]; exact hW _), r2]
  simp only [r0, r1]
  show Cert.DenseSpec.denseAt (V m c main_v71) (V m c main_arg3) (V m c main_v72) p col = _
  unfold G
  refine congr (congrArg _ (Fin.ext ?_)) (Fin.ext ?_)
  · show p.val = win0_3.index t 0 * 1120 + 1 * (y 0).val; rw [i30, hp]; omega
  · show col.val = win0_3.index t 1 * 256 + 1 * (y 1).val; rw [i31, hcol']; omega

end Cert.KernelIdeal.DenseValue

end
-- ==== Proof.FrameKI.lean ====
/-
  The idealized program's run. On each core: the host operations, then the region's 196 points; at point `t` the body
  finds the features whole, block `t` of the weights and of the bias row (filled out past the array's end with words
  nothing names, at the last point) and leaves block `t` of the dense layer's result in the result's buffer, on the part
  inside the array — provided the features and the weights are real numbers. So the result array ends holding the dense
  layer of the arrays the region found, and every other buffer what it held there.
-/
import proofs.«132525_j84310208020704_2_alg».proof.Proof.DenseValue

set_option maxRecDepth 16384

noncomputable section

namespace Cert.KernelIdeal.Run

open Cert.KernelIdeal Cert.KernelIdeal.Gen Cert.KernelIdeal.HostSide Cert.KernelIdeal.Body Cert.KernelIdeal.DenseValue
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- A word to fill a block out with past the array's end (nothing reads it). -/
def zeroWord : Elt Ideal .f32 := Scalar.ofBits (F := Ideal) .f32 0#32

/-- The proof data of the one pipeline on core `c`: the arrays as the region finds them; after the body at point `t` the
    features' buffer at the whole array, the weights' and the bias row's at their blocks, the result's at block `t` of the
    dense layer (each filled out past the array's end); the class's invariant; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => zeroWord) (iblk m c 1 t)
    | ⟨2, _⟩ => win0_2.fill (grid0.coords t) (fun _ => zeroWord) (iblk m c 2 t)
    | ⟨3, _⟩ => win0_3.fill (grid0.coords t) (fun _ => zeroWord) ((win0_3.blk t).view.read (Elt Ideal) (G m c))
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body finds: the features' buffer at the whole array, fetched at the first point and kept since; -/
theorem before_0 (c : Dev nD) (t : Fin cfg0.N) (d) : (dats m 0 c).before 0 t d = iblk m c 0 t :=
  ((dats m 0 c).before_in_eq_fetched 0 rfl (fun _ => rfl) (fun _ _ _ => rfl)
    (fun t => by dsimp only [dats]; unfold Dat.blockOf iblk; rfl) t d).trans
    (by unfold Dat.fetched Dat.blockOf iblk; dsimp only [dats]; rfl)

/-- the weights' and the bias row's just fetched: the block on the part inside the array, `d` elsewhere; -/
theorem before_1 (c : Dev nD) (t : Fin cfg0.N) (d) :
    (dats m 0 c).before 1 t d = win0_1.fill (grid0.coords t) d (iblk m c 1 t) := by
  unfold Dat.before; rw [if_pos (fetch0_1 t)]; rfl

theorem before_2 (c : Dev nD) (t : Fin cfg0.N) (d) :
    (dats m 0 c).before 2 t d = win0_2.fill (grid0.coords t) d (iblk m c 2 t) := by
  unfold Dat.before; rw [if_pos (fetch0_2 t)]; rfl

/-- the result's at contents nothing names (every point writes it back). -/
theorem before_3 (c : Dev nD) (t : Fin cfg0.N) (d) : (dats m 0 c).before 3 t d = d := by
  refine (dats m 0 c).before_out_reset 3 rfl t ?_ d
  by_cases h : t.val = 0
  · exact .inl h
  · exact .inr ⟨h, flush0_3 _⟩

/-- What the proof data says the body leaves, window by window: on the part inside the array the blocks themselves. -/
theorem after_0 (c : Dev nD) (t : Fin cfg0.N) : (dats m 0 c).after 0 t = iblk m c 0 t := by dsimp only [dats]
theorem cut_after_1 (c : Dev nD) (t : Fin cfg0.N) :
    (win0 1).cut (grid0.coords t) ((dats m 0 c).after 1 t) = iblk m c 1 t := by
  dsimp only [dats]; exact win0_1.cut_fill _ _ _
theorem cut_after_2 (c : Dev nD) (t : Fin cfg0.N) :
    (win0 2).cut (grid0.coords t) ((dats m 0 c).after 2 t) = iblk m c 2 t := by
  dsimp only [dats]; exact win0_2.cut_fill _ _ _
theorem cut_after_3 (c : Dev nD) (t : Fin cfg0.N) :
    (win0 3).cut (grid0.coords t) ((dats m 0 c).after 3 t) = (win0_3.blk t).view.read (Elt Ideal) (G m c) := by
  dsimp only [dats]; exact win0_3.cut_fill _ _ _

/-- The body obligation at every point, when the features and the weights the region finds are real numbers. -/
theorem body_obligation (c : Dev nD)
    (hA : ∀ i, ∃ r : ℝ, (V m c main_v71 : S1120x4096.Idx → EReal) i = (r : EReal))
    (hW : ∀ i, ∃ r : ℝ, (V m c main_arg3 : S4096x50000.Idx → EReal) i = (r : EReal)) :
    BodyObligationLoose (dats m 0 c) (defs₀ (F := Ideal)) Variants.none () Set.univ := fun t => by
  rw [bigSep_W0, bigSep_W0]
  simp only
  rw [after_0, cut_after_1, cut_after_2, cut_after_3]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_0 m c t d0, before_1 m c t d1, before_2 m c t d2, before_3 m c t d3]
  iapply (sound_kernel (F := Ideal) c Set.univ (grid0.coords t) (st0_0 t) (hstage0_0 ((cfg0.slots t 0).cast nbuf0_0))
    (st0_1 t) (hstage0_1 ((cfg0.slots t 1).cast nbuf0_1)) (st0_2 t) (hstage0_2 ((cfg0.slots t 2).cast nbuf0_2))
    (st0_3 t) (hstage0_3 ((cfg0.slots t 3).cast nbuf0_3))
    (iblk m c 0 t) (win0_1.fill (grid0.coords t) d1 (iblk m c 1 t)) (win0_2.fill (grid0.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  have e3 : (win0 3).fill (grid0.coords t)
      (outBlock (F := Ideal) (iblk m c 0 t) (win0_1.fill (grid0.coords t) d1 (iblk m c 1 t)) (win0_2.fill (grid0.coords t) d2 (iblk m c 2 t)))
      ((win0_3.blk t).view.read (Elt Ideal) (G m c))
      = outBlock (F := Ideal) (iblk m c 0 t) (win0_1.fill (grid0.coords t) d1 (iblk m c 1 t)) (win0_2.fill (grid0.coords t) d2 (iblk m c 2 t)) := by
    rw [← block_value m c hA hW t d1 d2]; exact win0_3.fill_cut _ _
  isplitl [H0]; · iexact H0
  isplitl [H1]; · iexists d1; iexact H1
  isplitl [H2]; · iexists d2; iexact H2
  iexists outBlock (F := Ideal) (iblk m c 0 t) (win0_1.fill (grid0.coords t) d1 (iblk m c 1 t)) (win0_2.fill (grid0.coords t) d2 (iblk m c 2 t))
  rw [e3]; iexact H3

/-! ## The run -/

set_option backward.isDefEq.respectTransparency.types false in
/-- Every weakly fair execution of @main terminates; at the end every array of the region holds what the write-backs
    left and every other buffer what the region found. -/
theorem run_main
    (hA : ∀ c i, ∃ r : ℝ, (V m c main_v71 : S1120x4096.Idx → EReal) i = (r : EReal))
    (hW : ∀ c i, ∃ r : ℝ, (V m c main_arg3 : S4096x50000.Idx → EReal) i = (r : EReal)) :
    θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c (hA c) (hW c)) (hshare := fun c => (dats m 0 c).share_full fun _ => rfl)
    (howed := fun _ _ => rfl) (V := V m) (hmain := hmain m Variants.none) (hA := A_eq m) (hΦ := fun _ _ => rfl)

/-- The last block is cut at the array's end: the result's block at point `t` is `min 256 (50000 − 256 t)` columns wide. -/
theorem cols_at : ∀ t : Fin cfg0.N, win0_3.index t 0 = 0 ∧ win0_3.index t 1 = t.val ∧ win0_3.xsize (grid0.coords t) 0 = 1120
    ∧ win0_3.xsize (grid0.coords t) 1 = min 256 (50000 - t.val * 256) :=
  (by decide +kernel : ∀ t : Fin grid0.N, _)

/-- Column `j` of the result lies in the block of point `j / 256`. -/
theorem covered (i : S1120x50000.Idx) :
    ∃ t : Fin cfg0.N, (cfg0.win 3).flush t = true ∧ i ∈ ((cfg0.win 3).blk t).view.set := by
  have h0 : (i 0).val < 1120 := idx2_lt0 i
  have h1 : (i 1).val < 50000 := idx2_lt1 i
  have hN : cfg0.N = 196 := N_0
  obtain ⟨t₀, ht₀⟩ : ∃ t₀ : Fin cfg0.N, t₀.val = (i 1).val / 256 := ⟨⟨(i 1).val / 256, by rw [hN]; omega⟩, rfl⟩
  refine ⟨t₀, flush0_3 _, ?_⟩
  obtain ⟨j0, j1, x0, x1⟩ := cols_at t₀
  show i ∈ ((View.whole main_v73).slice (win0_3.rect t₀)).set
  rw [View.set_slice_whole, Rect.mem_set_unit]
  intro a
  match a with
  | ⟨0, _⟩ =>
    show win0_3.index t₀ 0 * 1120 ≤ (i 0).val ∧ (i 0).val < win0_3.index t₀ 0 * 1120 + win0_3.xsize (grid0.coords t₀) 0
    rw [j0, x0]; omega
  | ⟨1, _⟩ =>
    show win0_3.index t₀ 1 * 256 ≤ (i 1).val ∧ (i 1).val < win0_3.index t₀ 1 * 256 + win0_3.xsize (grid0.coords t₀) 1
    rw [j1, x1, ht₀]
    omega

/-- The result array ends holding the dense layer of the arrays the region found. -/
theorem final_result (c : Dev nD) : (dats m 0 c).arrAt 3 cfg0.N = G m c :=
  (dats m 0 c).arrAt_eq_of_cover 3 (G m c)
    (fun t _ => by
      show win0_3.cut (grid0.coords t) (win0_3.fill (grid0.coords t) (fun _ => zeroWord) ((win0_3.blk t).view.read (Elt Ideal) (G m c))) = _
      exact Window.cut_fill _ _ _ _)
    (fun i => covered i)

/-- The run read at the two results and the five arguments: the first result is the dense layer of what the region
    found, the features are what the host operations left, the arguments what they were. -/
theorem results
    (hA : ∀ c i, ∃ r : ℝ, (V m c main_v71 : S1120x4096.Idx → EReal) i = (r : EReal))
    (hW : ∀ c i, ∃ r : ℝ, (V m c main_arg3 : S4096x50000.Idx → EReal) i = (r : EReal)) :
    θ_run defs (onTc (τ := τ) (main (F := Ideal))) ⟨m, fun _ => 0, ρ⟩ (fun r => ∀ c : Dev nD,
      r.2.mem ((c.tc : Thread nD τ).loc main_v73) = G m c
      ∧ r.2.mem ((c.tc : Thread nD τ).loc main_v71) = V m c main_v71
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 3).trans (final_result m c),
     ((h c).1 0).trans (((dats m 0 c).arrAt_in 0 rfl _).trans (A_eq m c 0)),
     ((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).1 1).trans (((dats m 0 c).arrAt_in 1 rfl _).trans ((A_eq m c 1).trans (V_main_arg3 m c))),
     ((h c).2 main_arg4 (Pipeline.mem_restRefs_of main_arg4 (by decide) (by decide))).trans (V_main_arg4 m c)⟩)
    (run_main m ρ hA hW)

end Cert.KernelIdeal.Run

end
-- ==== Proof.DelayedKI.lean ====
/-
  The first array the region reads IS the delayed features of the three arguments they are computed from: the host
  operations before the region, cut at the stages' boundaries, each stretch read as its stage of the shared chain.
-/
import proofs.«132525_j84310208020704_2_alg».proof.Proof.HostKI

set_option maxRecDepth 16384

noncomputable section

namespace Cert.KernelIdeal.HostSide

open Cert.KernelIdeal Cert.KernelIdeal.Gen Cert.HostStages
open Idealize.ShloMosaic Idealize.ShloMosaic.TcCoe Idealize.ShloMosaic.Tactic
open Idealize.SL Idealize.SL.Sem

variable {F : FTy → Type} [FloatOps F]

/-- Every host operation before the region, in order, as one list. -/
abbrev flat : List (HloOp τ sig (Elt F)) := List.flatten (stretches (F := F))

/-- A list of operations run from `W` is its first `k` run from `W`, then the rest run from there. -/
theorem after_cut (k : Nat) (ops : List (HloOp τ sig (Elt F))) (W : Valuation τ sig (Elt F)) :
    StableHlo.after ops W = StableHlo.after (ops.drop k) (StableHlo.after (ops.take k) W) := by
  rw [← StableHlo.after_append, List.take_append_drop]

theorem arg_stage (W : Valuation τ sig (Elt F)) :
    (StableHlo.after (List.take 19 (flat (F := F))) W (Proc.devRef .tc main_v18) : (⟨S4x300x2000, .f32⟩ : BufTy).Contents (Elt F)) = lanczosArg (W (Proc.devRef .tc main_arg1)) (W (Proc.devRef .tc main_arg2)) := by
  simp only [flat, stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
    List.take_succ_cons, List.take_zero, List.drop_succ_cons, List.drop_zero]
  after_results_simp
  rfl

theorem weights_stage (W : Valuation τ sig (Elt F)) :
    (StableHlo.after (List.take 45 (List.drop 19 (flat (F := F)))) W (Proc.devRef .tc main_v43) : (⟨S4x300x2000, .f32⟩ : BufTy).Contents (Elt F)) = lanczosWeights (W (Proc.devRef .tc main_v18)) := by
  simp only [flat, stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
    List.take_succ_cons, List.take_zero, List.drop_succ_cons, List.drop_zero]
  after_results_simp
  rfl

theorem rows_stage (W : Valuation τ sig (Elt F)) :
    (StableHlo.after (List.take 10 (List.drop 45 (List.drop 19 (flat (F := F))))) W (Proc.devRef .tc main_v50) : (⟨S4x300x2000, .f32⟩ : BufTy).Contents (Elt F)) = interpRows (W (Proc.devRef .tc main_v43)) := by
  simp only [flat, stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
    List.take_succ_cons, List.take_zero, List.drop_succ_cons, List.drop_zero]
  after_results_simp
  rfl

theorem down_stage (W : Valuation τ sig (Elt F)) :
    (StableHlo.after (List.take 2 (List.drop 10 (List.drop 45 (List.drop 19 (flat (F := F)))))) W (Proc.devRef .tc main_v52) : (⟨S4x280x1024, .f32⟩ : BufTy).Contents (Elt F)) = trimmedDown (W (Proc.devRef .tc main_v50)) (W (Proc.devRef .tc main_arg0)) := by
  simp only [flat, stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
    List.take_succ_cons, List.take_zero, List.drop_succ_cons, List.drop_zero]
  after_results_simp
  rfl

theorem zscore_stage (W : Valuation τ sig (Elt F)) :
    (StableHlo.after (List.take 39 (List.drop 2 (List.drop 10 (List.drop 45 (List.drop 19 (flat (F := F))))))) W (Proc.devRef .tc main_v63) : (⟨S4x280x1024, .f32⟩ : BufTy).Contents (Elt F)) = zscored (W (Proc.devRef .tc main_v52)) := by
  simp only [flat, stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
    List.take_succ_cons, List.take_zero, List.drop_succ_cons, List.drop_zero]
  after_results_simp
  rfl

theorem delay_stage (W : Valuation τ sig (Elt F)) :
    (StableHlo.after (List.drop 39 (List.drop 2 (List.drop 10 (List.drop 45 (List.drop 19 (flat (F := F))))))) W (Proc.devRef .tc main_v71) : (⟨S1120x4096, .f32⟩ : BufTy).Contents (Elt F)) = delayedRows (W (Proc.devRef .tc main_v63)) := by
  simp only [flat, stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
    List.take_succ_cons, List.take_zero, List.drop_succ_cons, List.drop_zero]
  after_results_simp
  rfl

/-- The embeddings are not written by the operations before the product that reads them. -/
theorem kept_a (W : Valuation τ sig (Elt F)) :
    StableHlo.after (List.take 19 (flat (F := F))) W (Proc.devRef .tc main_arg0) = W (Proc.devRef .tc main_arg0) :=
  StableHlo.after_of_forall_not_mem (b := Proc.devRef .tc main_arg0) _ _ (List.forall_iff_forall_mem.mp (by
    simp only [flat, stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
    List.take_succ_cons, List.take_zero, List.drop_succ_cons, List.drop_zero, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

theorem kept_b (W : Valuation τ sig (Elt F)) :
    StableHlo.after (List.take 45 (List.drop 19 (flat (F := F)))) W (Proc.devRef .tc main_arg0) = W (Proc.devRef .tc main_arg0) :=
  StableHlo.after_of_forall_not_mem (b := Proc.devRef .tc main_arg0) _ _ (List.forall_iff_forall_mem.mp (by
    simp only [flat, stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
    List.take_succ_cons, List.take_zero, List.drop_succ_cons, List.drop_zero, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

theorem kept_c (W : Valuation τ sig (Elt F)) :
    StableHlo.after (List.take 10 (List.drop 45 (List.drop 19 (flat (F := F))))) W (Proc.devRef .tc main_arg0) = W (Proc.devRef .tc main_arg0) :=
  StableHlo.after_of_forall_not_mem (b := Proc.devRef .tc main_arg0) _ _ (List.forall_iff_forall_mem.mp (by
    simp only [flat, stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
    List.take_succ_cons, List.take_zero, List.drop_succ_cons, List.drop_zero, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-- The first array the region reads is the delayed features of the arguments. -/
theorem V_delayed (m : (ℓ : Loc nD τ sig) → Buf (Elt F) ℓ) (c : Dev nD) : (V m c main_v71 : (⟨S1120x4096, .f32⟩ : BufTy).Contents (Elt F))
    = delayedOf (m ((c : Thread nD τ).loc main_arg0)) (m ((c : Thread nD τ).loc main_arg1)) (m ((c : Thread nD τ).loc main_arg2)) := by
  show (StableHlo.after (flat (F := F)) (fun b => m (c, b)) (Proc.devRef .tc main_v71) : (⟨S1120x4096, .f32⟩ : BufTy).Contents (Elt F)) = _
  rw [after_cut 19 (flat (F := F)), after_cut 45 (List.drop 19 (flat (F := F))), after_cut 10 (List.drop 45 (List.drop 19 (flat (F := F)))), after_cut 2 (List.drop 10 (List.drop 45 (List.drop 19 (flat (F := F))))), after_cut 39 (List.drop 2 (List.drop 10 (List.drop 45 (List.drop 19 (flat (F := F))))))]
  rw [delay_stage, zscore_stage, down_stage, rows_stage, weights_stage, arg_stage, kept_c, kept_b, kept_a]
  rfl

end Cert.KernelIdeal.HostSide

end
-- ==== Proof.WeightsReal.lean ====
/-
  Finiteness of the interpolation weights at the exact instance: the windowed weight is a real number at every
  extended-real argument, and a row of real weights stays real after the division by its sum.
-/
import proofs.«132525_j84310208020704_2_alg».proof.Proof.HostStages
import Idealize.ShloMosaic.PureOps.Ideal.Laws
import Idealize.ShloMosaic.Lib.IdealHost

noncomputable section

namespace Cert.HostStages

open Idealize.ShloMosaic Cert.KernelIdeal Cert.KernelIdeal.Facts₀

/-! ### The literals -/

/-- The pattern `0x40400000` is the real number `3`. -/
theorem lit_three : Ideal.ofBits .f32 0x40400000#32 = ((3 : ℝ) : EReal) := by
  simp [Ideal.ofBits, Ideal.ieee, -EReal.coe_mul]; norm_num

/-- The pattern `0x40490FDB`, the single-precision `π`, is a positive real number. -/
theorem lit_pi : ∃ p : ℝ, 0 < p ∧ Ideal.ofBits .f32 0x40490FDB#32 = (p : EReal) := by
  refine ⟨13176795 * (2 : ℝ) ^ (-22 : ℤ), by positivity, ?_⟩
  simp [Ideal.ofBits, Ideal.ieee, -EReal.coe_mul]

/-! ### The comparisons as propositions -/

theorem cmp_oeq_iff {x y : EReal} : Ideal.cmp .oeq x y = 1 ↔ x = y := by
  show BitVec.ofBool (decide (x = y)) = 1#1 ↔ x = y
  by_cases h : x = y <;> simp [h]

theorem cmp_olt_iff {x y : EReal} : Ideal.cmp .olt x y = 1 ↔ x < y := by
  show BitVec.ofBool (decide (x < y)) = 1#1 ↔ x < y
  by_cases h : x < y <;> simp [h]

theorem cmp_ogt_iff {x y : EReal} : Ideal.cmp .ogt x y = 1 ↔ y < x := by
  show BitVec.ofBool (decide (y < x)) = 1#1 ↔ y < x
  by_cases h : y < x <;> simp [h]

/-! ### The windowed weight of one argument -/

/-- `sinc` on the extended reals, as the stage spells it: `1` at `0`, else `sin (πt) / (πt)` with the
    single-precision `π`. -/
def sincE (t : EReal) : EReal :=
  if Ideal.cmp .oeq t (Ideal.ofBits .f32 0x00000000#32) = 1 then Ideal.ofBits .f32 0x3F800000#32
  else Ideal.div (Ideal.sin (Ideal.ofBits .f32 0x40490FDB#32 * t)) (Ideal.ofBits .f32 0x40490FDB#32 * t)

/-- The windowed weight of one argument: `sinc t · sinc (t/3)` where `|t| < 3`, else `0`. -/
def weightE (t : EReal) : EReal :=
  if Ideal.cmp .olt (max t (-t)) (Ideal.ofBits .f32 0x40400000#32) = 1 then
    sincE t * sincE (Ideal.div t (Ideal.ofBits .f32 0x40400000#32))
  else Ideal.ofBits .f32 0x00000000#32

/-- The stage is pointwise: its value at an index is the weight of the argument there. -/
theorem lanczosWeights_apply (x : (⟨S4x300x2000, .f32⟩ : BufTy).Contents (Elt Ideal)) (i) :
    lanczosWeights (F := Ideal) x i = weightE (x i) := rfl

/-- At a real argument `sinc` is real: at `0` it is the literal `1`; elsewhere the sine of a real is real and the
    denominator `πt` is a nonzero real. -/
theorem sincE_coe (r : ℝ) : ∃ s : ℝ, sincE (r : EReal) = (s : EReal) := by
  obtain ⟨p, hp, hπ⟩ := lit_pi
  unfold sincE
  by_cases h0 : (r : EReal) = Ideal.ofBits .f32 0x00000000#32
  · rw [if_pos (cmp_oeq_iff.2 h0), Ideal.ofBits_one_f32]
    exact ⟨1, EReal.coe_one.symm⟩
  · rw [if_neg (fun h => h0 (cmp_oeq_iff.1 h)), hπ]
    have hr : r ≠ 0 := by
      rintro rfl
      exact h0 (by rw [Ideal.ofBits_zero_f32]; exact EReal.coe_zero)
    have hpr : p * r ≠ 0 := mul_ne_zero hp.ne' hr
    rw [← EReal.coe_mul, Ideal.sin_coe, Ideal.div_coe hpr, ← EReal.coe_mul]
    exact ⟨_, rfl⟩

/-- The weight is real at EVERY extended real: where `|t| < 3` holds `t` is itself real, so both `sinc` factors are
    real (the inner quotient `t / 3` has the nonzero real denominator `3`); elsewhere the value is the literal `0`. -/
theorem weightE_real (t : EReal) : ∃ s : ℝ, weightE t = (s : EReal) := by
  unfold weightE
  by_cases hlt : max t (-t) < Ideal.ofBits .f32 0x40400000#32
  · rw [if_pos (cmp_olt_iff.2 hlt)]
    rw [lit_three] at hlt
    induction t using EReal.rec with
    | bot => exact absurd hlt (by simp)
    | top => exact absurd hlt (by simp)
    | coe r =>
      obtain ⟨a, ha⟩ := sincE_coe r
      rw [lit_three, Ideal.div_coe (by norm_num : (3 : ℝ) ≠ 0), ← EReal.coe_mul]
      obtain ⟨b, hb⟩ := sincE_coe (r * (1 / 3))
      rw [ha, hb, ← EReal.coe_mul]
      exact ⟨_, rfl⟩
  · rw [if_neg (fun h => hlt (cmp_olt_iff.1 h)), Ideal.ofBits_zero_f32]
    exact ⟨0, EReal.coe_zero.symm⟩

theorem lanczosWeights_real (x : (⟨S4x300x2000, .f32⟩ : BufTy).Contents (Elt Ideal)) :
    ∀ i, ∃ r : ℝ, lanczosWeights (F := Ideal) x i = (r : EReal) := by
  intro i
  rw [lanczosWeights_apply]
  exact weightE_real _

/-! ### A row divided by its sum -/

/-- A finite sum of real numbers is a real number. -/
theorem sum_real {ι : Type} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by rw [Finset.sum_empty]; exact EReal.coe_zero.symm⟩
  | insert a s ha ih =>
    obtain ⟨r, hr⟩ := hf a (Finset.mem_insert_self a s)
    obtain ⟨q, hq⟩ := ih (fun i hi => hf i (Finset.mem_insert_of_mem hi))
    exact ⟨r + q, by rw [Finset.sum_insert ha, hr, hq, EReal.coe_add]⟩

/-- One weight divided by its row's sum `D` where `D` is positive, kept elsewhere. -/
def rowDiv (a D : EReal) : EReal :=
  if Ideal.cmp .ogt D (Ideal.ofBits .f32 0x00000000#32) = 1 then Ideal.div a D else a

/-- The stage at an index: the weight there against the sum (from the initial `0`) of one row of the array. -/
theorem interpRows_apply (w : (⟨S4x300x2000, .f32⟩ : BufTy).Contents (Elt Ideal)) (i) :
    ∃ j, interpRows (F := Ideal) w i
      = rowDiv (w i) (Ideal.hostReduceAdd reducesTo_S4x300x2000_S4x300_d2 w (Ideal.ofBits .f32 0x00000000#32) j) :=
  ⟨_, rfl⟩

/-- A real weight against a real sum is real: where the sum is positive it is a nonzero real denominator. -/
theorem rowDiv_coe (a d : ℝ) : ∃ r : ℝ, rowDiv (a : EReal) (d : EReal) = (r : EReal) := by
  unfold rowDiv
  by_cases hd : Ideal.ofBits .f32 0x00000000#32 < (d : EReal)
  · rw [if_pos (cmp_ogt_iff.2 hd)]
    have hd0 : d ≠ 0 := by
      rintro rfl
      rw [Ideal.ofBits_zero_f32] at hd
      exact absurd hd (by simp)
    rw [Ideal.div_coe hd0, ← EReal.coe_mul]
    exact ⟨_, rfl⟩
  · rw [if_neg (fun h => hd (cmp_ogt_iff.1 h))]
    exact ⟨a, rfl⟩

theorem interpRows_real (w : (⟨S4x300x2000, .f32⟩ : BufTy).Contents (Elt Ideal))
    (hw : ∀ i, ∃ r : ℝ, w i = (r : EReal)) : ∀ i, ∃ r : ℝ, interpRows (F := Ideal) w i = (r : EReal) := by
  intro i
  obtain ⟨j, hj⟩ := interpRows_apply w i
  obtain ⟨a, ha⟩ := hw i
  obtain ⟨q, hq⟩ := sum_real (Finset.univ.filter fun i => reducesTo_S4x300x2000_S4x300_d2.drop i = j) w
    (fun i _ => hw i)
  have hD : Ideal.hostReduceAdd reducesTo_S4x300x2000_S4x300_d2 w (Ideal.ofBits .f32 0x00000000#32) j
      = ((0 + q : ℝ) : EReal) := by
    unfold Ideal.hostReduceAdd
    rw [hq, Ideal.ofBits_zero_f32, EReal.coe_add, EReal.coe_zero]
  rw [hj, ha, hD]
  exact rowDiv_coe a (0 + q)

end Cert.HostStages

end
-- ==== Proof.FeaturesReal.lean ====
/-
  The features after the weights are finite: at the extended reals, where every operation is the exact one, the
  trimmed weighted sums, the z-scores and the delayed rows are real numbers whenever the arrays they are computed
  from are. Products and finite sums of reals are real; the mean divides by 280; the variance is a sum of squares
  divided by 280 - 1 > 0, so it is a nonnegative real, its square root is one too, and adding a positive constant
  makes the denominator of the z-score a positive real; re-indexings (broadcast, slice, reshape, pad with zero,
  concatenation) only move entries.
-/
import proofs.«132525_j84310208020704_2_alg».proof.Proof.HostStages
import Idealize.ShloMosaic.PureOps.Ideal.Laws

namespace Cert.HostStages

open Idealize.ShloMosaic Cert.KernelIdeal Cert.KernelIdeal.Facts₀

open scoped BigOperators

/-! ### Real, nonnegative real and positive real elements of the extended reals -/

/-- An extended real that is a real number. -/
def IsReal (x : EReal) : Prop := ∃ r : ℝ, x = (r : EReal)
/-- An extended real that is a nonnegative real number. -/
def IsNonnegReal (x : EReal) : Prop := ∃ r : ℝ, 0 ≤ r ∧ x = (r : EReal)
/-- An extended real that is a positive real number. -/
def IsPosReal (x : EReal) : Prop := ∃ r : ℝ, 0 < r ∧ x = (r : EReal)

theorem IsNonnegReal.isReal {x : EReal} (h : IsNonnegReal x) : IsReal x := let ⟨r, _, e⟩ := h; ⟨r, e⟩
theorem IsPosReal.isReal {x : EReal} (h : IsPosReal x) : IsReal x := let ⟨r, _, e⟩ := h; ⟨r, e⟩
theorem IsPosReal.isNonnegReal {x : EReal} (h : IsPosReal x) : IsNonnegReal x := let ⟨r, hr, e⟩ := h; ⟨r, hr.le, e⟩

theorem isReal_zero : IsReal 0 := ⟨0, EReal.coe_zero.symm⟩
theorem isNonnegReal_zero : IsNonnegReal 0 := ⟨0, le_refl 0, EReal.coe_zero.symm⟩

theorem isReal_add {x y : EReal} (hx : IsReal x) (hy : IsReal y) : IsReal (x + y) := by
  obtain ⟨a, rfl⟩ := hx; obtain ⟨b, rfl⟩ := hy; exact ⟨a + b, (EReal.coe_add a b).symm⟩
theorem isReal_sub {x y : EReal} (hx : IsReal x) (hy : IsReal y) : IsReal (x - y) := by
  obtain ⟨a, rfl⟩ := hx; obtain ⟨b, rfl⟩ := hy; exact ⟨a - b, (EReal.coe_sub a b).symm⟩
theorem isReal_mul {x y : EReal} (hx : IsReal x) (hy : IsReal y) : IsReal (x * y) := by
  obtain ⟨a, rfl⟩ := hx; obtain ⟨b, rfl⟩ := hy; exact ⟨a * b, (EReal.coe_mul a b).symm⟩
theorem isNonnegReal_add {x y : EReal} (hx : IsNonnegReal x) (hy : IsNonnegReal y) : IsNonnegReal (x + y) := by
  obtain ⟨a, ha, rfl⟩ := hx; obtain ⟨b, hb, rfl⟩ := hy; exact ⟨a + b, add_nonneg ha hb, (EReal.coe_add a b).symm⟩
theorem isPosReal_add {x y : EReal} (hx : IsNonnegReal x) (hy : IsPosReal y) : IsPosReal (x + y) := by
  obtain ⟨a, ha, rfl⟩ := hx; obtain ⟨b, hb, rfl⟩ := hy
  exact ⟨a + b, add_pos_of_nonneg_of_pos ha hb, (EReal.coe_add a b).symm⟩
/-- The square of a real is a nonnegative real. -/
theorem isNonnegReal_mul_self {x : EReal} (hx : IsReal x) : IsNonnegReal (x * x) := by
  obtain ⟨a, rfl⟩ := hx; exact ⟨a * a, mul_self_nonneg a, (EReal.coe_mul a a).symm⟩

/-- A finite sum of reals is real. -/
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact isReal_add (h a (Finset.mem_insert_self a s)) (ih fun i hi => h i (Finset.mem_insert_of_mem hi))

/-- A finite sum of nonnegative reals is a nonnegative real. -/
theorem isNonnegReal_sum {ι : Type} (s : Finset ι) (f : ι → EReal) (h : ∀ i ∈ s, IsNonnegReal (f i)) :
    IsNonnegReal (∑ i ∈ s, f i) := by
  classical
  induction s using Finset.induction_on with
  | empty => rw [Finset.sum_empty]; exact isNonnegReal_zero
  | insert a s ha ih =>
    rw [Finset.sum_insert ha]
    exact isNonnegReal_add (h a (Finset.mem_insert_self a s)) (ih fun i hi => h i (Finset.mem_insert_of_mem hi))

/-- A real divided by a positive real is real. -/
theorem isReal_div {x y : EReal} (hx : IsReal x) (hy : IsPosReal y) : IsReal (Ideal.div x y) := by
  obtain ⟨a, rfl⟩ := hx; obtain ⟨b, hb, rfl⟩ := hy
  rw [Ideal.div_coe hb.ne']
  exact ⟨a * (1 / b), (EReal.coe_mul _ _).symm⟩

/-- A nonnegative real divided by a positive real is a nonnegative real. -/
theorem isNonnegReal_div {x y : EReal} (hx : IsNonnegReal x) (hy : IsPosReal y) : IsNonnegReal (Ideal.div x y) := by
  obtain ⟨a, ha, rfl⟩ := hx; obtain ⟨b, hb, rfl⟩ := hy
  rw [Ideal.div_coe hb.ne']
  exact ⟨a * (1 / b), mul_nonneg ha (one_div_nonneg.mpr hb.le), (EReal.coe_mul _ _).symm⟩

/-- The square root of a nonnegative real is a nonnegative real. -/
theorem isNonnegReal_sqrt {x : EReal} (hx : IsNonnegReal x) : IsNonnegReal (Ideal.sqrt x) := by
  obtain ⟨a, ha, rfl⟩ := hx
  rw [Ideal.sqrt_coe, if_neg (not_lt.mpr ha)]
  exact ⟨Real.sqrt a, Real.sqrt_nonneg a, rfl⟩

/-- The ordered comparison "greater than" answers one when it holds. -/
theorem cmp_ogt_of_lt {x y : EReal} (h : y < x) : Ideal.cmp .ogt x y = 1 := by
  simp [Ideal.cmp, h]

/-! ### The float literals of the z-score -/

theorem ofBits_zero : Ideal.ofBits .f32 0x00000000#32 = 0 := Ideal.ofBits_zero_f32

/-- The literal 0x438C0000 is 280. -/
theorem ofBits_280 : Ideal.ofBits .f32 0x438C0000#32 = ((280 : ℝ) : EReal) := by
  simp [Ideal.ofBits, Ideal.ieee, -EReal.coe_mul]; norm_num

theorem isPosReal_280 : IsPosReal (Ideal.ofBits .f32 0x438C0000#32) := ⟨280, by norm_num, ofBits_280⟩

/-- 280 minus the integer one is a positive real. -/
theorem isPosReal_279 : IsPosReal (Ideal.ofBits .f32 0x438C0000#32 - (((1#32 : BitVec 32).toInt : ℝ) : EReal)) := by
  rw [ofBits_280]
  refine ⟨280 - ((1#32 : BitVec 32).toInt : ℝ), ?_, (EReal.coe_sub _ _).symm⟩
  have h1 : (1#32 : BitVec 32).toInt = 1 := by decide
  rw [h1]; norm_num

/-- The literal 0x358637BD (about 1e-6) is a positive real. -/
theorem isPosReal_eps : IsPosReal (Ideal.ofBits .f32 0x358637BD#32) := by
  simp [Ideal.ofBits, Ideal.ieee, -EReal.coe_mul]
  exact ⟨_, by positivity, rfl⟩

/-! ### Re-indexings only move entries

Every entry of a broadcast, a reshape, a slice, a pad or a concatenation is an entry of an operand (or the pad
value), so a property of all the operands' entries is a property of all the result's. -/

section Move
variable {α : Type} (P : α → Prop) {s t : Shape}

theorem all_broadcastInDim (dims : Fin s.rank → Fin t.rank) (h : s.BroadcastsInDim t dims) (x : s.Idx → α)
    (hx : ∀ i, P (x i)) : ∀ j, P (broadcastInDim t dims h x j) := fun j => hx _

theorem all_shapeCast (x : s.Idx → α) (h : s.ShapeCasts t) (hx : ∀ i, P (x i)) : ∀ j, P (shapeCast t x h j) :=
  fun j => hx _

theorem all_extractStridedSlice (off : Fin s.rank → Nat) (x : s.Idx → α) (h : s.Slices off t) (hx : ∀ i, P (x i)) :
    ∀ j, P (extractStridedSlice t off x h j) := fun j => hx _

theorem all_pad (lo hi interior : Fin s.rank → Nat) (x : s.Idx → α) {u : Shape} (v : u.Idx → α)
    (h : s.Pads lo hi interior t) (hu : 0 < u.numel) (hx : ∀ i, P (x i)) (hv : ∀ i, P (v i)) :
    ∀ j, P (pad t lo hi interior x v h hu j) := by
  intro j
  unfold pad
  split
  · exact hx _
  · exact hv _

theorem all_concatenate (a : Fin t.rank) (xs : List ((s : Shape) × (s.Idx → α)))
    (h : Shape.Concatenates (xs.map (·.1)) t a) (hxs : ∀ p ∈ xs, ∀ i, P (p.2 i)) :
    ∀ j, P (concatenate t a xs h j) := by
  intro j
  unfold concatenate
  exact hxs _ (List.getElem_mem _) _

/-- A select whose condition is one everywhere has the entries of its first operand. -/
theorem all_select_of_one (c : IVec s 1) (a b : s.Idx → α) (hc : ∀ i, c i = 1) (ha : ∀ i, P (a i)) :
    ∀ i, P (select c a b i) := by
  intro i
  have h : select c a b i = a i := by
    show (if c i = 1 then a i else b i) = a i
    rw [if_pos (hc i)]
  rw [h]; exact ha i

end Move

/-! ### The elementwise operations and the sums, entry by entry -/

section Entries
variable {s : Shape}

theorem allReal_subf (x y : FVec Ideal s .f32) (hx : ∀ i, IsReal (x i)) (hy : ∀ i, IsReal (y i)) :
    ∀ i, IsReal (subf x y i) := fun i => isReal_sub (hx i) (hy i)

theorem allNonneg_mulf_self (x : FVec Ideal s .f32) (hx : ∀ i, IsReal (x i)) :
    ∀ i, IsNonnegReal (mulf x x i) := fun i => isNonnegReal_mul_self (hx i)

theorem allPos_addf (x y : FVec Ideal s .f32) (hx : ∀ i, IsNonnegReal (x i)) (hy : ∀ i, IsPosReal (y i)) :
    ∀ i, IsPosReal (addf x y i) := fun i => isPosReal_add (hx i) (hy i)

theorem allReal_hostDivf (x y : FVec Ideal s .f32) (hx : ∀ i, IsReal (x i)) (hy : ∀ i, IsPosReal (y i)) :
    ∀ i, IsReal (Host.divf x y i) := fun i => isReal_div (hx i) (hy i)

theorem allNonneg_hostDivf (x y : FVec Ideal s .f32) (hx : ∀ i, IsNonnegReal (x i)) (hy : ∀ i, IsPosReal (y i)) :
    ∀ i, IsNonnegReal (Host.divf x y i) := fun i => isNonnegReal_div (hx i) (hy i)

theorem allNonneg_hostSqrt (x : FVec Ideal s .f32) (hx : ∀ i, IsNonnegReal (x i)) :
    ∀ i, IsNonnegReal (Host.sqrt x i) := fun i => isNonnegReal_sqrt (hx i)

/-- Where the left operand is a positive real and the right one zero, "greater than" answers one. -/
theorem all_cmpf_ogt (x y : FVec Ideal s .f32) (hx : ∀ i, IsPosReal (x i)) (hy : ∀ i, y i = 0) :
    ∀ i, cmpf .ogt x y i = 1 := by
  intro i
  show Ideal.cmp .ogt (x i) (y i) = 1
  obtain ⟨r, hr, e⟩ := hx i
  rw [e, hy i]
  exact cmp_ogt_of_lt (by exact_mod_cast hr)

/-- The host's sum of reals from a real initial value is real at every reduced index. -/
theorem allReal_hostReduceAdd {t u : Shape} {axes : List (Fin s.rank)} (x : FVec Ideal s .f32)
    (init : u.Idx → Ideal .f32) (h : s.ReducesTo axes t) (hu : 0 < u.numel) (hx : ∀ i, IsReal (x i))
    (hinit : ∀ i, IsReal (init i)) : ∀ j, IsReal (Host.reduceAdd (F := Ideal) x init h hu j) := by
  intro j
  show IsReal (Ideal.hostReduceAdd h x (init (Shape.Idx.first hu)) j)
  unfold Ideal.hostReduceAdd
  exact isReal_add (hinit _) (isReal_sum _ _ fun i _ => hx i)

/-- The host's sum of nonnegative reals from a nonnegative real initial value is a nonnegative real. -/
theorem allNonneg_hostReduceAdd {t u : Shape} {axes : List (Fin s.rank)} (x : FVec Ideal s .f32)
    (init : u.Idx → Ideal .f32) (h : s.ReducesTo axes t) (hu : 0 < u.numel) (hx : ∀ i, IsNonnegReal (x i))
    (hinit : ∀ i, IsNonnegReal (init i)) : ∀ j, IsNonnegReal (Host.reduceAdd (F := Ideal) x init h hu j) := by
  intro j
  show IsNonnegReal (Ideal.hostReduceAdd h x (init (Shape.Idx.first hu)) j)
  unfold Ideal.hostReduceAdd
  exact isNonnegReal_add (hinit _) (isNonnegReal_sum _ _ fun i _ => hx i)

/-- The host's product of two real arrays, a finite sum of products of entries, is real. -/
theorem allReal_dotGeneral {sl sr so : Shape} (d : DotDims sl sr so) (prec : Option ContractPrecision)
    (lhs : FVec Ideal sl .f32) (rhs : FVec Ideal sr .f32) (hl : ∀ i, IsReal (lhs i)) (hr : ∀ i, IsReal (rhs i)) :
    ∀ j, IsReal (Host.dotGeneral (F := Ideal) d prec lhs rhs j) := by
  intro j
  show IsReal (FloatOps.dotGeneral d prec .single lhs rhs j)
  rw [Ideal.dotGeneral_apply]
  exact isReal_sum _ _ fun k _ => isReal_mul (hl _) (hr _)

end Entries

/-! ### The three stages -/

/-- The trimmed weighted sums of real embeddings with real weights are real. -/
theorem trimmedDown_real (p : (⟨S4x300x2000, .f32⟩ : BufTy).Contents (Elt Ideal))
    (a : (⟨S4x2000x1024, .f32⟩ : BufTy).Contents (Elt Ideal))
    (hp : ∀ i, ∃ r : ℝ, p i = (r : EReal)) (ha : ∀ i, ∃ r : ℝ, a i = (r : EReal)) :
    ∀ i, ∃ r : ℝ, trimmedDown (F := Ideal) p a i = (r : EReal) := by
  show ∀ i, IsReal (trimmedDown (F := Ideal) p a i)
  unfold trimmedDown
  dsimp only
  exact all_extractStridedSlice IsReal _ _ _ (allReal_dotGeneral _ _ _ _ hp ha)

/-- The mean of a real array over its 280 rows, column by column (the column sums divided by the literal 280), is
    real. -/
theorem allReal_mean (d : (⟨S4x280x1024, .f32⟩ : BufTy).Contents (Elt Ideal)) (hd : ∀ i, IsReal (d i)) :
    ∀ i, IsReal (Host.divf (F := Ideal)
      (broadcastInDim S4x1x1024 ![0, 2] bcast_S4x1024_S4x1x1024_0_2
        (Host.reduceAdd (F := Ideal) d (constant (F := Ideal) S_ .f32 0x00000000#32) reducesTo_S4x280x1024_S4x1024_d1 h_S_))
      (broadcastInDim S4x1x1024 ![] bcast_S_S4x1x1024 (constant (F := Ideal) S_ .f32 0x438C0000#32)) i) :=
  allReal_hostDivf _ _
    (all_broadcastInDim IsReal _ _ _ (allReal_hostReduceAdd _ _ _ _ hd fun _ => ⟨0, ofBits_zero.trans EReal.coe_zero.symm⟩))
    (all_broadcastInDim IsPosReal _ _ _ fun _ => isPosReal_280)

/-- The z-scores of a real array are real: the mean is real; the variance, a sum of squares divided by
    280 - 1 > 0, is a nonnegative real, so its square root plus the positive literal is a positive real, and a
    real divided by a positive real is real. -/
theorem zscored_real (d : (⟨S4x280x1024, .f32⟩ : BufTy).Contents (Elt Ideal))
    (hd : ∀ i, ∃ r : ℝ, d i = (r : EReal)) : ∀ i, ∃ r : ℝ, zscored (F := Ideal) d i = (r : EReal) := by
  show ∀ i, IsReal (zscored (F := Ideal) d i)
  have hd' : ∀ i, IsReal (d i) := hd
  have hzero : ∀ i : S_.Idx, IsNonnegReal (constant (F := Ideal) S_ .f32 0x00000000#32 i) :=
    fun _ => ⟨0, le_refl 0, ofBits_zero.trans EReal.coe_zero.symm⟩
  unfold zscored
  dsimp only
  -- the centred array over a positive real
  refine allReal_hostDivf _ _
    (allReal_subf _ _ hd' (all_broadcastInDim IsReal _ _ _ (allReal_mean d hd')))
    (all_broadcastInDim IsPosReal _ _ _ ?_)
  -- the standard deviation plus the positive literal
  refine allPos_addf _ _ (allNonneg_hostSqrt _ ?_) (all_broadcastInDim IsPosReal _ _ _ fun _ => isPosReal_eps)
  -- the select takes the quotient: 280 - 1 is greater than zero
  refine all_select_of_one IsNonnegReal _ _ _ (all_broadcastInDim (fun c => c = 1) _ _ _ ?_) ?_
  · exact all_cmpf_ogt _ _ (fun _ => isPosReal_279) (fun _ => ofBits_zero)
  -- the sum of squares over 280 - 1
  · refine allNonneg_hostDivf _ _
      (all_broadcastInDim IsNonnegReal _ _ _ (allNonneg_hostReduceAdd _ _ _ _ ?_ hzero))
      (all_broadcastInDim IsPosReal _ _ _ fun _ => isPosReal_279)
    exact allNonneg_mulf_self _ (allReal_subf _ _ hd' (all_broadcastInDim IsReal _ _ _ (allReal_mean d hd')))

/-- The delayed rows of a real array are real: every entry is an entry of the array or the zero that enters at
    the top. -/
theorem delayedRows_real (z : (⟨S4x280x1024, .f32⟩ : BufTy).Contents (Elt Ideal))
    (hz : ∀ i, ∃ r : ℝ, z i = (r : EReal)) : ∀ i, ∃ r : ℝ, delayedRows (F := Ideal) z i = (r : EReal) := by
  show ∀ i, IsReal (delayedRows (F := Ideal) z i)
  have hz' : ∀ i, IsReal (z i) := hz
  -- the stacked rows
  have h64 : ∀ i, IsReal (shapeCast S1120x1024 z shapeCasts_S4x280x1024_S1120x1024 i) :=
    all_shapeCast IsReal z _ hz'
  -- the pad value: the integer zero as a float
  have h0 : ∀ i : S_.Idx, IsReal (sitofp (F := Ideal) .f32 (constantI S_ 32 0#32) i) := fun _ => ⟨_, rfl⟩
  unfold delayedRows
  dsimp only
  refine all_concatenate IsReal _ _ _ ?_
  intro q hq
  simp only [List.mem_cons, List.not_mem_nil, or_false] at hq
  rcases hq with rfl | rfl | rfl | rfl <;> dsimp only
  · exact h64
  · exact all_extractStridedSlice IsReal _ _ _ (all_pad IsReal _ _ _ _ _ _ _ h64 h0)
  · exact all_extractStridedSlice IsReal _ _ _ (all_pad IsReal _ _ _ _ _ _ _ h64 h0)
  · exact all_extractStridedSlice IsReal _ _ _ (all_pad IsReal _ _ _ _ _ _ _ h64 h0)

end Cert.HostStages
-- ==== Proof.DelayedReal.lean ====
/-
  The delayed features of real embeddings are real, whatever the two time arrays are: the interpolation weights
  are real at every argument, so their weighted sums of real embeddings are real, and so are the z-scores and the
  delayed rows built from them.
-/
import proofs.«132525_j84310208020704_2_alg».proof.Proof.WeightsReal
import proofs.«132525_j84310208020704_2_alg».proof.Proof.FeaturesReal

namespace Cert.HostStages

open Idealize.ShloMosaic Cert.KernelIdeal Cert.KernelIdeal.Facts₀

/-- The delayed features are real as soon as the embeddings are: nothing is asked of the times. -/
theorem delayedOf_real (a0 : (⟨S4x2000x1024, .f32⟩ : BufTy).Contents (Elt Ideal))
    (a1 : (⟨S4x2000, .f32⟩ : BufTy).Contents (Elt Ideal)) (a2 : (⟨S4x300, .f32⟩ : BufTy).Contents (Elt Ideal))
    (h0 : ∀ i, ∃ r : ℝ, a0 i = (r : EReal)) : ∀ i, ∃ r : ℝ, delayedOf (F := Ideal) a0 a1 a2 i = (r : EReal) := by
  unfold delayedOf
  exact delayedRows_real _
    (zscored_real _ (trimmedDown_real _ _ (interpRows_real _ (lanczosWeights_real _)) h0))

end Cert.HostStages
-- ==== Proof.FiniteArgs.lean ====
/-
  From the precondition to the finiteness of the arguments. The precondition says that, for each of the five
  argument arrays, every entry's absolute value is below plus infinity; at the extended reals an element whose
  absolute value is below the top element is neither the top nor the bottom, hence a real number.
-/
import proofs.«132525_j84310208020704_2_alg».proof.Defs
import proofs.«132525_j84310208020704_2_alg».proof.Proof.Gen.Pre_finite_inputs
import Idealize.ShloMosaic.Lib.ReduceAll

namespace Cert.FiniteArgs

open Idealize.ShloMosaic Idealize.SL.Sem

/-- The shape of rank zero has one index. -/
instance : Subsingleton Cert.Pre_finite_inputs.S_.Idx := ⟨fun a b => funext fun d => d.elim0⟩

/-- An extended real whose absolute value compares below the literal 0x7F800000 (plus infinity) is a real. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | top => simp [Ideal.cmp] at h
  | coe r => exact ⟨r, rfl⟩

/-- One conjunct of the precondition: if the conjunction over all entries of "absolute value below plus infinity"
    is one, every entry of the array is a real. -/
theorem all_real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu j = 1#1) :
    ∀ i, ∃ r : ℝ, x i = (r : EReal) := by
  intro i
  have hi := Host.reduce_andi_all _ _ hr hu j e i
  exact real_of_abs_lt_inf (x i) hi

/-- The printed predicate decoded: where it is all ones, every entry of each of the five arrays is a real. -/
theorem fn_real [hF : Cert.Pre_finite_inputs.Facts]
    (a0 : FVec Ideal Cert.Pre_finite_inputs.S4x2000x1024 .f32) (a1 : FVec Ideal Cert.Pre_finite_inputs.S4x2000 .f32)
    (a2 : FVec Ideal Cert.Pre_finite_inputs.S4x300 .f32) (a3 : FVec Ideal Cert.Pre_finite_inputs.S4096x50000 .f32)
    (a4 : FVec Ideal Cert.Pre_finite_inputs.S50000 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have e := congrFun h (fun d => d.elim0)
  unfold Cert.Pre_finite_inputs.fn Cert.Pre_finite_inputs.fn_part1 at e
  dsimp only at e
  simp only [andi, IntOp.andi_eq_one] at e
  obtain ⟨⟨⟨⟨e0, e1⟩, e2⟩, e3⟩, e4⟩ := e
  exact ⟨all_real_of_all a0 _ _ _ _ e0, all_real_of_all a1 _ _ _ _ e1, all_real_of_all a2 _ _ _ _ e2,
    all_real_of_all a3 _ _ _ _ e3, all_real_of_all a4 _ _ _ _ e4⟩

/-- Under the precondition every entry of every argument of the program, on every device, is a real. -/
theorem args_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m)
    (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal)) :=
  fn_real (hF := Cert.Pre_finite_inputs.Gen.facts) _ _ _ _ _ (h c)

end Cert.FiniteArgs
-- ==== Proof.RefRun.lean ====
/-
  The reference program's @main as ONE straight line of host operations, and what its run leaves behind.
  The 97 statements of @main call nine module-local functions; each call is the callee's operations on the call's own
  buffers, so @main is a list of 133 operations: the first window's 69 (`ops0`) and the second's 64 (`ops1`).
  Every buffer ends at the fold of the operations' results over the launch contents; read at the two result buffers
  that fold is the dense layer applied to the delayed features (`Cert.HostStages.delayedOf`) plus the bias, and the
  delayed features themselves; the five arguments are left as they were.
-/
import proofs.«132525_j84310208020704_2_alg».proof.Proof.Gen.ReferenceIdeal
import proofs.«132525_j84310208020704_2_alg».proof.Proof.HostStages
import Idealize.ShloMosaic.Lib.StableHlo.Run
import Idealize.ShloMosaic.Lib.Pipeline.Regions
import Idealize.ShloMosaic.Lib.Tactic
import Idealize.ShloMosaic.PureOps.Ideal

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## Two facts about lists of operations -/

/-- The fold over two lines run one after the other is the second line's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A property of every operation of two lines is one of every operation of their concatenation. -/
theorem forall_append {α : Type} {p : α → Prop} {l₁ l₂ : List α} (h₁ : l₁.Forall p) (h₂ : l₂.Forall p) :
    (l₁ ++ l₂).Forall p :=
  List.forall_iff_forall_mem.2 fun a ha =>
    (List.mem_append.1 ha).elim (List.forall_iff_forall_mem.1 h₁ a) (List.forall_iff_forall_mem.1 h₂ a)

/-! ## The operations -/

/-- Statements 1 … 60 of @main as operations: the interpolation weights up to the row sums' comparison operands
    (`_where` twice and `_where_0` once, four operations each, on their calls' buffers). -/
abbrev ops0 : List (HloOp τ sig (Elt F)) :=
  [ StableHlo.unary main_arg1 main_v0 ((extractStridedSlice S4x1 ![0, 1999] · slices_S4x2000_S4x1_0_1999) : (⟨S4x2000, .f32⟩ : BufTy).Contents (Elt F) → (⟨S4x1, .f32⟩ : BufTy).Contents (Elt F)),
    StableHlo.reshape main_v0 main_v1 rfl shapeCasts_S4x1_S4,
    StableHlo.unary main_arg1 main_v2 ((extractStridedSlice S4x1 ![0, 0] · slices_S4x2000_S4x1_0_0) : (⟨S4x2000, .f32⟩ : BufTy).Contents (Elt F) → (⟨S4x1, .f32⟩ : BufTy).Contents (Elt F)),
    StableHlo.reshape main_v2 main_v3 rfl shapeCasts_S4x1_S4,
    StableHlo.binary main_v1 main_v3 main_v4 (subf : (⟨S4, .f32⟩ : BufTy).Contents (Elt F) → (⟨S4, .f32⟩ : BufTy).Contents (Elt F) → (⟨S4, .f32⟩ : BufTy).Contents (Elt F)),
    StableHlo.unary main_arg2 main_v5 ((extractStridedSlice S4x1 ![0, 299] · slices_S4x300_S4x1_0_299) : (⟨S4x300, .f32⟩ : BufTy).Contents (Elt F) → (⟨S4x1, .f32⟩ : BufTy).Contents (Elt F)),
    StableHlo.reshape main_v5 main_v6 rfl shapeCasts_S4x1_S4,
    StableHlo.unary main_arg2 main_v7 ((extractStridedSlice S4x1 ![0, 0] · slices_S4x300_S4x1_0_0) : (⟨S4x300, .f32⟩ : BufTy).Contents (Elt F) → (⟨S4x1, .f32⟩ : BufTy).Contents (Elt F)),
    StableHlo.reshape main_v7 main_v8 rfl shapeCasts_S4x1_S4,
    StableHlo.binary main_v6 main_v8 main_v9 (subf : (⟨S4, .f32⟩ : BufTy).Contents (Elt F) → (⟨S4, .f32⟩ : BufTy).Contents (Elt F) → (⟨S4, .f32⟩ : BufTy).Contents (Elt F)),
    StableHlo.binary main_v4 main_v9 main_v10 (Host.divf : (⟨S4, .f32⟩ : BufTy).Contents (Elt F) → (⟨S4, .f32⟩ : BufTy).Contents (Elt F) → (⟨S4, .f32⟩ : BufTy).Contents (Elt F)),
    StableHlo.unary main_arg2 main_v11 (broadcastInDim S4x300x1 ![0, 1] bcast_S4x300_S4x300x1_0_1 : (⟨S4x300, .f32⟩ : BufTy).Contents (Elt F) → (⟨S4x300x1, .f32⟩ : BufTy).Contents (Elt F)),
    StableHlo.unary main_arg1 main_v12 (broadcastInDim S4x1x2000 ![0, 2] bcast_S4x2000_S4x1x2000_0_2 : (⟨S4x2000, .f32⟩ : BufTy).Contents (Elt F) → (⟨S4x1x2000, .f32⟩ : BufTy).Contents (Elt F)),
    StableHlo.unary main_v11 main_v13 (broadcastInDim S4x300x2000 ![0, 1, 2] bcast_S4x300x1_S4x300x2000_0_1_2 : (⟨S4x300x1, .f32⟩ : BufTy).Contents (Elt F) → (⟨S4x300x2000, .f32⟩ : BufTy).Contents (Elt F)),
    StableHlo.unary main_v12 main_v14 (broadcastInDim S4x300x2000 ![0, 1, 2] bcast_S4x1x2000_S4x300x2000_0_1_2 : (⟨S4x1x2000, .f32⟩ : BufTy).Contents (Elt F) → (⟨S4x300x2000, .f32⟩ : BufTy).Contents (Elt F)),
    StableHlo.binary main_v13 main_v14 main_v15 (subf : (⟨S4x300x2000, .f32⟩ : BufTy).Contents (Elt F) → (⟨S4x300x2000, .f32⟩ : BufTy).Contents (Elt F) → (⟨S4x300x2000, .f32⟩ : BufTy).Contents (Elt F)),
    StableHlo.unary main_v10 main_v16 (broadcastInDim S4x1x1 ![0] bcast_S4_S4x1x1_0 : (⟨S4, .f32⟩ : BufTy).Contents (Elt F) → (⟨S4x1x1, .f32⟩ : BufTy).Contents (Elt F)),
    StableHlo.unary main_v16 main_v17 (broadcastInDim S4x300x2000 ![0, 1, 2] bcast_S4x1x1_S4x300x2000_0_1_2 : (⟨S4x1x1, .f32⟩ : BufTy).Contents (Elt F) → (⟨S4x300x2000, .f32⟩ : BufTy).Contents (Elt F)),
    StableHlo.binary main_v15 main_v17 main_v18 (mulf : (⟨S4x300x2000, .f32⟩ : BufTy).Contents (Elt F) → (⟨S4x300x2000, .f32⟩ : BufTy).Contents (Elt F) → (⟨S4x300x2000, .f32⟩ : BufTy).Contents (Elt F)),
    StableHlo.unary main_v18 main_v19 (Host.absf : (⟨S4x300x2000, .f32⟩ : BufTy).Contents (Elt F) → (⟨S4x300x2000, .f32⟩ : BufTy).Contents (Elt F)),
    StableHlo.nullary main_cst (constant S_ .f32 0x40400000#32),
    StableHlo.unary main_cst main_v20 (broadcastInDim S4x300x2000 ![] bcast_S_S4x300x2000 : (⟨S_, .f32⟩ : BufTy).Contents (Elt F) → (⟨S4x300x2000, .f32⟩ : BufTy).Contents (Elt F)),
    StableHlo.binary main_v19 main_v20 main_v21 (cmpf .olt : (⟨S4x300x2000, .f32⟩ : BufTy).Contents (Elt F) → (⟨S4x300x2000, .f32⟩ : BufTy).Contents (Elt F) → (⟨S4x300x2000, .i1⟩ : BufTy).Contents (Elt F)),
    StableHlo.nullary main_cst_0 (constant S_ .f32 0x00000000#32),
    StableHlo.unary main_cst_0 main_v22 (broadcastInDim S4x300x2000 ![] bcast_S_S4x300x2000 : (⟨S_, .f32⟩ : BufTy).Contents (Elt F) → (⟨S4x300x2000, .f32⟩ : BufTy).Contents (Elt F)),
    StableHlo.binary main_v18 main_v22 main_v23 (cmpf .oeq : (⟨S4x300x2000, .f32⟩ : BufTy).Contents (Elt F) → (⟨S4x300x2000, .f32⟩ : BufTy).Contents (Elt F) → (⟨S4x300x2000, .i1⟩ : BufTy).Contents (Elt F)),
    StableHlo.nullary main_cst_1 (constant S_ .f32 0x40490FDB#32),
    StableHlo.unary main_cst_1 main_v24 (broadcastInDim S4x300x2000 ![] bcast_S_S4x300x2000 : (⟨S_, .f32⟩ : BufTy).Contents (Elt F) → (⟨S4x300x2000, .f32⟩ : BufTy).Contents (Elt F)),
    StableHlo.binary main_v24 main_v18 main_v25 (mulf : (⟨S4x300x2000, .f32⟩ : BufTy).Contents (Elt F) → (⟨S4x300x2000, .f32⟩ : BufTy).Contents (Elt F) → (⟨S4x300x2000, .f32⟩ : BufTy).Contents (Elt F)),
    StableHlo.unary main_v25 main_v26 (Host.sin : (⟨S4x300x2000, .f32⟩ : BufTy).Contents (Elt F) → (⟨S4x300x2000, .f32⟩ : BufTy).Contents (Elt F)),
    StableHlo.nullary main_cst_2 (constant S_ .f32 0x40490FDB#32),
    StableHlo.unary main_cst_2 main_v27 (broadcastInDim S4x300x2000 ![] bcast_S_S4x300x2000 : (⟨S_, .f32⟩ : BufTy).Contents (Elt F) → (⟨S4x300x2000, .f32⟩ : BufTy).Contents (Elt F)),
    StableHlo.binary main_v27 main_v18 main_v28 (mulf : (⟨S4x300x2000, .f32⟩ : BufTy).Contents (Elt F) → (⟨S4x300x2000, .f32⟩ : BufTy).Contents (Elt F) → (⟨S4x300x2000, .f32⟩ : BufTy).Contents (Elt F)),
    StableHlo.binary main_v26 main_v28 main_v29 (Host.divf : (⟨S4x300x2000, .f32⟩ : BufTy).Contents (Elt F) → (⟨S4x300x2000, .f32⟩ : BufTy).Contents (Elt F) → (⟨S4x300x2000, .f32⟩ : BufTy).Contents (Elt F)),
    StableHlo.nullary main_cst_3 (constant S_ .f32 0x3F800000#32),
    StableHlo.TRef.unary (.of main_cst_3 : StableHlo.TRef sig ⟨S_, .f32⟩) main_call0.v0 id,
    StableHlo.TRef.unary main_call0.v0 main_call0.v1 (broadcastInDim S300x2000 ![] bcast_S_S300x2000),
    StableHlo.TRef.unary main_call0.v1 main_call0.v2 (broadcastInDim S4x300x2000 ![1, 2] bcast_S300x2000_S4x300x2000_1_2),
    StableHlo.TRef.ternary (.of main_v23 : StableHlo.TRef sig ⟨S4x300x2000, .i1⟩) main_call0.v2 (.of main_v29 : StableHlo.TRef sig ⟨S4x300x2000, .f32⟩) main_call0.v3 select,
    StableHlo.nullary main_cst_4 (constant S_ .f32 0x40400000#32),
    StableHlo.unary main_cst_4 main_v31 (broadcastInDim S4x300x2000 ![] bcast_S_S4x300x2000 : (⟨S_, .f32⟩ : BufTy).Contents (Elt F) → (⟨S4x300x2000, .f32⟩ : BufTy).Contents (Elt F)),
    StableHlo.binary main_v18 main_v31 main_v32 (Host.divf : (⟨S4x300x2000, .f32⟩ : BufTy).Contents (Elt F) → (⟨S4x300x2000, .f32⟩ : BufTy).Contents (Elt F) → (⟨S4x300x2000, .f32⟩ : BufTy).Contents (Elt F)),
    StableHlo.nullary main_cst_5 (constant S_ .f32 0x00000000#32),
    StableHlo.unary main_cst_5 main_v33 (broadcastInDim S4x300x2000 ![] bcast_S_S4x300x2000 : (⟨S_, .f32⟩ : BufTy).Contents (Elt F) → (⟨S4x300x2000, .f32⟩ : BufTy).Contents (Elt F)),
    StableHlo.binary main_v32 main_v33 main_v34 (cmpf .oeq : (⟨S4x300x2000, .f32⟩ : BufTy).Contents (Elt F) → (⟨S4x300x2000, .f32⟩ : BufTy).Contents (Elt F) → (⟨S4x300x2000, .i1⟩ : BufTy).Contents (Elt F)),
    StableHlo.nullary main_cst_6 (constant S_ .f32 0x40490FDB#32),
    StableHlo.unary main_cst_6 main_v35 (broadcastInDim S4x300x2000 ![] bcast_S_S4x300x2000 : (⟨S_, .f32⟩ : BufTy).Contents (Elt F) → (⟨S4x300x2000, .f32⟩ : BufTy).Contents (Elt F)),
    StableHlo.binary main_v35 main_v32 main_v36 (mulf : (⟨S4x300x2000, .f32⟩ : BufTy).Contents (Elt F) → (⟨S4x300x2000, .f32⟩ : BufTy).Contents (Elt F) → (⟨S4x300x2000, .f32⟩ : BufTy).Contents (Elt F)),
    StableHlo.unary main_v36 main_v37 (Host.sin : (⟨S4x300x2000, .f32⟩ : BufTy).Contents (Elt F) → (⟨S4x300x2000, .f32⟩ : BufTy).Contents (Elt F)),
    StableHlo.nullary main_cst_7 (constant S_ .f32 0x40490FDB#32),
    StableHlo.unary main_cst_7 main_v38 (broadcastInDim S4x300x2000 ![] bcast_S_S4x300x2000 : (⟨S_, .f32⟩ : BufTy).Contents (Elt F) → (⟨S4x300x2000, .f32⟩ : BufTy).Contents (Elt F)),
    StableHlo.binary main_v38 main_v32 main_v39 (mulf : (⟨S4x300x2000, .f32⟩ : BufTy).Contents (Elt F) → (⟨S4x300x2000, .f32⟩ : BufTy).Contents (Elt F) → (⟨S4x300x2000, .f32⟩ : BufTy).Contents (Elt F)),
    StableHlo.binary main_v37 main_v39 main_v40 (Host.divf : (⟨S4x300x2000, .f32⟩ : BufTy).Contents (Elt F) → (⟨S4x300x2000, .f32⟩ : BufTy).Contents (Elt F) → (⟨S4x300x2000, .f32⟩ : BufTy).Contents (Elt F)),
    StableHlo.nullary main_cst_8 (constant S_ .f32 0x3F800000#32),
    StableHlo.TRef.unary (.of main_cst_8 : StableHlo.TRef sig ⟨S_, .f32⟩) main_call1.v0 id,
    StableHlo.TRef.unary main_call1.v0 main_call1.v1 (broadcastInDim S300x2000 ![] bcast_S_S300x2000),
    StableHlo.TRef.unary main_call1.v1 main_call1.v2 (broadcastInDim S4x300x2000 ![1, 2] bcast_S300x2000_S4x300x2000_1_2),
    StableHlo.TRef.ternary (.of main_v34 : StableHlo.TRef sig ⟨S4x300x2000, .i1⟩) main_call1.v2 (.of main_v40 : StableHlo.TRef sig ⟨S4x300x2000, .f32⟩) main_call1.v3 select,
    StableHlo.binary main_v30 main_v41 main_v42 (mulf : (⟨S4x300x2000, .f32⟩ : BufTy).Contents (Elt F) → (⟨S4x300x2000, .f32⟩ : BufTy).Contents (Elt F) → (⟨S4x300x2000, .f32⟩ : BufTy).Contents (Elt F)),
    StableHlo.nullary main_cst_9 (constant S_ .f32 0x00000000#32),
    StableHlo.TRef.unary (.of main_cst_9 : StableHlo.TRef sig ⟨S_, .f32⟩) main_call2.v0 id,
    StableHlo.TRef.unary main_call2.v0 main_call2.v1 (broadcastInDim S300x2000 ![] bcast_S_S300x2000),
    StableHlo.TRef.unary main_call2.v1 main_call2.v2 (broadcastInDim S4x300x2000 ![1, 2] bcast_S300x2000_S4x300x2000_1_2),
    StableHlo.TRef.ternary (.of main_v21 : StableHlo.TRef sig ⟨S4x300x2000, .i1⟩) (.of main_v42 : StableHlo.TRef sig ⟨S4x300x2000, .f32⟩) main_call2.v2 main_call2.v3 select,
    StableHlo.nullary main_cst_10 (constant S_ .f32 0x00000000#32),
    StableHlo.binary main_v43 main_cst_10 main_v44 ((fun x v => Host.reduceAdd x v reducesTo_S4x300x2000_S4x300_d2 h_S_) : (⟨S4x300x2000, .f32⟩ : BufTy).Contents (Elt F) → (⟨S_, .f32⟩ : BufTy).Contents (Elt F) → (⟨S4x300, .f32⟩ : BufTy).Contents (Elt F)),
    StableHlo.unary main_v44 main_v45 (broadcastInDim S4x300x1 ![0, 1] bcast_S4x300_S4x300x1_0_1 : (⟨S4x300, .f32⟩ : BufTy).Contents (Elt F) → (⟨S4x300x1, .f32⟩ : BufTy).Contents (Elt F)),
    StableHlo.nullary main_cst_11 (constant S_ .f32 0x00000000#32),
    StableHlo.unary main_cst_11 main_v46 (broadcastInDim S4x300x1 ![] bcast_S_S4x300x1 : (⟨S_, .f32⟩ : BufTy).Contents (Elt F) → (⟨S4x300x1, .f32⟩ : BufTy).Contents (Elt F)) ]

/-- Statements 61 … 97 of @main as operations: the normalised rows (`_where_1`, two operations), the batched product
    and the trim, the z-score (`_std`: `_var`'s twenty operations, `_where_2`'s four inside it, and the square root),
    the three delayed copies (`_pad`, `_pad_3`, `_pad_4`, two operations each), the concatenation, the dense layer
    and the bias. -/
abbrev ops1 : List (HloOp τ sig (Elt F)) :=
  [ StableHlo.binary main_v45 main_v46 main_v47 (cmpf .ogt : (⟨S4x300x1, .f32⟩ : BufTy).Contents (Elt F) → (⟨S4x300x1, .f32⟩ : BufTy).Contents (Elt F) → (⟨S4x300x1, .i1⟩ : BufTy).Contents (Elt F)),
    StableHlo.unary main_v45 main_v48 (broadcastInDim S4x300x2000 ![0, 1, 2] bcast_S4x300x1_S4x300x2000_0_1_2 : (⟨S4x300x1, .f32⟩ : BufTy).Contents (Elt F) → (⟨S4x300x2000, .f32⟩ : BufTy).Contents (Elt F)),
    StableHlo.binary main_v43 main_v48 main_v49 (Host.divf : (⟨S4x300x2000, .f32⟩ : BufTy).Contents (Elt F) → (⟨S4x300x2000, .f32⟩ : BufTy).Contents (Elt F) → (⟨S4x300x2000, .f32⟩ : BufTy).Contents (Elt F)),
    StableHlo.TRef.unary (.of main_v47 : StableHlo.TRef sig ⟨S4x300x1, .i1⟩) main_call3.v0 (broadcastInDim S4x300x2000 ![0, 1, 2] bcast_S4x300x1_S4x300x2000_0_1_2),
    StableHlo.TRef.ternary main_call3.v0 (.of main_v49 : StableHlo.TRef sig ⟨S4x300x2000, .f32⟩) (.of main_v43 : StableHlo.TRef sig ⟨S4x300x2000, .f32⟩) main_call3.v1 select,
    StableHlo.binary main_v50 main_arg0 main_v51 ((fun l r => Host.dotGeneral dot_S4x300x2000_S4x2000x1024_S4x300x1024_2_1_1_2_0_0 none l r) : (⟨S4x300x2000, .f32⟩ : BufTy).Contents (Elt F) → (⟨S4x2000x1024, .f32⟩ : BufTy).Contents (Elt F) → (⟨S4x300x1024, .f32⟩ : BufTy).Contents (Elt F)),
    StableHlo.unary main_v51 main_v52 ((extractStridedSlice S4x280x1024 ![0, 10, 0] · slices_S4x300x1024_S4x280x1024_0_10_0) : (⟨S4x300x1024, .f32⟩ : BufTy).Contents (Elt F) → (⟨S4x280x1024, .f32⟩ : BufTy).Contents (Elt F)),
    StableHlo.nullary main_cst_12 (constant S_ .f32 0x00000000#32),
    StableHlo.binary main_v52 main_cst_12 main_v53 ((fun x v => Host.reduceAdd x v reducesTo_S4x280x1024_S4x1024_d1 h_S_) : (⟨S4x280x1024, .f32⟩ : BufTy).Contents (Elt F) → (⟨S_, .f32⟩ : BufTy).Contents (Elt F) → (⟨S4x1024, .f32⟩ : BufTy).Contents (Elt F)),
    StableHlo.unary main_v53 main_v54 (broadcastInDim S4x1x1024 ![0, 2] bcast_S4x1024_S4x1x1024_0_2 : (⟨S4x1024, .f32⟩ : BufTy).Contents (Elt F) → (⟨S4x1x1024, .f32⟩ : BufTy).Contents (Elt F)),
    StableHlo.nullary main_cst_13 (constant S_ .f32 0x438C0000#32),
    StableHlo.unary main_cst_13 main_v55 (broadcastInDim S4x1x1024 ![] bcast_S_S4x1x1024 : (⟨S_, .f32⟩ : BufTy).Contents (Elt F) → (⟨S4x1x1024, .f32⟩ : BufTy).Contents (Elt F)),
    StableHlo.binary main_v54 main_v55 main_v56 (Host.divf : (⟨S4x1x1024, .f32⟩ : BufTy).Contents (Elt F) → (⟨S4x1x1024, .f32⟩ : BufTy).Contents (Elt F) → (⟨S4x1x1024, .f32⟩ : BufTy).Contents (Elt F)),
    StableHlo.nullary main_c (constantI S_ 32 1#32),
    StableHlo.TRef.nullary main_call4.call0.cst (constant S_ .f32 0x00000000#32),
    StableHlo.TRef.binary (.of main_v52 : StableHlo.TRef sig ⟨S4x280x1024, .f32⟩) main_call4.call0.cst main_call4.call0.v0 (fun x v => Host.reduceAdd x v reducesTo_S4x280x1024_S4x1024_d1 h_S_),
    StableHlo.TRef.unary main_call4.call0.v0 main_call4.call0.v1 (broadcastInDim S4x1x1024 ![0, 2] bcast_S4x1024_S4x1x1024_0_2),
    StableHlo.TRef.nullary main_call4.call0.cst_0 (constant S_ .f32 0x438C0000#32),
    StableHlo.TRef.unary main_call4.call0.cst_0 main_call4.call0.v2 (broadcastInDim S4x1x1024 ![] bcast_S_S4x1x1024),
    StableHlo.TRef.binary main_call4.call0.v1 main_call4.call0.v2 main_call4.call0.v3 Host.divf,
    StableHlo.TRef.unary main_call4.call0.v3 main_call4.call0.v4 (broadcastInDim S4x280x1024 ![0, 1, 2] bcast_S4x1x1024_S4x280x1024_0_1_2),
    StableHlo.TRef.binary (.of main_v52 : StableHlo.TRef sig ⟨S4x280x1024, .f32⟩) main_call4.call0.v4 main_call4.call0.v5 subf,
    StableHlo.TRef.binary main_call4.call0.v5 main_call4.call0.v5 main_call4.call0.v6 mulf,
    StableHlo.TRef.unary (.of main_c : StableHlo.TRef sig ⟨S_, .i32⟩) main_call4.call0.v7 (sitofp .f32),
    StableHlo.TRef.nullary main_call4.call0.cst_1 (constant S_ .f32 0x438C0000#32),
    StableHlo.TRef.binary main_call4.call0.cst_1 main_call4.call0.v7 main_call4.call0.v8 subf,
    StableHlo.TRef.nullary main_call4.call0.cst_2 (constant S_ .f32 0x00000000#32),
    StableHlo.TRef.binary main_call4.call0.v6 main_call4.call0.cst_2 main_call4.call0.v9 (fun x v => Host.reduceAdd x v reducesTo_S4x280x1024_S4x1024_d1 h_S_),
    StableHlo.TRef.unary main_call4.call0.v9 main_call4.call0.v10 (broadcastInDim S4x1x1024 ![0, 2] bcast_S4x1024_S4x1x1024_0_2),
    StableHlo.TRef.unary main_call4.call0.v8 main_call4.call0.v11 (broadcastInDim S4x1x1024 ![] bcast_S_S4x1x1024),
    StableHlo.TRef.binary main_call4.call0.v10 main_call4.call0.v11 main_call4.call0.v12 Host.divf,
    StableHlo.TRef.nullary main_call4.call0.cst_3 (constant S_ .f32 0x00000000#32),
    StableHlo.TRef.binary main_call4.call0.v8 main_call4.call0.cst_3 main_call4.call0.v13 (cmpf .ogt),
    StableHlo.TRef.nullary main_call4.call0.cst_4 (constant S_ .f32 0x7FC00000#32),
    StableHlo.TRef.unary main_call4.call0.cst_4 main_call4.call0.call0.v0 id,
    StableHlo.TRef.unary main_call4.call0.call0.v0 main_call4.call0.call0.v1 (broadcastInDim S1x1024 ![] bcast_S_S1x1024),
    StableHlo.TRef.unary main_call4.call0.call0.v1 main_call4.call0.call0.v2 (broadcastInDim S4x1x1024 ![1, 2] bcast_S1x1024_S4x1x1024_1_2),
    StableHlo.TRef.ternary main_call4.call0.v13 main_call4.call0.v12 main_call4.call0.call0.v2 main_call4.call0.call0.v3 (fun p a b => select (broadcastInDim S4x1x1024 ![] bcast_S_S4x1x1024 p) a b),
    StableHlo.TRef.unary main_call4.call0.call0.v3 main_call4.v1 Host.sqrt,
    StableHlo.nullary main_cst_14 (constant S_ .f32 0x358637BD#32),
    StableHlo.unary main_cst_14 main_v58 (broadcastInDim S4x1x1024 ![] bcast_S_S4x1x1024 : (⟨S_, .f32⟩ : BufTy).Contents (Elt F) → (⟨S4x1x1024, .f32⟩ : BufTy).Contents (Elt F)),
    StableHlo.binary main_v57 main_v58 main_v59 (addf : (⟨S4x1x1024, .f32⟩ : BufTy).Contents (Elt F) → (⟨S4x1x1024, .f32⟩ : BufTy).Contents (Elt F) → (⟨S4x1x1024, .f32⟩ : BufTy).Contents (Elt F)),
    StableHlo.unary main_v56 main_v60 (broadcastInDim S4x280x1024 ![0, 1, 2] bcast_S4x1x1024_S4x280x1024_0_1_2 : (⟨S4x1x1024, .f32⟩ : BufTy).Contents (Elt F) → (⟨S4x280x1024, .f32⟩ : BufTy).Contents (Elt F)),
    StableHlo.binary main_v52 main_v60 main_v61 (subf : (⟨S4x280x1024, .f32⟩ : BufTy).Contents (Elt F) → (⟨S4x280x1024, .f32⟩ : BufTy).Contents (Elt F) → (⟨S4x280x1024, .f32⟩ : BufTy).Contents (Elt F)),
    StableHlo.unary main_v59 main_v62 (broadcastInDim S4x280x1024 ![0, 1, 2] bcast_S4x1x1024_S4x280x1024_0_1_2 : (⟨S4x1x1024, .f32⟩ : BufTy).Contents (Elt F) → (⟨S4x280x1024, .f32⟩ : BufTy).Contents (Elt F)),
    StableHlo.binary main_v61 main_v62 main_v63 (Host.divf : (⟨S4x280x1024, .f32⟩ : BufTy).Contents (Elt F) → (⟨S4x280x1024, .f32⟩ : BufTy).Contents (Elt F) → (⟨S4x280x1024, .f32⟩ : BufTy).Contents (Elt F)),
    StableHlo.reshape main_v63 main_v64 rfl shapeCasts_S4x280x1024_S1120x1024,
    StableHlo.nullary main_c_15 (constantI S_ 32 0#32),
    StableHlo.TRef.unary (.of main_c_15 : StableHlo.TRef sig ⟨S_, .i32⟩) main_call5.v0 (sitofp .f32),
    StableHlo.TRef.binary (.of main_v64 : StableHlo.TRef sig ⟨S1120x1024, .f32⟩) main_call5.v0 main_call5.v1 (fun x v => pad S1121x1024 ![1, 0] ![0, 0] ![0, 0] x v pads_S1120x1024_S1121x1024_100_000 h_S_),
    StableHlo.unary main_v65 main_v66 ((extractStridedSlice S1120x1024 ![0, 0] · slices_S1121x1024_S1120x1024_0_0) : (⟨S1121x1024, .f32⟩ : BufTy).Contents (Elt F) → (⟨S1120x1024, .f32⟩ : BufTy).Contents (Elt F)),
    StableHlo.nullary main_c_16 (constantI S_ 32 0#32),
    StableHlo.TRef.unary (.of main_c_16 : StableHlo.TRef sig ⟨S_, .i32⟩) main_call6.v0 (sitofp .f32),
    StableHlo.TRef.binary (.of main_v64 : StableHlo.TRef sig ⟨S1120x1024, .f32⟩) main_call6.v0 main_call6.v1 (fun x v => pad S1122x1024 ![2, 0] ![0, 0] ![0, 0] x v pads_S1120x1024_S1122x1024_200_000 h_S_),
    StableHlo.unary main_v67 main_v68 ((extractStridedSlice S1120x1024 ![0, 0] · slices_S1122x1024_S1120x1024_0_0) : (⟨S1122x1024, .f32⟩ : BufTy).Contents (Elt F) → (⟨S1120x1024, .f32⟩ : BufTy).Contents (Elt F)),
    StableHlo.nullary main_c_17 (constantI S_ 32 0#32),
    StableHlo.TRef.unary (.of main_c_17 : StableHlo.TRef sig ⟨S_, .i32⟩) main_call7.v0 (sitofp .f32),
    StableHlo.TRef.binary (.of main_v64 : StableHlo.TRef sig ⟨S1120x1024, .f32⟩) main_call7.v0 main_call7.v1 (fun x v => pad S1123x1024 ![3, 0] ![0, 0] ![0, 0] x v pads_S1120x1024_S1123x1024_300_000 h_S_),
    StableHlo.unary main_v69 main_v70 ((extractStridedSlice S1120x1024 ![0, 0] · slices_S1123x1024_S1120x1024_0_0) : (⟨S1123x1024, .f32⟩ : BufTy).Contents (Elt F) → (⟨S1120x1024, .f32⟩ : BufTy).Contents (Elt F)),
    StableHlo.nary ![main_v64, main_v66, main_v68, main_v70] main_v71 (fun u => concatenate S1120x4096 1 [⟨S1120x1024, u 0⟩, ⟨S1120x1024, u 1⟩, ⟨S1120x1024, u 2⟩, ⟨S1120x1024, u 3⟩] concatenates_S1120x1024_S1120x1024_S1120x1024_S1120x1024_S1120x4096_d1),
    StableHlo.binary main_v71 main_arg3 main_v72 ((fun l r => Host.dotGeneral dot_S1120x4096_S4096x50000_S1120x50000_1_0_0_1_n_n none l r) : (⟨S1120x4096, .f32⟩ : BufTy).Contents (Elt F) → (⟨S4096x50000, .f32⟩ : BufTy).Contents (Elt F) → (⟨S1120x50000, .f32⟩ : BufTy).Contents (Elt F)),
    StableHlo.unary main_arg4 main_v73 (broadcastInDim S1x50000 ![1] bcast_S50000_S1x50000_1 : (⟨S50000, .f32⟩ : BufTy).Contents (Elt F) → (⟨S1x50000, .f32⟩ : BufTy).Contents (Elt F)),
    StableHlo.unary main_v73 main_v74 (broadcastInDim S1120x50000 ![0, 1] bcast_S1x50000_S1120x50000_0_1 : (⟨S1x50000, .f32⟩ : BufTy).Contents (Elt F) → (⟨S1120x50000, .f32⟩ : BufTy).Contents (Elt F)),
    StableHlo.binary main_v72 main_v74 main_v75 (addf : (⟨S1120x50000, .f32⟩ : BufTy).Contents (Elt F) → (⟨S1120x50000, .f32⟩ : BufTy).Contents (Elt F) → (⟨S1120x50000, .f32⟩ : BufTy).Contents (Elt F)) ]

/-- @main's 133 operations, in order. -/
abbrev ops : List (HloOp τ sig (Elt F)) := ops0 ++ ops1

/-! ## @main is that line -/

/-- The first window is its operations in order: both sides are the same chain of `hlo` steps once each callee's
    definition is opened at its call and sequencing is reassociated, which is computation. -/
theorem part0_eq (d : Dev nD) : main_part0 (F := F) d = seq ops0 := by
  chain_rfl

/-- The second window likewise; `_std`'s call opens `_var`'s, which opens `_where_2`'s. -/
theorem part1_eq (d : Dev nD) : main_part1 (F := F) d = seq ops1 := by
  chain_rfl

theorem main_eq (d : Dev nD) : main (F := F) d = seq ops := by
  show (main_part0 (F := F) d >>= fun _ => main_part1 (F := F) d) = seq (ops0 ++ ops1)
  rw [seq_append, part0_eq, part1_eq]

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨unary_bufs_sub .., reshape_bufs_sub .., unary_bufs_sub .., reshape_bufs_sub .., binary_bufs_sub .., unary_bufs_sub ..,
    reshape_bufs_sub .., unary_bufs_sub .., reshape_bufs_sub .., binary_bufs_sub .., binary_bufs_sub .., unary_bufs_sub ..,
    unary_bufs_sub .., unary_bufs_sub .., unary_bufs_sub .., binary_bufs_sub .., unary_bufs_sub .., unary_bufs_sub ..,
    binary_bufs_sub .., unary_bufs_sub .., nullary_bufs_sub .., unary_bufs_sub .., binary_bufs_sub .., nullary_bufs_sub ..,
    unary_bufs_sub .., binary_bufs_sub .., nullary_bufs_sub .., unary_bufs_sub .., binary_bufs_sub .., unary_bufs_sub ..,
    nullary_bufs_sub .., unary_bufs_sub .., binary_bufs_sub .., binary_bufs_sub .., nullary_bufs_sub .., unary_bufs_sub ..,
    unary_bufs_sub .., unary_bufs_sub .., ternary_bufs_sub .., nullary_bufs_sub .., unary_bufs_sub .., binary_bufs_sub ..,
    nullary_bufs_sub .., unary_bufs_sub .., binary_bufs_sub .., nullary_bufs_sub .., unary_bufs_sub .., binary_bufs_sub ..,
    unary_bufs_sub .., nullary_bufs_sub .., unary_bufs_sub .., binary_bufs_sub .., binary_bufs_sub .., nullary_bufs_sub ..,
    unary_bufs_sub .., unary_bufs_sub .., unary_bufs_sub .., ternary_bufs_sub .., binary_bufs_sub .., nullary_bufs_sub ..,
    unary_bufs_sub .., unary_bufs_sub .., unary_bufs_sub .., ternary_bufs_sub .., nullary_bufs_sub .., binary_bufs_sub ..,
    unary_bufs_sub .., nullary_bufs_sub .., unary_bufs_sub ..⟩

theorem ops1_sub : (ops1 : List (HloOp τ sig (Elt F))).Forall fun op => op.bufs ⊆ tcRefs τ sig :=
  ⟨binary_bufs_sub .., unary_bufs_sub .., binary_bufs_sub .., unary_bufs_sub .., ternary_bufs_sub .., binary_bufs_sub ..,
    unary_bufs_sub .., nullary_bufs_sub .., binary_bufs_sub .., unary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., unary_bufs_sub ..,
    binary_bufs_sub .., nullary_bufs_sub .., binary_bufs_sub .., nullary_bufs_sub .., unary_bufs_sub .., unary_bufs_sub ..,
    unary_bufs_sub .., ternary_bufs_sub .., unary_bufs_sub .., nullary_bufs_sub .., unary_bufs_sub .., binary_bufs_sub ..,
    unary_bufs_sub .., binary_bufs_sub .., unary_bufs_sub .., binary_bufs_sub .., reshape_bufs_sub .., nullary_bufs_sub ..,
    unary_bufs_sub .., binary_bufs_sub .., unary_bufs_sub .., nullary_bufs_sub .., unary_bufs_sub .., binary_bufs_sub ..,
    unary_bufs_sub .., nullary_bufs_sub .., unary_bufs_sub .., binary_bufs_sub .., unary_bufs_sub .., nary_bufs_sub ..,
    binary_bufs_sub .., unary_bufs_sub .., unary_bufs_sub .., binary_bufs_sub ..⟩

theorem ops_sub : (ops : List (HloOp τ sig (Elt F))).Forall fun op => op.bufs ⊆ tcRefs τ sig :=
  forall_append ops0_sub ops1_sub

/-- Every operation determines its results: none allocates. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl⟩

theorem ops_fresh : ∀ op ∈ (ops : List (HloOp τ sig (Elt F))), op.fresh = ∅ :=
  List.forall_iff_forall_mem.1 (forall_append ops0_fresh ops1_fresh)

/-! ## What the line leaves at the results and at the arguments -/

set_option maxHeartbeats 4000000 in
/-- The first result: the dense layer applied to the delayed features, plus the bias row under every row. The fold
    is unrolled and each operation's result read where it is written; what is left is the operations' composed term,
    which is the staged one by computation (the same shapes, the facts proofs of the same propositions). -/
theorem out_eq (V : Valuation τ sig (Elt F)) :
    after ops V (Proc.devRef .tc main_v75)
      = addf (Host.dotGeneral dot_S1120x4096_S4096x50000_S1120x50000_1_0_0_1_n_n none
                (Cert.HostStages.delayedOf (V (Proc.devRef .tc main_arg0)) (V (Proc.devRef .tc main_arg1)) (V (Proc.devRef .tc main_arg2)))
                (V (Proc.devRef .tc main_arg3)))
          (broadcastInDim S1120x50000 ![0, 1] bcast_S1x50000_S1120x50000_0_1
            (broadcastInDim S1x50000 ![1] bcast_S50000_S1x50000_1 (V (Proc.devRef .tc main_arg4)))) := by
  rw [show (ops : List (HloOp τ sig (Elt F))) = ops0 ++ ops1 from rfl, after_append]
  simp (disch := decide) only [after_cons, after_nil,
    nullary_result', unary_result', binary_result', ternary_result', reshape_result', nary4_result',
    nullary_result_ne', unary_result_ne', binary_result_ne', ternary_result_ne', reshape_result_ne', nary_result_ne']
  sl_kernel_rfl

set_option maxHeartbeats 4000000 in
/-- The second result: the delayed features, the operand of the dense layer. -/
theorem feat_eq (V : Valuation τ sig (Elt F)) :
    after ops V (Proc.devRef .tc main_v71)
      = Cert.HostStages.delayedOf (V (Proc.devRef .tc main_arg0)) (V (Proc.devRef .tc main_arg1)) (V (Proc.devRef .tc main_arg2)) := by
  rw [show (ops : List (HloOp τ sig (Elt F))) = ops0 ++ ops1 from rfl, after_append]
  simp (disch := decide) only [after_cons, after_nil,
    nullary_result', unary_result', binary_result', ternary_result', reshape_result', nary4_result',
    nullary_result_ne', unary_result_ne', binary_result_ne', ternary_result_ne', reshape_result_ne', nary_result_ne']
  sl_kernel_rfl

/-! No operation writes an argument: each is read through every operation's result as it was. -/

set_option maxHeartbeats 4000000 in
theorem arg0_eq (V : Valuation τ sig (Elt F)) :
    after ops V (Proc.devRef .tc main_arg0) = V (Proc.devRef .tc main_arg0) := by
  rw [show (ops : List (HloOp τ sig (Elt F))) = ops0 ++ ops1 from rfl, after_append]
  simp (disch := decide) only [after_cons, after_nil,
    nullary_result', unary_result', binary_result', ternary_result', reshape_result', nary4_result',
    nullary_result_ne', unary_result_ne', binary_result_ne', ternary_result_ne', reshape_result_ne', nary_result_ne']

set_option maxHeartbeats 4000000 in
theorem arg1_eq (V : Valuation τ sig (Elt F)) :
    after ops V (Proc.devRef .tc main_arg1) = V (Proc.devRef .tc main_arg1) := by
  rw [show (ops : List (HloOp τ sig (Elt F))) = ops0 ++ ops1 from rfl, after_append]
  simp (disch := decide) only [after_cons, after_nil,
    nullary_result', unary_result', binary_result', ternary_result', reshape_result', nary4_result',
    nullary_result_ne', unary_result_ne', binary_result_ne', ternary_result_ne', reshape_result_ne', nary_result_ne']

set_option maxHeartbeats 4000000 in
theorem arg2_eq (V : Valuation τ sig (Elt F)) :
    after ops V (Proc.devRef .tc main_arg2) = V (Proc.devRef .tc main_arg2) := by
  rw [show (ops : List (HloOp τ sig (Elt F))) = ops0 ++ ops1 from rfl, after_append]
  simp (disch := decide) only [after_cons, after_nil,
    nullary_result', unary_result', binary_result', ternary_result', reshape_result', nary4_result',
    nullary_result_ne', unary_result_ne', binary_result_ne', ternary_result_ne', reshape_result_ne', nary_result_ne']

set_option maxHeartbeats 4000000 in
theorem arg3_eq (V : Valuation τ sig (Elt F)) :
    after ops V (Proc.devRef .tc main_arg3) = V (Proc.devRef .tc main_arg3) := by
  rw [show (ops : List (HloOp τ sig (Elt F))) = ops0 ++ ops1 from rfl, after_append]
  simp (disch := decide) only [after_cons, after_nil,
    nullary_result', unary_result', binary_result', ternary_result', reshape_result', nary4_result',
    nullary_result_ne', unary_result_ne', binary_result_ne', ternary_result_ne', reshape_result_ne', nary_result_ne']

set_option maxHeartbeats 4000000 in
theorem arg4_eq (V : Valuation τ sig (Elt F)) :
    after ops V (Proc.devRef .tc main_arg4) = V (Proc.devRef .tc main_arg4) := by
  rw [show (ops : List (HloOp τ sig (Elt F))) = ops0 ++ ops1 from rfl, after_append]
  simp (disch := decide) only [after_cons, after_nil,
    nullary_result', unary_result', binary_result', ternary_result', reshape_result', nary4_result',
    nullary_result_ne', unary_result_ne', binary_result_ne', ternary_result_ne', reshape_result_ne', nary_result_ne']

/-! ## The run -/

/-- For any float values, on the device, from any memory with zero counters: every weakly fair execution of @main
    terminates, the two results at the composed terms of the arguments' launch contents and the arguments unchanged. -/
theorem run_any (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v75)
        = addf (Host.dotGeneral dot_S1120x4096_S4096x50000_S1120x50000_1_0_0_1_n_n none
                  (Cert.HostStages.delayedOf (m ((c.tc : Thread nD τ).loc main_arg0)) (m ((c.tc : Thread nD τ).loc main_arg1))
                    (m ((c.tc : Thread nD τ).loc main_arg2)))
                  (m ((c.tc : Thread nD τ).loc main_arg3)))
            (broadcastInDim S1120x50000 ![0, 1] bcast_S1x50000_S1120x50000_0_1
              (broadcastInDim S1x50000 ![1] bcast_S50000_S1x50000_1 (m ((c.tc : Thread nD τ).loc main_arg4))))
      ∧ r.2.mem ((c.tc : Thread nD τ).loc main_v71)
        = Cert.HostStages.delayedOf (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v75).trans (out_eq (launchContents m c)),
      (h c main_v71).trans (feat_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c))⟩)
    (run_seq scopedRefs_eq scopedSems_eq defs main (fun _ => ops) main_eq (fun _ => ops_sub) m ρ (fun _ => ops_fresh))

/-- The same at the ideal instance, where the certificate's claim about the reference is stated. -/
theorem run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ fun r => ∀ c : Dev nD,
      r.2.mem ((c.tc : Thread nD τ).loc main_v75)
        = addf (Host.dotGeneral (F := Ideal) (φ₁ := .f32) (φ₂ := .f32) dot_S1120x4096_S4096x50000_S1120x50000_1_0_0_1_n_n none
                  (Cert.HostStages.delayedOf (m ((c.tc : Thread nD τ).loc main_arg0)) (m ((c.tc : Thread nD τ).loc main_arg1))
                    (m ((c.tc : Thread nD τ).loc main_arg2)))
                  (m ((c.tc : Thread nD τ).loc main_arg3)))
            (broadcastInDim S1120x50000 ![0, 1] bcast_S1x50000_S1120x50000_0_1
              (broadcastInDim S1x50000 ![1] bcast_S50000_S1x50000_1 (m ((c.tc : Thread nD τ).loc main_arg4))))
      ∧ r.2.mem ((c.tc : Thread nD τ).loc main_v71)
        = Cert.HostStages.delayedOf (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  run_any (F := Ideal) m ρ

end Cert.ReferenceIdeal.Hand

end
-- ==== Proof.LibHostDot.lean ====
/-
  A host matrix product read at one entry.

  The host's `dot_general` of an M × K matrix with a K × N matrix — left contracting axis 1, right contracting axis 0, no
  batch axis: the plain product l · r — is at the ideal values the sum over the contraction coordinate k of
  l (i, k) · r (k, j): entry (i, j) is the dot product of row i of the left operand with column j of the right one.
  The statement is over any dimension record whose six lists are those, whatever name a printed record carries.
-/
import Idealize.ShloMosaic.Lib.ValueIdx
import Idealize.ShloMosaic.PureOps.Ideal.Laws

noncomputable section

open scoped BigOperators

namespace Idealize.ShloMosaic.HostDot

open Idealize.ShloMosaic Idealize.ShloMosaic.ValueIdx

/-- Entry (i, j) of an M × K by K × N host `dot_general` contracting the left operand's columns with the right
    operand's rows, at the ideal values: the dot product of the left operand's row i with the right operand's column j. -/
theorem dotGeneral_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    Host.dotGeneral D prec l r (ix2 i j) = ∑ k : Fin K, l (ix2 i k) * r (ix2 k j) := by
  obtain ⟨lc, rc, ln, rn, lb, rb, wf⟩ := D
  dsimp only at hlc hrc hln hrn hlb hrb
  subst hlc hrc hln hrn hlb hrb
  refine (Ideal.dotGeneral_apply _ prec .single l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.HostDot

end
-- ==== Proof.RefDense.lean ====
/-
  The reference's last four operations compute the dense layer, entry by entry.

  The reference ends with the host matrix product of the features [1120, 4096] with the weights [4096, 50000], the
  bias [50000] broadcast first to one row [1, 50000] and then over the 1120 rows, and the sum of the two. At the ideal
  values entry (p, col) of that sum is the dot product of row p of the features with column col of the weights, plus
  the bias at col: the product by the host product read at one entry, the bias because each of the two broadcasts
  reads its operand at the column coordinate. The word-level program stages the bias as the reshape [50000] → [1, 50000],
  which reads the same entry of the bias at (0, col); so the reference's sum is the dense layer of the features, the
  weights and that one-row bias.
-/
import proofs.«132525_j84310208020704_2_alg».proof.Proof.DenseSpec
import proofs.«132525_j84310208020704_2_alg».proof.Proof.LibHostDot
import proofs.«132525_j84310208020704_2_alg».proof.ReferenceIdeal
import proofs.«132525_j84310208020704_2_alg».proof.Proof.Gen.ReferenceIdeal
import proofs.«132525_j84310208020704_2_alg».proof.Proof.Gen.KernelIdeal
import Idealize.ShloMosaic.Lib.ValueLayout
import Idealize.ShloMosaic.Lib.Pipeline.Value

noncomputable section

open scoped BigOperators

namespace Cert.RefDense

open Idealize.ShloMosaic Idealize.ShloMosaic.ValueIdx

/-- The bias broadcast to one row and then over the rows reads, at (p, col), the bias at col. -/
theorem bias_bcast_apply (b : FVec Ideal Cert.ReferenceIdeal.S50000 .f32) (p : Fin 1120) (col : Fin 50000) :
    broadcastInDim Cert.ReferenceIdeal.S1120x50000 ![0, 1] Cert.ReferenceIdeal.Facts₀.bcast_S1x50000_S1120x50000_0_1
        (broadcastInDim Cert.ReferenceIdeal.S1x50000 ![1] Cert.ReferenceIdeal.Facts₀.bcast_S50000_S1x50000_1 b) (ix2 p col)
      = b (ix1 col) :=
  (broadcastInDim_apply (s := Cert.ReferenceIdeal.S1x50000) (t := Cert.ReferenceIdeal.S1120x50000) ![0, 1]
      Cert.ReferenceIdeal.Facts₀.bcast_S1x50000_S1120x50000_0_1 _ (ix2 p col) (ix2 (0 : Fin 1) col)
      (fun a => match a with | ⟨0, _⟩ => rfl | ⟨1, _⟩ => rfl)).trans
    (broadcastInDim_apply (s := Cert.ReferenceIdeal.S50000) (t := Cert.ReferenceIdeal.S1x50000) ![1]
      Cert.ReferenceIdeal.Facts₀.bcast_S50000_S1x50000_1 b (ix2 (0 : Fin 1) col) (ix1 col)
      (fun a => match a with | ⟨0, _⟩ => rfl))

/-- The bias reshaped to one row reads, at (0, col), the bias at col. -/
theorem bias_row_apply (b : FVec Ideal Cert.ReferenceIdeal.S50000 .f32) (col : Fin 50000) :
    shapeCast Cert.KernelIdeal.S1x50000 b Cert.KernelIdeal.Facts₀.shapeCasts_S50000_S1x50000 (ix2 (0 : Fin 1) col) = b (ix1 col) :=
  shapeCast_a_1a_apply b Cert.KernelIdeal.Facts₀.shapeCasts_S50000_S1x50000 (0 : Fin 1) col

/-- Entry (p, col) of the reference's product plus broadcast bias is the dense layer's entry. -/
theorem ref_dense (A : FVec Ideal Cert.ReferenceIdeal.S1120x4096 .f32) (W : FVec Ideal Cert.ReferenceIdeal.S4096x50000 .f32)
    (b : FVec Ideal Cert.ReferenceIdeal.S50000 .f32) (p : Fin 1120) (col : Fin 50000) :
    addf (Host.dotGeneral Cert.ReferenceIdeal.dot_S1120x4096_S4096x50000_S1120x50000_1_0_0_1_n_n none A W)
        (broadcastInDim Cert.ReferenceIdeal.S1120x50000 ![0, 1] Cert.ReferenceIdeal.Facts₀.bcast_S1x50000_S1120x50000_0_1
          (broadcastInDim Cert.ReferenceIdeal.S1x50000 ![1] Cert.ReferenceIdeal.Facts₀.bcast_S50000_S1x50000_1 b)) (ix2 p col)
      = Cert.DenseSpec.denseAt A W (shapeCast Cert.KernelIdeal.S1x50000 b Cert.KernelIdeal.Facts₀.shapeCasts_S50000_S1x50000) p col := by
  unfold Cert.DenseSpec.denseAt
  refine (addf_apply _ _ _).trans ?_
  rw [bias_bcast_apply b p col, bias_row_apply b col]
  exact congrArg (· + b (ix1 col))
    (HostDot.dotGeneral_apply Cert.ReferenceIdeal.dot_S1120x4096_S4096x50000_S1120x50000_1_0_0_1_n_n rfl rfl rfl rfl rfl rfl none A W p col)

/-- The same at any index of the result array, by its two coordinates. -/
theorem ref_dense_idx (A : FVec Ideal Cert.ReferenceIdeal.S1120x4096 .f32) (W : FVec Ideal Cert.ReferenceIdeal.S4096x50000 .f32)
    (b : FVec Ideal Cert.ReferenceIdeal.S50000 .f32) (i : Cert.ReferenceIdeal.S1120x50000.Idx) :
    addf (Host.dotGeneral Cert.ReferenceIdeal.dot_S1120x4096_S4096x50000_S1120x50000_1_0_0_1_n_n none A W)
        (broadcastInDim Cert.ReferenceIdeal.S1120x50000 ![0, 1] Cert.ReferenceIdeal.Facts₀.bcast_S1x50000_S1120x50000_0_1
          (broadcastInDim Cert.ReferenceIdeal.S1x50000 ![1] Cert.ReferenceIdeal.Facts₀.bcast_S50000_S1x50000_1 b)) i
      = Cert.DenseSpec.denseAt A W (shapeCast Cert.KernelIdeal.S1x50000 b Cert.KernelIdeal.Facts₀.shapeCasts_S50000_S1x50000) (i 0) (i 1) :=
  (congrArg (addf (Host.dotGeneral Cert.ReferenceIdeal.dot_S1120x4096_S4096x50000_S1120x50000_1_0_0_1_n_n none A W)
        (broadcastInDim Cert.ReferenceIdeal.S1120x50000 ![0, 1] Cert.ReferenceIdeal.Facts₀.bcast_S1x50000_S1120x50000_0_1
          (broadcastInDim Cert.ReferenceIdeal.S1x50000 ![1] Cert.ReferenceIdeal.Facts₀.bcast_S50000_S1x50000_1 b))) (eq_ix2 i)).trans
    (ref_dense A W b (i 0) (i 1))

/-- info: 'Cert.RefDense.ref_dense_idx' depends on axioms: [propext, Classical.choice, Quot.sound] -/
#guard_msgs in #print axioms ref_dense_idx

end Cert.RefDense

end
-- ==== Proof.lean ====
/-
  The certificate of a dense "features · weights + bias" layer computed by a Pallas kernel against its jnp reference.

  Both programs first compute the features on the host by the same chain of operations — Lanczos interpolation weights
  from the two time arrays, the weighted sums of the embeddings, a trim, a z-score per story and feature, four delayed
  copies side by side (Proof/HostStages.lean) — and return them as their second result. The reference then takes one
  matrix product with the weights and adds the bias. The kernel tiles the 50000 output columns in 196 blocks of 256 (the
  last one cut at the array's end), and in each block adds three products: features·weights,
  features·(weights − weights) and (features − features)·weights, the single-precision stand-ins for a split of each
  operand into a coarse part and a remainder. Over the extended reals the split is exact, so the two corrections are
  products with x − x, which is 0 exactly when x is a real number: the weights are real by the precondition, and the
  features are real because every stage of the host chain maps real embeddings to real numbers whatever the time arrays
  hold (Proof/WeightsReal.lean, Proof/FeaturesReal.lean, Proof/DelayedReal.lean). With that the kernel's block `t` is
  block `t` of features · weights + bias (Proof/DenseValue.lean), the blocks cover the result (Proof/FrameKI.lean), and the
  reference's product is the same sum entry by entry (Proof/RefDense.lean).

  The three frames: the word-level kernel's run forgets what the result's buffer holds (Proof/FrameK.lean); the
  idealized kernel's is the value run read at the arguments; the reference's is its host run (Proof/RefRun.lean).
  The two ledger entries are the rule's own statements.
-/
import proofs.«132525_j84310208020704_2_alg».proof.Defs
import proofs.«132525_j84310208020704_2_alg».proof.Proof.FrameK
import proofs.«132525_j84310208020704_2_alg».proof.Proof.FrameKI
import proofs.«132525_j84310208020704_2_alg».proof.Proof.DelayedKI
import proofs.«132525_j84310208020704_2_alg».proof.Proof.DelayedReal
import proofs.«132525_j84310208020704_2_alg».proof.Proof.FiniteArgs
import proofs.«132525_j84310208020704_2_alg».proof.Proof.RefRun
import proofs.«132525_j84310208020704_2_alg».proof.Proof.RefDense
import proofs.«132525_j84310208020704_2_alg».proof.Proof.Gen.Kernel
import proofs.«132525_j84310208020704_2_alg».proof.Proof.Gen.KernelIdeal
import proofs.«132525_j84310208020704_2_alg».proof.Proof.Gen.ReferenceIdeal
import proofs.«132525_j84310208020704_2_alg».proof.Proof.Gen.Pre_finite_inputs
import Idealize.ShloMosaic.Adequacy
import Idealize.ShloMosaic.Init
import Idealize.ShloMosaic.PureOps.IdealRules

noncomputable section

namespace Cert.Proof

open Idealize.ShloMosaic Idealize.ShloMosaic.TcCoe Idealize.SL.Sem

/-- The first result as one function of the five arguments: the dense layer of the delayed features. -/
def denseOf (a0 : FVec Ideal Cert.KernelIdeal.S4x2000x1024 .f32) (a1 : FVec Ideal Cert.KernelIdeal.S4x2000 .f32)
    (a2 : FVec Ideal Cert.KernelIdeal.S4x300 .f32) (a3 : FVec Ideal Cert.KernelIdeal.S4096x50000 .f32)
    (a4 : FVec Ideal Cert.KernelIdeal.S50000 .f32) : Cert.KernelIdeal.S1120x50000.Idx → EReal :=
  fun i => Cert.DenseSpec.denseAt (Cert.HostStages.delayedOf (F := Ideal) a0 a1 a2) a3
    (shapeCast Cert.KernelIdeal.S1x50000 a4 Cert.KernelIdeal.Facts₀.shapeCasts_S50000_S1x50000) (i 0) (i 1)

section Kernel

open Cert.KernelIdeal

/-- The idealized kernel's run under the precondition: the results as functions of the arguments, the arguments kept. -/
theorem kernel_results (m : (ℓ : Loc nD τ sig) → Buf (Elt Ideal) ℓ) (ρ : Dev nD → PrngReg)
    (hpre : Cert.Pre_KernelIdeal (hPre_finite_inputs := Cert.Pre_finite_inputs.Gen.facts) m) :
    θ_run (Cert.KernelIdeal.defs (F := Ideal)) (onTc (τ := τ) (main (F := Ideal))) ⟨m, fun _ => 0, ρ⟩ (fun r => ∀ c : Dev nD,
      r.2.mem ((c.tc : Thread nD τ).loc main_v73)
        = denseOf (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_v71)
        = Cert.HostStages.delayedOf (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have hA : ∀ c i, ∃ r : ℝ, (HostSide.V m c main_v71 : S1120x4096.Idx → EReal) i = (r : EReal) := fun c i => by
    obtain ⟨r, hr⟩ := Cert.HostStages.delayedOf_real _ _ _ (Cert.FiniteArgs.args_real m hpre c).1 i
    exact ⟨r, (congrFun (HostSide.V_delayed m c) i).trans hr⟩
  have hW : ∀ c i, ∃ r : ℝ, (HostSide.V m c main_arg3 : S4096x50000.Idx → EReal) i = (r : EReal) := fun c i => by
    obtain ⟨r, hr⟩ := (Cert.FiniteArgs.args_real m hpre c).2.2.2.1 i
    exact ⟨r, (congrFun (HostSide.V_main_arg3 m c) i).trans hr⟩
  refine (θ_run (Cert.KernelIdeal.defs (F := Ideal)) _ _).mono (fun r h c => ?_) (Run.results m ρ hA hW)
  obtain ⟨h73, h71, h0, h1, h2, h3, h4⟩ := h c
  refine ⟨h73.trans ?_, h71.trans (HostSide.V_delayed m c), h0, h1, h2, h3, h4⟩
  unfold DenseValue.G denseOf
  rw [HostSide.V_delayed, HostSide.V_main_arg3, HostSide.V_biasRow]
  rfl

end Kernel

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ hpre => (θ_run (Cert.KernelIdeal.defs (F := Ideal)) _ _).mono (fun _ h c => (h c).2.2) (kernel_results m ρ hpre)

theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2.2) (Cert.ReferenceIdeal.Hand.run m ρ)

/-- The ledger's two entries: a round trip through the narrower format is the identity at the ideal values. -/
theorem preserves : Cert.preserves_Kernel_KernelIdeal :=
  ⟨IdealRules.truncf_extf.statement _ .f32 .bf16, IdealRules.truncf_extf.statement _ .f32 .bf16⟩

/-- From memories agreeing on the arguments both programs end with the dense layer of the delayed features and with
    the delayed features. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, _, kernel_results m ρ hpre, ?_⟩
  refine (θ_run (Cert.ReferenceIdeal.defs (F := Ideal)) _ _).mono (fun r h c => ?_) (Cert.ReferenceIdeal.Hand.run m' ρ')
  obtain ⟨h75, h71, h0, h1, h2, h3, h4⟩ := h c
  obtain ⟨e0, e1, e2, e3, e4⟩ := hagree c
  refine ⟨?_, ?_, h0, h1, h2, h3, h4⟩
  · rw [h75, e0, e1, e2, e3, e4]
    funext i
    exact Cert.RefDense.ref_dense_idx _ _ _ i
  · rw [h71, e0, e1, e2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
